-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S320000x128 : Shape := ⟨2, ![320000, 128]⟩
abbrev S320000 : Shape := ⟨1, ![320000]⟩
abbrev S384x128 : Shape := ⟨2, ![384, 128]⟩
abbrev S128 : Shape := ⟨1, ![128]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S320000x128 : S_.BroadcastsInDim S320000x128 (![] : Fin 0 → Fin S320000x128.rank)
  reducesTo_S320000x128_S_d0_1 : S320000x128.ReducesTo [0, 1] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg9 : FVec F S128x128 .f32) (main_arg10 : FVec F S128 .f32) (main_arg11 : FVec F S128 .f32) (main_arg12 : FVec F S128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_arg11 : FVec F S128 .f32) (main_arg12 : FVec F S128 .f32) (main_v13 : IVec S_ 1) (main_v16 : IVec S384x128 1) : IVec S_ 1 :=
  let main_c_5 : IVec S_ 1 := constantI S_ 1 1#1
  let main_v17 : IVec S_ 1 := (fun x v => Host.reduce IntOp.andi x v reducesTo_S384x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S10000x128 .f32) (main_arg1 : FVec F S10000x128 .f32) (main_arg2 : FVec F S320000x128 .f32) (main_arg3 : IVec S320000 32) (main_arg4 : IVec S320000 32) (main_arg5 : FVec F S384x128 .f32) (main_arg6 : FVec F S128 .f32) (main_arg7 : FVec F S128x128 .f32) (main_arg8 : FVec F S128 .f32) (main_arg9 : FVec F S128x128 .f32) (main_arg10 : FVec F S128 .f32) (main_arg11 : FVec F S128 .f32) (main_arg12 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S320000x128 .f32 := Host.absf main_arg2
  let main_cst_2 : FVec F S_ .f32 := constant S_ .f32 0x7F800000#32
  let main_v10 : FVec F S320000x128 .f32 := broadcastInDim S320000x128 ![] bcast_S_S320000x128 main_cst_2
  let main_v11 : IVec S320000x128 1 := cmpf .olt main_v9 main_v10
  let main_c_3 : IVec S_ 1 := constantI S_ 1 1#1
  let main_v12 : IVec S_ 1 := (fun x v => Host.reduce IntOp.andi x v reducesTo_S320000x128_S_d0_1 h_S_) main_v11 main_c_3
  let main_v13 : IVec S_ 1 := andi main_v8 main_v12
  let main_v14 : FVec F S384x128 .f32 := Host.absf main_arg5
  let main_cst_4 : FVec F S_ .f32 := constant S_ .f32 0x7F800000#32
  let main_v15 : FVec F S384x128 .f32 := broadcastInDim S384x128 ![] bcast_S_S384x128 main_cst_4
  let main_v16 : IVec S384x128 1 := cmpf .olt main_v14 main_v15
  fn_part1 (F := F) main_arg6 main_arg7 main_arg8 main_arg9 main_arg10 main_arg11 main_arg12 main_v13 main_v16
-- ==== Kernel.lean ====
abbrev S10000x128 : Shape := ⟨2, ![10000, 128]⟩
abbrev S320000x128 : Shape := ⟨2, ![320000, 128]⟩
abbrev S320000 : Shape := ⟨1, ![320000]⟩
abbrev S384x128 : Shape := ⟨2, ![384, 128]⟩
abbrev S128 : Shape := ⟨1, ![128]⟩
abbrev S128x128 : Shape := ⟨2, ![128, 128]⟩
abbrev S_ : Shape := ⟨0, ![]⟩
abbrev S320000x1 : Shape := ⟨2, ![320000, 1]⟩
abbrev S1 : Shape := ⟨1, ![1]⟩
abbrev S1x1 : Shape := ⟨2, ![1, 1]⟩
abbrev S5000x128 : Shape := ⟨2, ![5000, 128]⟩
abbrev S1x128 : Shape := ⟨2, ![1, 128]⟩
abbrev S5000 : Shape := ⟨1, ![5000]⟩
abbrev S5000x1 : Shape := ⟨2, ![5000, 1]⟩

abbrev nBuf : Space → Nat
  | .hbm => 63
  | .vmem => 18
  | .smem => 0
  | _ => 0

abbrev bufTy : (tb : Table) → Fin (tcTables nBuf tb) → BufTy
  | .hbm, ⟨0, _⟩ => ⟨S10000x128, .f32⟩
  | .hbm, ⟨1, _⟩ => ⟨S10000x128, .f32⟩
  | .hbm, ⟨2, _⟩ => ⟨S320000x128, .f32⟩
  | .hbm, ⟨3, _⟩ => ⟨S320000, .i32⟩
  | .hbm, ⟨4, _⟩ => ⟨S320000, .i32⟩
  | .hbm, ⟨5, _⟩ => ⟨S384x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S_, .i32⟩
  | .hbm, ⟨14, _⟩ => ⟨S320000, .i32⟩
  | .hbm, ⟨15, _⟩ => ⟨S320000, .i1⟩
  | .hbm, ⟨16, _⟩ => ⟨S_, .i32⟩
  | .hbm, ⟨17, _⟩ => ⟨S320000, .i32⟩
  | .hbm, ⟨18, _⟩ => ⟨S320000, .i32⟩
  | .hbm, ⟨19, _⟩ => ⟨S320000, .i32⟩
  | .hbm, ⟨20, _⟩ => ⟨S320000x1, .i32⟩
  | .hbm, ⟨21, _⟩ => ⟨S1, .i32⟩
  | .hbm, ⟨22, _⟩ => ⟨S_, .i32⟩
  | .hbm, ⟨23, _⟩ => ⟨S320000x1, .i32⟩
  | .hbm, ⟨24, _⟩ => ⟨S320000x1, .i1⟩
  | .hbm, ⟨25, _⟩ => ⟨S1x1, .i32⟩
  | .hbm, ⟨26, _⟩ => ⟨S320000x1, .i32⟩
  | .hbm, ⟨27, _⟩ => ⟨S320000x1, .i1⟩
  | .hbm, ⟨28, _⟩ => ⟨S320000x1, .i1⟩
  | .hbm, ⟨29, _⟩ => ⟨S_, .i1⟩
  | .hbm, ⟨30, _⟩ => ⟨S320000, .i1⟩
  | .hbm, ⟨31, _⟩ => ⟨S320000x128, .f32⟩
  | .hbm, ⟨32, _⟩ => ⟨S320000x128, .i1⟩
  | .hbm, ⟨33, _⟩ => ⟨S_, .f32⟩
  | .hbm, ⟨34, _⟩ => ⟨S320000x128, .f32⟩
  | .hbm, ⟨35, _⟩ => ⟨S320000x128, .f32⟩
  | .hbm, ⟨36, _⟩ => ⟨S_, .i32⟩
  | .hbm, ⟨37, _⟩ => ⟨S320000, .i32⟩
  | .hbm, ⟨38, _⟩ => ⟨S320000, .i1⟩
  | .hbm, ⟨39, _⟩ => ⟨S_, .i32⟩
  | .hbm, ⟨40, _⟩ => ⟨S320000, .i32⟩
  | .hbm, ⟨41, _⟩ => ⟨S320000, .i32⟩
  | .hbm, ⟨42, _⟩ => ⟨S320000, .i32⟩
  | .hbm, ⟨43, _⟩ => ⟨S320000x1, .i32⟩
  | .hbm, ⟨44, _⟩ => ⟨S1, .i32⟩
  | .hbm, ⟨45, _⟩ => ⟨S_, .i32⟩
  | .hbm, ⟨46, _⟩ => ⟨S320000x1, .i32⟩
  | .hbm, ⟨47, _⟩ => ⟨S320000x1, .i1⟩
  | .hbm, ⟨48, _⟩ => ⟨S1x1, .i32⟩
  | .hbm, ⟨49, _⟩ => ⟨S320000x1, .i32⟩
  | .hbm, ⟨50, _⟩ => ⟨S320000x1, .i1⟩
  | .hbm, ⟨51, _⟩ => ⟨S320000x1, .i1⟩
  | .hbm, ⟨52, _⟩ => ⟨S_, .i1⟩
  | .hbm, ⟨53, _⟩ => ⟨S320000, .i1⟩
  | .hbm, ⟨54, _⟩ => ⟨S320000x128, .f32⟩
  | .hbm, ⟨55, _⟩ => ⟨S320000x128, .i1⟩
  | .hbm, ⟨56, _⟩ => ⟨S_, .f32⟩
  | .hbm, ⟨57, _⟩ => ⟨S320000x128, .f32⟩
  | .hbm, ⟨58, _⟩ => ⟨S320000x128, .f32⟩
  | .hbm, ⟨59, _⟩ => ⟨S128x128, .f32⟩
  | .hbm, ⟨60, _⟩ => ⟨S128x128, .f32⟩
  | .hbm, ⟨61, _⟩ => ⟨S128x128, .f32⟩
  | .hbm, ⟨62, _⟩ => ⟨S320000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128, .f32⟩
  | .local _ .vmem, ⟨10, _⟩ => ⟨S128x128, .f32⟩
  | .local _ .vmem, ⟨11, _⟩ => ⟨S128, .f32⟩
  | .local _ .vmem, ⟨12, _⟩ => ⟨S128x128, .f32⟩
  | .local _ .vmem, ⟨13, _⟩ => ⟨S128, .f32⟩
  | .local _ .vmem, ⟨14, _⟩ => ⟨S128, .f32⟩
  | .local _ .vmem, ⟨15, _⟩ => ⟨S128, .f32⟩
  | .local _ .vmem, ⟨16, _⟩ => ⟨S5000x128, .f32⟩
  | .local _ .vmem, ⟨17, _⟩ => ⟨S5000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v0 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_c_1 : Ref sig .tc := ⟨.hbm, 44, rfl⟩
abbrev main_call1_c_2 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_3 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_call1_cst : Ref sig .tc := ⟨.hbm, 56, rfl⟩
abbrev main_call1_v15 : Ref sig .tc := ⟨.hbm, 57, rfl⟩
abbrev main_v1 : Ref sig .tc := ⟨.hbm, 58, rfl⟩
abbrev main_v2 : Ref sig .tc := ⟨.hbm, 59, rfl⟩
abbrev main_v3 : Ref sig .tc := ⟨.hbm, 60, rfl⟩
abbrev main_v4 : Ref sig .tc := ⟨.hbm, 61, rfl⟩
abbrev main_v5 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S5000x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  bcast_S_S320000 : S_.BroadcastsInDim S320000 (![] : Fin 0 → Fin S320000.rank)
  bcast_S320000_S320000x1_0 : S320000.BroadcastsInDim S320000x1 (![0] : Fin 1 → Fin S320000x1.rank)
  bcast_S_S320000x1 : S_.BroadcastsInDim S320000x1 (![] : Fin 0 → Fin S320000x1.rank)
  bcast_S1_S1x1_1 : S1.BroadcastsInDim S1x1 (![1] : Fin 1 → Fin S1x1.rank)
  bcast_S1x1_S320000x1_0_1 : S1x1.BroadcastsInDim S320000x1 (![0, 1] : Fin 2 → Fin S320000x1.rank)
  reducesTo_S320000x1_S320000_d1 : S320000x1.ReducesTo [1] S320000
  h_S_ : 0 < S_.numel
  bcast_S320000_S320000x128_0 : S320000.BroadcastsInDim S320000x128 (![0] : Fin 1 → Fin S320000x128.rank)
  bcast_S_S320000x128 : S_.BroadcastsInDim S320000x128 (![] : Fin 0 → Fin S320000x128.rank)
  slices_S384x128_S128x128_0_0 : S384x128.Slices ![0, 0] S128x128
  slices_S384x128_S128x128_128_0 : S384x128.Slices ![128, 0] S128x128
  slices_S384x128_S128x128_256_0 : S384x128.Slices ![256, 0] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  gather_S10000x128_S320000x1_S320000x128_1_0_n_n_0_1_1128_wf : GatherDims.WF S10000x128 S320000x1 S320000x128 [1] [0] [] [0] [] 1 ![1, 128]
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S320000x128.size a
  hwx0_0 : ∀ i : grid0.Coords, EltTy.bits .f32 = 32 ∨ (Rect.block (s := S320000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S320000x128.size a
  hwx0_1 : ∀ i : grid0.Coords, EltTy.bits .f32 = 32 ∨ (Rect.block (s := S320000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S320000x128.size a
  hwx0_2 : ∀ i : grid0.Coords, EltTy.bits .f32 = 32 ∨ (Rect.block (s := S320000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128.size a ≤ S128.size a
  hwx0_11 : ∀ i : grid0.Coords, EltTy.bits .f32 = 32 ∨ (Rect.block (s := S128) S128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128.size a ≤ S128.size a
  hwx0_12 : ∀ i : grid0.Coords, EltTy.bits .f32 = 32 ∨ (Rect.block (s := S128) S128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S5000x128.size a ≤ S320000x128.size a
  hwx0_13 : ∀ i : grid0.Coords, EltTy.bits .f32 = 32 ∨ (Rect.block (s := S320000x128) S5000x128.size (cc0_transform_13 i) (hinb0_13 i)).WholeWords (EltTy.packing .f32)

variable [Facts₀]

def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v5) S5000x128.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S10000x128 : Shape := ⟨2, ![10000, 128]⟩
abbrev S320000x128 : Shape := ⟨2, ![320000, 128]⟩
abbrev S320000 : Shape := ⟨1, ![320000]⟩
abbrev S384x128 : Shape := ⟨2, ![384, 128]⟩
abbrev S128 : Shape := ⟨1, ![128]⟩
abbrev S128x128 : Shape := ⟨2, ![128, 128]⟩
abbrev S_ : Shape := ⟨0, ![]⟩
abbrev S320000x1 : Shape := ⟨2, ![320000, 1]⟩
abbrev S1 : Shape := ⟨1, ![1]⟩
abbrev S1x1 : Shape := ⟨2, ![1, 1]⟩
abbrev S320000x384 : Shape := ⟨2, ![320000, 384]⟩
abbrev S1x128 : Shape := ⟨2, ![1, 128]⟩

abbrev nBuf : Space → Nat
  | .hbm => 122
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x128, .f32⟩
  | .hbm, ⟨2, _⟩ => ⟨S320000x128, .f32⟩
  | .hbm, ⟨3, _⟩ => ⟨S320000, .i32⟩
  | .hbm, ⟨4, _⟩ => ⟨S320000, .i32⟩
  | .hbm, ⟨5, _⟩ => ⟨S384x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S_, .i32⟩
  | .hbm, ⟨14, _⟩ => ⟨S320000, .i32⟩
  | .hbm, ⟨15, _⟩ => ⟨S320000, .i1⟩
  | .hbm, ⟨16, _⟩ => ⟨S_, .i32⟩
  | .hbm, ⟨17, _⟩ => ⟨S320000, .i32⟩
  | .hbm, ⟨18, _⟩ => ⟨S320000, .i32⟩
  | .hbm, ⟨19, _⟩ => ⟨S320000, .i32⟩
  | .hbm, ⟨20, _⟩ => ⟨S320000x1, .i32⟩
  | .hbm, ⟨21, _⟩ => ⟨S1, .i32⟩
  | .hbm, ⟨22, _⟩ => ⟨S_, .i32⟩
  | .hbm, ⟨23, _⟩ => ⟨S320000x1, .i32⟩
  | .hbm, ⟨24, _⟩ => ⟨S320000x1, .i1⟩
  | .hbm, ⟨25, _⟩ => ⟨S1x1, .i32⟩
  | .hbm, ⟨26, _⟩ => ⟨S320000x1, .i32⟩
  | .hbm, ⟨27, _⟩ => ⟨S320000x1, .i1⟩
  | .hbm, ⟨28, _⟩ => ⟨S320000x1, .i1⟩
  | .hbm, ⟨29, _⟩ => ⟨S_, .i1⟩
  | .hbm, ⟨30, _⟩ => ⟨S320000, .i1⟩
  | .hbm, ⟨31, _⟩ => ⟨S320000x128, .f32⟩
  | .hbm, ⟨32, _⟩ => ⟨S320000x128, .i1⟩
  | .hbm, ⟨33, _⟩ => ⟨S_, .f32⟩
  | .hbm, ⟨34, _⟩ => ⟨S320000x128, .f32⟩
  | .hbm, ⟨35, _⟩ => ⟨S320000x128, .f32⟩
  | .hbm, ⟨36, _⟩ => ⟨S_, .i32⟩
  | .hbm, ⟨37, _⟩ => ⟨S320000, .i32⟩
  | .hbm, ⟨38, _⟩ => ⟨S320000, .i1⟩
  | .hbm, ⟨39, _⟩ => ⟨S_, .i32⟩
  | .hbm, ⟨40, _⟩ => ⟨S320000, .i32⟩
  | .hbm, ⟨41, _⟩ => ⟨S320000, .i32⟩
  | .hbm, ⟨42, _⟩ => ⟨S320000, .i32⟩
  | .hbm, ⟨43, _⟩ => ⟨S320000x1, .i32⟩
  | .hbm, ⟨44, _⟩ => ⟨S1, .i32⟩
  | .hbm, ⟨45, _⟩ => ⟨S_, .i32⟩
  | .hbm, ⟨46, _⟩ => ⟨S320000x1, .i32⟩
  | .hbm, ⟨47, _⟩ => ⟨S320000x1, .i1⟩
  | .hbm, ⟨48, _⟩ => ⟨S1x1, .i32⟩
  | .hbm, ⟨49, _⟩ => ⟨S320000x1, .i32⟩
  | .hbm, ⟨50, _⟩ => ⟨S320000x1, .i1⟩
  | .hbm, ⟨51, _⟩ => ⟨S320000x1, .i1⟩
  | .hbm, ⟨52, _⟩ => ⟨S_, .i1⟩
  | .hbm, ⟨53, _⟩ => ⟨S320000, .i1⟩
  | .hbm, ⟨54, _⟩ => ⟨S320000x128, .f32⟩
  | .hbm, ⟨55, _⟩ => ⟨S320000x128, .i1⟩
  | .hbm, ⟨56, _⟩ => ⟨S_, .f32⟩
  | .hbm, ⟨57, _⟩ => ⟨S320000x128, .f32⟩
  | .hbm, ⟨58, _⟩ => ⟨S320000x128, .f32⟩
  | .hbm, ⟨59, _⟩ => ⟨S320000x384, .f32⟩
  | .hbm, ⟨60, _⟩ => ⟨S320000x128, .f32⟩
  | .hbm, ⟨61, _⟩ => ⟨S1x128, .f32⟩
  | .hbm, ⟨62, _⟩ => ⟨S320000x128, .f32⟩
  | .hbm, ⟨63, _⟩ => ⟨S320000x128, .f32⟩
  | .hbm, ⟨64, _⟩ => ⟨S_, .f32⟩
  | .hbm, ⟨65, _⟩ => ⟨S320000x128, .f32⟩
  | .hbm, ⟨66, _⟩ => ⟨S320000x128, .f32⟩
  | .hbm, ⟨67, _⟩ => ⟨S320000x128, .f32⟩
  | .hbm, ⟨68, _⟩ => ⟨S1x128, .f32⟩
  | .hbm, ⟨69, _⟩ => ⟨S320000x128, .f32⟩
  | .hbm, ⟨70, _⟩ => ⟨S320000x128, .f32⟩
  | .hbm, ⟨71, _⟩ => ⟨S_, .f32⟩
  | .hbm, ⟨72, _⟩ => ⟨S320000x128, .f32⟩
  | .hbm, ⟨73, _⟩ => ⟨S320000x128, .f32⟩
  | .hbm, ⟨74, _⟩ => ⟨S320000x128, .f32⟩
  | .hbm, ⟨75, _⟩ => ⟨S1x128, .f32⟩
  | .hbm, ⟨76, _⟩ => ⟨S320000x128, .f32⟩
  | .hbm, ⟨77, _⟩ => ⟨S320000x128, .f32⟩
  | .hbm, ⟨78, _⟩ => ⟨S_, .f32⟩
  | .hbm, ⟨79, _⟩ => ⟨S320000, .f32⟩
  | .hbm, ⟨80, _⟩ => ⟨S320000x1, .f32⟩
  | .hbm, ⟨81, _⟩ => ⟨S_, .f32⟩
  | .hbm, ⟨82, _⟩ => ⟨S320000x1, .f32⟩
  | .hbm, ⟨83, _⟩ => ⟨S320000x1, .f32⟩
  | .hbm, ⟨84, _⟩ => ⟨S_, .i32⟩
  | .hbm, ⟨85, _⟩ => ⟨S_, .f32⟩
  | .hbm, ⟨86, _⟩ => ⟨S320000, .f32⟩
  | .hbm, ⟨87, _⟩ => ⟨S320000x1, .f32⟩
  | .hbm, ⟨88, _⟩ => ⟨S_, .f32⟩
  | .hbm, ⟨89, _⟩ => ⟨S320000x1, .f32⟩
  | .hbm, ⟨90, _⟩ => ⟨S320000x1, .f32⟩
  | .hbm, ⟨91, _⟩ => ⟨S320000x128, .f32⟩
  | .hbm, ⟨92, _⟩ => ⟨S320000x128, .f32⟩
  | .hbm, ⟨93, _⟩ => ⟨S320000x128, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S320000, .f32⟩
  | .hbm, ⟨99, _⟩ => ⟨S320000x1, .f32⟩
  | .hbm, ⟨100, _⟩ => ⟨S320000x1, .f32⟩
  | .hbm, ⟨101, _⟩ => ⟨S320000x1, .f32⟩
  | .hbm, ⟨102, _⟩ => ⟨S_, .f32⟩
  | .hbm, ⟨103, _⟩ => ⟨S_, .i1⟩
  | .hbm, ⟨104, _⟩ => ⟨S_, .f32⟩
  | .hbm, ⟨105, _⟩ => ⟨S_, .f32⟩
  | .hbm, ⟨106, _⟩ => ⟨S320000x1, .f32⟩
  | .hbm, ⟨107, _⟩ => ⟨S320000x1, .f32⟩
  | .hbm, ⟨108, _⟩ => ⟨S320000x128, .f32⟩
  | .hbm, ⟨109, _⟩ => ⟨S320000x128, .f32⟩
  | .hbm, ⟨110, _⟩ => ⟨S_, .f32⟩
  | .hbm, ⟨111, _⟩ => ⟨S320000x1, .f32⟩
  | .hbm, ⟨112, _⟩ => ⟨S320000x1, .f32⟩
  | .hbm, ⟨113, _⟩ => ⟨S320000x1, .f32⟩
  | .hbm, ⟨114, _⟩ => ⟨S320000x128, .f32⟩
  | .hbm, ⟨115, _⟩ => ⟨S320000x128, .f32⟩
  | .hbm, ⟨116, _⟩ => ⟨S1x128, .f32⟩
  | .hbm, ⟨117, _⟩ => ⟨S320000x128, .f32⟩
  | .hbm, ⟨118, _⟩ => ⟨S320000x128, .f32⟩
  | .hbm, ⟨119, _⟩ => ⟨S1x128, .f32⟩
  | .hbm, ⟨120, _⟩ => ⟨S320000x128, .f32⟩
  | .hbm, ⟨121, _⟩ => ⟨S320000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v0 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_c_1 : Ref sig .tc := ⟨.hbm, 44, rfl⟩
abbrev main_call1_c_2 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_3 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_call1_cst : Ref sig .tc := ⟨.hbm, 56, rfl⟩
abbrev main_call1_v15 : Ref sig .tc := ⟨.hbm, 57, rfl⟩
abbrev main_v1 : Ref sig .tc := ⟨.hbm, 58, rfl⟩
abbrev main_v2 : Ref sig .tc := ⟨.hbm, 59, rfl⟩
abbrev main_v3 : Ref sig .tc := ⟨.hbm, 60, rfl⟩
abbrev main_v4 : Ref sig .tc := ⟨.hbm, 61, rfl⟩
abbrev main_v5 : Ref sig .tc := ⟨.hbm, 62, rfl⟩
abbrev main_v6 : Ref sig .tc := ⟨.hbm, 63, rfl⟩
abbrev main_call2_cst : Ref sig .tc := ⟨.hbm, 64, rfl⟩
abbrev main_call2_v0 : Ref sig .tc := ⟨.hbm, 65, rfl⟩
abbrev main_v7 : Ref sig .tc := ⟨.hbm, 66, rfl⟩
abbrev main_v8 : Ref sig .tc := ⟨.hbm, 67, rfl⟩
abbrev main_v9 : Ref sig .tc := ⟨.hbm, 68, rfl⟩
abbrev main_v10 : Ref sig .tc := ⟨.hbm, 69, rfl⟩
abbrev main_v11 : Ref sig .tc := ⟨.hbm, 70, rfl⟩
abbrev main_call3_cst : Ref sig .tc := ⟨.hbm, 71, rfl⟩
abbrev main_call3_v0 : Ref sig .tc := ⟨.hbm, 72, rfl⟩
abbrev main_v12 : Ref sig .tc := ⟨.hbm, 73, rfl⟩
abbrev main_v13 : Ref sig .tc := ⟨.hbm, 74, rfl⟩
abbrev main_v14 : Ref sig .tc := ⟨.hbm, 75, rfl⟩
abbrev main_v15 : Ref sig .tc := ⟨.hbm, 76, rfl⟩
abbrev main_v16 : Ref sig .tc := ⟨.hbm, 77, rfl⟩
abbrev main_cst : Ref sig .tc := ⟨.hbm, 78, rfl⟩
abbrev main_v17 : Ref sig .tc := ⟨.hbm, 79, rfl⟩
abbrev main_v18 : Ref sig .tc := ⟨.hbm, 80, rfl⟩
abbrev main_cst_0 : Ref sig .tc := ⟨.hbm, 81, rfl⟩
abbrev main_v19 : Ref sig .tc := ⟨.hbm, 82, rfl⟩
abbrev main_v20 : Ref sig .tc := ⟨.hbm, 83, rfl⟩
abbrev main_c : Ref sig .tc := ⟨.hbm, 84, rfl⟩
abbrev main_call4_cst : Ref sig .tc := ⟨.hbm, 85, rfl⟩
abbrev main_call4_v0 : Ref sig .tc := ⟨.hbm, 86, rfl⟩
abbrev main_call4_v1 : Ref sig .tc := ⟨.hbm, 87, rfl⟩
abbrev main_call4_cst_0 : Ref sig .tc := ⟨.hbm, 88, rfl⟩
abbrev main_call4_v2 : Ref sig .tc := ⟨.hbm, 89, rfl⟩
abbrev main_call4_v3 : Ref sig .tc := ⟨.hbm, 90, rfl⟩
abbrev main_call4_v4 : Ref sig .tc := ⟨.hbm, 91, rfl⟩
abbrev main_call4_v5 : Ref sig .tc := ⟨.hbm, 92, rfl⟩
abbrev main_call4_v6 : Ref sig .tc := ⟨.hbm, 93, rfl⟩
abbrev main_call4_v7 : Ref sig .tc := ⟨.hbm, 94, rfl⟩
abbrev main_call4_cst_1 : Ref sig .tc := ⟨.hbm, 95, rfl⟩
abbrev main_call4_v8 : Ref sig .tc := ⟨.hbm, 96, rfl⟩
abbrev main_call4_cst_2 : Ref sig .tc := ⟨.hbm, 97, rfl⟩
abbrev main_call4_v9 : Ref sig .tc := ⟨.hbm, 98, rfl⟩
abbrev main_call4_v10 : Ref sig .tc := ⟨.hbm, 99, rfl⟩
abbrev main_call4_v11 : Ref sig .tc := ⟨.hbm, 100, rfl⟩
abbrev main_call4_v12 : Ref sig .tc := ⟨.hbm, 101, rfl⟩
abbrev main_call4_cst_3 : Ref sig .tc := ⟨.hbm, 102, rfl⟩
abbrev main_call4_v13 : Ref sig .tc := ⟨.hbm, 103, rfl⟩
abbrev main_call4_cst_4 : Ref sig .tc := ⟨.hbm, 104, rfl⟩
abbrev main_call4_call0_v0 : Ref sig .tc := ⟨.hbm, 105, rfl⟩
abbrev main_call4_call0_v1 : Ref sig .tc := ⟨.hbm, 106, rfl⟩
abbrev main_v21 : Ref sig .tc := ⟨.hbm, 107, rfl⟩
abbrev main_v22 : Ref sig .tc := ⟨.hbm, 108, rfl⟩
abbrev main_v23 : Ref sig .tc := ⟨.hbm, 109, rfl⟩
abbrev main_cst_1 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_v27 : Ref sig .tc := ⟨.hbm, 114, rfl⟩
abbrev main_v28 : Ref sig .tc := ⟨.hbm, 115, rfl⟩
abbrev main_v29 : Ref sig .tc := ⟨.hbm, 116, rfl⟩
abbrev main_v30 : Ref sig .tc := ⟨.hbm, 117, rfl⟩
abbrev main_v31 : Ref sig .tc := ⟨.hbm, 118, rfl⟩
abbrev main_v32 : Ref sig .tc := ⟨.hbm, 119, rfl⟩
abbrev main_v33 : Ref sig .tc := ⟨.hbm, 120, rfl⟩
abbrev main_v34 : Ref sig .tc := ⟨.hbm, 121, rfl⟩

abbrev nD : Nat := 1
abbrev τ : Topo := Topo.v7x

variable {F : FTy → Type} [FloatOps F]

class Facts₀ : Prop where
  bcast_S_S320000 : S_.BroadcastsInDim S320000 (![] : Fin 0 → Fin S320000.rank)
  bcast_S320000_S320000x1_0 : S320000.BroadcastsInDim S320000x1 (![0] : Fin 1 → Fin S320000x1.rank)
  bcast_S_S320000x1 : S_.BroadcastsInDim S320000x1 (![] : Fin 0 → Fin S320000x1.rank)
  bcast_S1_S1x1_1 : S1.BroadcastsInDim S1x1 (![1] : Fin 1 → Fin S1x1.rank)
  bcast_S1x1_S320000x1_0_1 : S1x1.BroadcastsInDim S320000x1 (![0, 1] : Fin 2 → Fin S320000x1.rank)
  reducesTo_S320000x1_S320000_d1 : S320000x1.ReducesTo [1] S320000
  h_S_ : 0 < S_.numel
  bcast_S320000_S320000x128_0 : S320000.BroadcastsInDim S320000x128 (![0] : Fin 1 → Fin S320000x128.rank)
  bcast_S_S320000x128 : S_.BroadcastsInDim S320000x128 (![] : Fin 0 → Fin S320000x128.rank)
  concatenates_S320000x128_S320000x128_S320000x128_S320000x384_d1 : Shape.Concatenates [S320000x128, S320000x128, S320000x128] S320000x384 1
  bcast_S128_S1x128_1 : S128.BroadcastsInDim S1x128 (![1] : Fin 1 → Fin S1x128.rank)
  bcast_S1x128_S320000x128_0_1 : S1x128.BroadcastsInDim S320000x128 (![0, 1] : Fin 2 → Fin S320000x128.rank)
  reducesTo_S320000x128_S320000_d1 : S320000x128.ReducesTo [1] S320000
  bcast_S320000x1_S320000x128_0_1 : S320000x1.BroadcastsInDim S320000x128 (![0, 1] : Fin 2 → Fin S320000x128.rank)
  gather_S10000x128_S320000x1_S320000x128_1_0_n_n_0_1_1128_wf : GatherDims.WF S10000x128 S320000x1 S320000x128 [1] [0] [] [0] [] 1 ![1, 128]
  dot_S320000x384_S384x128_S320000x128_1_0_0_1_n_n_wf : DotDims.WF S320000x384 S384x128 S320000x128 [1] [0] [0] [1] [] []
  dot_S320000x128_S128x128_S320000x128_1_0_0_1_n_n_wf : DotDims.WF S320000x128 S128x128 S320000x128 [1] [0] [0] [1] [] []

variable [Facts₀]

def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf
def dot_S320000x384_S384x128_S320000x128_1_0_0_1_n_n : DotDims S320000x384 S384x128 S320000x128 where
  lhsContracting := [1]
  rhsContracting := [0]
  lhsNonContracting := [0]
  rhsNonContracting := [1]
  lhsBatch := []
  rhsBatch := []
  wf := dot_S320000x384_S384x128_S320000x128_1_0_0_1_n_n_wf
def dot_S320000x128_S128x128_S320000x128_1_0_0_1_n_n : DotDims S320000x128 S128x128 S320000x128 where
  lhsContracting := [1]
  rhsContracting := [0]
  lhsNonContracting := [0]
  rhsNonContracting := [1]
  lhsBatch := []
  rhsBatch := []
  wf := dot_S320000x128_S128x128_S320000x128_1_0_0_1_n_n_wf

class Facts : Prop extends Facts₀ where

variable [Facts]
-- ==== Proof.Spec.lean ====
/-
  The edge update of a message-passing layer, as mathematics on the extended reals.

  For one edge the three incoming rows (the gathered sender row, the gathered receiver row, the edge's own row; 128
  numbers each) go through two hidden layers with a maximum against zero, a third affine layer, and a normalisation of the
  resulting row: subtract the row's mean, divide by the square root of (the mean of the squared deviations plus a small
  constant), scale and shift. The first layer multiplies the concatenated 384-long row by a 384×128 matrix; cutting the
  matrix into its three 128×128 blocks turns that one product into the sum of three, and that is the only algebraic law the
  two programs differ by: a sum over 384 terms is the sum of its three consecutive runs of 128 terms. Sums in the extended
  reals are sums in a commutative monoid, so the law holds whatever the terms are, infinite ones included.
-/
import Idealize.ShloMosaic.PureOps.Ideal
import Idealize.ShloMosaic.PureOps.Ideal.Laws
import Idealize.ShloMosaic.Lib.ValueIdx

noncomputable section

open scoped BigOperators

namespace Cert.EdgeUpdate

open Idealize.ShloMosaic Idealize.ShloMosaic.ValueIdx

/-- A row of 128 extended reals. -/
abbrev Row := Fin 128 → EReal
/-- A 128×128 matrix of extended reals, row index first. -/
abbrev Mat := Fin 128 → Fin 128 → EReal

/-- The number zero, as both programs spell it. -/
def zeroC : EReal := Ideal.ofBits .f32 0x00000000#32
/-- The row width 128, as both programs spell it. -/
def widthC : EReal := Ideal.ofBits .f32 0x43000000#32
/-- The small constant added under the square root, as both programs spell it (the same word on both sides). -/
def epsC : EReal := Ideal.ofBits .f32 0x3A83126F#32

/-- Entry `j` of the row-times-matrix product. -/
def dot (x : Row) (W : Mat) (j : Fin 128) : EReal := ∑ k : Fin 128, x k * W k j

/-- The first hidden layer: three products summed left to right, the bias, the maximum against zero. -/
def hidden0 (xs xr xe : Row) (A B C : Mat) (b : Row) : Row :=
  fun j => max (dot xs A j + dot xr B j + dot xe C j + b j) zeroC

/-- A hidden layer: product, bias, the maximum against zero. -/
def hidden (x : Row) (W : Mat) (b : Row) : Row := fun j => max (dot x W j + b j) zeroC

/-- An affine layer: product, bias. -/
def affine (x : Row) (W : Mat) (b : Row) : Row := fun j => dot x W j + b j

/-- The mean of a row: its sum divided by the width. -/
def mean (h : Row) : EReal := Ideal.div (∑ j : Fin 128, h j) widthC

/-- A row minus its mean. -/
def centred (h : Row) : Row := fun j => h j - mean h

/-- The normalisation: the centred row times the reciprocal square root of (the mean squared deviation plus the small
    constant), scaled by `g` and shifted by `bt`. -/
def normalize (h g bt : Row) : Row := fun j =>
  centred h j * Ideal.rsqrt (mean (fun k => centred h k * centred h k) + epsC) * g j + bt j

/-- One edge's output row. -/
def edgeRow (xs xr xe : Row) (A B C : Mat) (b0 : Row) (W1 : Mat) (b1 : Row) (W2 : Mat) (b2 g bt : Row) : Row :=
  normalize (affine (hidden (hidden0 xs xr xe A B C b0) W1 b1) W2 b2) g bt

/-- A sum over 384 terms is the sum of its three consecutive runs of 128 terms. -/
theorem sum_three_runs (f : Fin 384 → EReal) :
    ∑ c : Fin 384, f c
      = (∑ k : Fin 128, f ⟨k.val, by omega⟩) + (∑ k : Fin 128, f ⟨128 + k.val, by omega⟩)
        + ∑ k : Fin 128, f ⟨256 + k.val, by omega⟩ := by
  have h1 := Fin.sum_univ_add (a := 256) (b := 128) f
  have h2 := Fin.sum_univ_add (a := 128) (b := 128) fun i => f (Fin.castAdd 128 i)
  rw [h1, h2]
  rfl

/-- The whole result array: entry `(e, j)` is entry `j` of edge `e`'s output row, the rows of the three inputs at `e`, the
    first matrix cut into its three blocks of 128 rows. -/
def result (gs gr ef : (⟨2, ![320000, 128]⟩ : Shape).Idx → EReal) (W0 : (⟨2, ![384, 128]⟩ : Shape).Idx → EReal)
    (b0 : (⟨1, ![128]⟩ : Shape).Idx → EReal) (W1 : (⟨2, ![128, 128]⟩ : Shape).Idx → EReal)
    (b1 : (⟨1, ![128]⟩ : Shape).Idx → EReal) (W2 : (⟨2, ![128, 128]⟩ : Shape).Idx → EReal)
    (b2 g bt : (⟨1, ![128]⟩ : Shape).Idx → EReal) (e : Fin 320000) (j : Fin 128) : EReal :=
  edgeRow (fun k => gs (ix2 e k)) (fun k => gr (ix2 e k)) (fun k => ef (ix2 e k))
    (fun k q => W0 (ix2 (⟨k.val, by omega⟩ : Fin 384) q)) (fun k q => W0 (ix2 (⟨128 + k.val, by omega⟩ : Fin 384) q))
    (fun k q => W0 (ix2 (⟨256 + k.val, by omega⟩ : Fin 384) q)) (fun q => b0 (ix1 q))
    (fun k q => W1 (ix2 k q)) (fun q => b1 (ix1 q)) (fun k q => W2 (ix2 k q)) (fun q => b2 (ix1 q))
    (fun q => g (ix1 q)) (fun q => bt (ix1 q)) j

end Cert.EdgeUpdate

end
-- ==== Proof.RefTerm.lean ====
/-
  The array the reference program leaves in its result, named stage by stage as functions of whole arrays: the gathered
  rows, the three layers on the 384-wide rows, each row's mean, the rows minus their means, the mean squared deviation with
  its guard on the divisor, and the scaled and shifted result. Nothing is proved here; these are the names the later
  modules speak in.
-/
import proofs.«145845_j47768626266213_1_alg».proof.Proof.Gen.ReferenceIdeal

noncomputable section

namespace Cert.ReferenceIdeal.EdgeRun

open Cert.ReferenceIdeal Cert.ReferenceIdeal.Gen Idealize.ShloMosaic Idealize.ShloMosaic.TcCoe Idealize.SL.Sem

variable {F : FTy → Type} [FloatOps F]

/-- Rows of `x` picked by the indices `i`: an index below zero is raised by 10000 first; where the index then lies in
    0…9999 the row is that row of `x`, elsewhere every entry is the fill value. -/
def gathered (x : (⟨S10000x128, .f32⟩ : BufTy).Contents (Elt F)) (i : (⟨S320000, .i32⟩ : BufTy).Contents (Elt F)) : (⟨S320000x128, .f32⟩ : BufTy).Contents (Elt F) :=
  select (broadcastInDim S320000x128 ![0] bcast_S320000_S320000x128_0 (Host.reduce IntOp.andi (andi (cmpi .sge (broadcastInDim S320000x1 ![0] bcast_S320000_S320000x1_0 (select (cmpi .slt i (broadcastInDim S320000 ![] bcast_S_S320000 (constantI S_ 32 0#32))) (addi i (broadcastInDim S320000 ![] bcast_S_S320000 (constantI S_ 32 10000#32))) i)) (broadcastInDim S320000x1 ![] bcast_S_S320000x1 (constantI S_ 32 0#32))) (cmpi .sle (broadcastInDim S320000x1 ![0] bcast_S320000_S320000x1_0 (select (cmpi .slt i (broadcastInDim S320000 ![] bcast_S_S320000 (constantI S_ 32 0#32))) (addi i (broadcastInDim S320000 ![] bcast_S_S320000 (constantI S_ 32 10000#32))) i)) (broadcastInDim S320000x1 ![0, 1] bcast_S1x1_S320000x1_0_1 (broadcastInDim S1x1 ![1] bcast_S1_S1x1_1 (constantI S1 32 9999#32))))) (constantI S_ 1 1#1) reducesTo_S320000x1_S320000_d1 h_S_)) (Host.gather gather_S10000x128_S320000x1_S320000x128_1_0_n_n_0_1_1128 x (broadcastInDim S320000x1 ![0] bcast_S320000_S320000x1_0 (select (cmpi .slt i (broadcastInDim S320000 ![] bcast_S_S320000 (constantI S_ 32 0#32))) (addi i (broadcastInDim S320000 ![] bcast_S_S320000 (constantI S_ 32 10000#32))) i))) (broadcastInDim S320000x128 ![] bcast_S_S320000x128 (constant (F := F) S_ .f32 0x7FC00000#32))

/-- The first layer on the 384-wide rows `gs | gr | ef`: product with `W0` plus `b0`, maximum against zero. -/
def layer0 (gs gr ef : (⟨S320000x128, .f32⟩ : BufTy).Contents (Elt F)) (W0 : (⟨S384x128, .f32⟩ : BufTy).Contents (Elt F)) (b0 : (⟨S128, .f32⟩ : BufTy).Contents (Elt F)) :
    (⟨S320000x128, .f32⟩ : BufTy).Contents (Elt F) :=
  maximumf (addf (Host.dotGeneral dot_S320000x384_S384x128_S320000x128_1_0_0_1_n_n none (concatenate S320000x384 1 [⟨S320000x128, gs⟩, ⟨S320000x128, gr⟩, ⟨S320000x128, ef⟩] concatenates_S320000x128_S320000x128_S320000x128_S320000x384_d1) W0) (broadcastInDim S320000x128 ![0, 1] bcast_S1x128_S320000x128_0_1 (broadcastInDim S1x128 ![1] bcast_S128_S1x128_1 b0))) (broadcastInDim S320000x128 ![] bcast_S_S320000x128 (constant (F := F) S_ .f32 0x00000000#32))

/-- A hidden layer on 128-wide rows: product with `W` plus `b`, maximum against zero. -/
def layer1 (x : (⟨S320000x128, .f32⟩ : BufTy).Contents (Elt F)) (W : (⟨S128x128, .f32⟩ : BufTy).Contents (Elt F)) (b : (⟨S128, .f32⟩ : BufTy).Contents (Elt F)) : (⟨S320000x128, .f32⟩ : BufTy).Contents (Elt F) :=
  maximumf (addf (Host.dotGeneral dot_S320000x128_S128x128_S320000x128_1_0_0_1_n_n none x W) (broadcastInDim S320000x128 ![0, 1] bcast_S1x128_S320000x128_0_1 (broadcastInDim S1x128 ![1] bcast_S128_S1x128_1 b))) (broadcastInDim S320000x128 ![] bcast_S_S320000x128 (constant (F := F) S_ .f32 0x00000000#32))

/-- The last layer on 128-wide rows: product with `W` plus `b`. -/
def layer2 (x : (⟨S320000x128, .f32⟩ : BufTy).Contents (Elt F)) (W : (⟨S128x128, .f32⟩ : BufTy).Contents (Elt F)) (b : (⟨S128, .f32⟩ : BufTy).Contents (Elt F)) : (⟨S320000x128, .f32⟩ : BufTy).Contents (Elt F) :=
  addf (Host.dotGeneral dot_S320000x128_S128x128_S320000x128_1_0_0_1_n_n none x W) (broadcastInDim S320000x128 ![0, 1] bcast_S1x128_S320000x128_0_1 (broadcastInDim S1x128 ![1] bcast_S128_S1x128_1 b))

/-- The three layers, one after the other. -/
def layers (gs gr ef : (⟨S320000x128, .f32⟩ : BufTy).Contents (Elt F)) (W0 : (⟨S384x128, .f32⟩ : BufTy).Contents (Elt F)) (b0 : (⟨S128, .f32⟩ : BufTy).Contents (Elt F))
    (W1 : (⟨S128x128, .f32⟩ : BufTy).Contents (Elt F)) (b1 : (⟨S128, .f32⟩ : BufTy).Contents (Elt F)) (W2 : (⟨S128x128, .f32⟩ : BufTy).Contents (Elt F)) (b2 : (⟨S128, .f32⟩ : BufTy).Contents (Elt F)) :
    (⟨S320000x128, .f32⟩ : BufTy).Contents (Elt F) :=
  layer2 (layer1 (layer0 gs gr ef W0 b0) W1 b1) W2 b2

/-- Each row's mean, as a column: the row's sum divided by 128. -/
def rowMean (h : (⟨S320000x128, .f32⟩ : BufTy).Contents (Elt F)) : (⟨S320000x1, .f32⟩ : BufTy).Contents (Elt F) :=
  Host.divf (broadcastInDim S320000x1 ![0] bcast_S320000_S320000x1_0 (Host.reduceAdd h (constant (F := F) S_ .f32 0x00000000#32) reducesTo_S320000x128_S320000_d1 h_S_)) (broadcastInDim S320000x1 ![] bcast_S_S320000x1 (constant (F := F) S_ .f32 0x43000000#32))

/-- Every row minus its mean. -/
def centredArr (h : (⟨S320000x128, .f32⟩ : BufTy).Contents (Elt F)) : (⟨S320000x128, .f32⟩ : BufTy).Contents (Elt F) :=
  subf h (broadcastInDim S320000x128 ![0, 1] bcast_S320000x1_S320000x128_0_1 (rowMean h))

/-- Each row's mean squared deviation, as a column: the sum of the squared deviations divided by (128 minus the number of
    degrees of freedom given up, here zero) where that divisor is positive, the fill value where it is not. -/
def varianceArr (h : (⟨S320000x128, .f32⟩ : BufTy).Contents (Elt F)) : (⟨S320000x1, .f32⟩ : BufTy).Contents (Elt F) :=
  select (broadcastInDim S320000x1 ![] bcast_S_S320000x1 (cmpf .ogt (subf (constant (F := F) S_ .f32 0x43000000#32) (sitofp .f32 (constantI S_ 32 0#32))) (constant (F := F) S_ .f32 0x00000000#32))) (Host.divf (broadcastInDim S320000x1 ![0] bcast_S320000_S320000x1_0 (Host.reduceAdd (mulf (centredArr h) (centredArr h)) (constant (F := F) S_ .f32 0x00000000#32) reducesTo_S320000x128_S320000_d1 h_S_)) (broadcastInDim S320000x1 ![] bcast_S_S320000x1 (subf (constant (F := F) S_ .f32 0x43000000#32) (sitofp .f32 (constantI S_ 32 0#32))))) (broadcastInDim S320000x1 ![] bcast_S_S320000x1 (constant (F := F) S_ .f32 0x7FC00000#32))

/-- The normalised rows: deviation times the reciprocal square root of (variance plus the small constant), times `g`, plus
    `bt`. -/
def normArr (h : (⟨S320000x128, .f32⟩ : BufTy).Contents (Elt F)) (g bt : (⟨S128, .f32⟩ : BufTy).Contents (Elt F)) : (⟨S320000x128, .f32⟩ : BufTy).Contents (Elt F) :=
  addf (mulf (mulf (centredArr h) (broadcastInDim S320000x128 ![0, 1] bcast_S320000x1_S320000x128_0_1 (Host.rsqrt (addf (varianceArr h) (broadcastInDim S320000x1 ![] bcast_S_S320000x1 (constant (F := F) S_ .f32 0x3A83126F#32)))))) (broadcastInDim S320000x128 ![0, 1] bcast_S1x128_S320000x128_0_1 (broadcastInDim S1x128 ![1] bcast_S128_S1x128_1 g))) (broadcastInDim S320000x128 ![0, 1] bcast_S1x128_S320000x128_0_1 (broadcastInDim S1x128 ![1] bcast_S128_S1x128_1 bt))

/-- The reference's result as one function of its arguments. -/
def out (a0 a1 : (⟨S10000x128, .f32⟩ : BufTy).Contents (Elt F)) (a2 : (⟨S320000x128, .f32⟩ : BufTy).Contents (Elt F)) (a3 a4 : (⟨S320000, .i32⟩ : BufTy).Contents (Elt F))
    (a5 : (⟨S384x128, .f32⟩ : BufTy).Contents (Elt F)) (a6 : (⟨S128, .f32⟩ : BufTy).Contents (Elt F)) (a7 : (⟨S128x128, .f32⟩ : BufTy).Contents (Elt F)) (a8 : (⟨S128, .f32⟩ : BufTy).Contents (Elt F))
    (a9 : (⟨S128x128, .f32⟩ : BufTy).Contents (Elt F)) (a10 a11 a12 : (⟨S128, .f32⟩ : BufTy).Contents (Elt F)) : (⟨S320000x128, .f32⟩ : BufTy).Contents (Elt F) :=
  normArr (layers (gathered a0 a3) (gathered a1 a4) a2 a5 a6 a7 a8 a9 a10) a11 a12

end Cert.ReferenceIdeal.EdgeRun

end
-- ==== Proof.RefRun.lean ====
/-
  The reference program's run.

  The reference gathers one sender row and one receiver row per edge, sets the three 128-wide rows of every edge side by
  side as one 384-wide row, and sends that through the three layers and the row normalisation. Here its straight line of 109
  array operations is listed in order — what a called function does (the gather, the maximum against zero, the variance)
  standing where the call stands — and folded, stretch by stretch, into the stages the previous module names: after the
  first 23 operations the gathered sender rows, after the next 23 the gathered receiver rows, after 19 more the three
  layers' result, after the last 44 the normalised rows. Every operation writes one array of its own and reads arrays
  written before it, so a stretch leaves every array it does not write as it found it.
-/
import proofs.«145845_j47768626266213_1_alg».proof.Proof.RefTerm
import Idealize.ShloMosaic.Lib.StableHlo.Run

noncomputable section

namespace Cert.ReferenceIdeal.EdgeRun

open Cert.ReferenceIdeal Cert.ReferenceIdeal.Gen Idealize.ShloMosaic Idealize.ShloMosaic.TcCoe Idealize.SL.Sem Idealize.ShloMosaic.StableHlo

variable {F : FTy → Type} [FloatOps F]

/-! ## The called functions as lists of operations -/

/-- The gather's 23 operations over one call's arrays. -/
def takeOps (x : TRef sig ⟨S10000x128, .f32⟩) (i : TRef sig ⟨S320000, .i32⟩) (φ : fn_take.Bufs) : List (HloOp τ sig (Elt F)) :=
  [ TRef.nullary φ.c (constantI S_ 32 0#32),
    TRef.unary φ.c φ.v0 (broadcastInDim S320000 ![] bcast_S_S320000),
    TRef.binary i φ.v0 φ.v1 (cmpi .slt),
    TRef.nullary φ.c_0 (constantI S_ 32 10000#32),
    TRef.unary φ.c_0 φ.v2 (broadcastInDim S320000 ![] bcast_S_S320000),
    TRef.binary i φ.v2 φ.v3 addi,
    TRef.ternary φ.v1 φ.v3 i φ.call0.v0 select,
    TRef.unary φ.call0.v0 φ.v5 (broadcastInDim S320000x1 ![0] bcast_S320000_S320000x1_0),
    TRef.nullary φ.c_1 (constantI S1 32 9999#32),
    TRef.nullary φ.c_2 (constantI S_ 32 0#32),
    TRef.unary φ.c_2 φ.v6 (broadcastInDim S320000x1 ![] bcast_S_S320000x1),
    TRef.binary φ.v5 φ.v6 φ.v7 (cmpi .sge),
    TRef.unary φ.c_1 φ.v8 (broadcastInDim S1x1 ![1] bcast_S1_S1x1_1),
    TRef.unary φ.v8 φ.v9 (broadcastInDim S320000x1 ![0, 1] bcast_S1x1_S320000x1_0_1),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S320000x1_S320000_d1 h_S_),
    TRef.binary x φ.v5 φ.v13 (fun x i => Host.gather gather_S10000x128_S320000x1_S320000x128_1_0_n_n_0_1_1128 x i),
    TRef.unary φ.v12 φ.v14 (broadcastInDim S320000x128 ![0] bcast_S320000_S320000x128_0),
    TRef.nullary φ.cst (constant S_ .f32 0x7FC00000#32),
    TRef.unary φ.cst φ.v15 (broadcastInDim S320000x128 ![] bcast_S_S320000x128),
    TRef.ternary φ.v14 φ.v13 φ.v15 φ.v16 select ]

/-- The maximum against zero: 3 operations over one call's arrays. -/
def reluOps (x : TRef sig ⟨S320000x128, .f32⟩) (φ : fn_relu.Bufs) : List (HloOp τ sig (Elt F)) :=
  [ TRef.nullary φ.cst (constant S_ .f32 0x00000000#32),
    TRef.unary φ.cst φ.v0 (broadcastInDim S320000x128 ![] bcast_S_S320000x128),
    TRef.binary x φ.v0 φ.v1 maximumf ]

/-- The variance's 23 operations over one call's arrays. -/
def varOps (x : TRef sig ⟨S320000x128, .f32⟩) (d : TRef sig ⟨S_, .i32⟩) (φ : fn_var.Bufs) : List (HloOp τ sig (Elt F)) :=
  [ TRef.nullary φ.cst (constant S_ .f32 0x00000000#32),
    TRef.binary x φ.cst φ.v0 (fun x v => Host.reduceAdd x v reducesTo_S320000x128_S320000_d1 h_S_),
    TRef.unary φ.v0 φ.v1 (broadcastInDim S320000x1 ![0] bcast_S320000_S320000x1_0),
    TRef.nullary φ.cst_0 (constant S_ .f32 0x43000000#32),
    TRef.unary φ.cst_0 φ.v2 (broadcastInDim S320000x1 ![] bcast_S_S320000x1),
    TRef.binary φ.v1 φ.v2 φ.v3 Host.divf,
    TRef.unary φ.v3 φ.v4 (broadcastInDim S320000x128 ![0, 1] bcast_S320000x1_S320000x128_0_1),
    TRef.binary x φ.v4 φ.v5 subf,
    TRef.binary φ.v5 φ.v5 φ.v6 mulf,
    TRef.unary d φ.v7 (sitofp .f32),
    TRef.nullary φ.cst_1 (constant S_ .f32 0x43000000#32),
    TRef.binary φ.cst_1 φ.v7 φ.v8 subf,
    TRef.nullary φ.cst_2 (constant S_ .f32 0x00000000#32),
    TRef.binary φ.v6 φ.cst_2 φ.v9 (fun x v => Host.reduceAdd x v reducesTo_S320000x128_S320000_d1 h_S_),
    TRef.unary φ.v9 φ.v10 (broadcastInDim S320000x1 ![0] bcast_S320000_S320000x1_0),
    TRef.unary φ.v8 φ.v11 (broadcastInDim S320000x1 ![] bcast_S_S320000x1),
    TRef.binary φ.v10 φ.v11 φ.v12 Host.divf,
    TRef.nullary φ.cst_3 (constant S_ .f32 0x00000000#32),
    TRef.binary φ.v8 φ.cst_3 φ.v13 (cmpf .ogt),
    TRef.nullary φ.cst_4 (constant S_ .f32 0x7FC00000#32),
    TRef.unary φ.cst_4 φ.call0.v0 id,
    TRef.unary φ.call0.v0 φ.call0.v1 (broadcastInDim S320000x1 ![] bcast_S_S320000x1),
    TRef.ternary φ.v13 φ.v12 φ.call0.v1 φ.call0.v2 (fun p a b => select (broadcastInDim S320000x1 ![] bcast_S_S320000x1 p) a b) ]

theorem take_seq (x : TRef sig ⟨S10000x128, .f32⟩) (i : TRef sig ⟨S320000, .i32⟩) (φ : fn_take.Bufs) :
    fn_take.body (F := F) x i φ = seq (takeOps x i φ) := by
  simp only [fn_take.body, fn_where.body, takeOps, seq, bind_assoc, pure_bind]

theorem relu_seq (x : TRef sig ⟨S320000x128, .f32⟩) (φ : fn_relu.Bufs) :
    fn_relu.body (F := F) x φ = seq (reluOps x φ) := by
  simp only [fn_relu.body, reluOps, seq, bind_assoc, pure_bind]

theorem var_seq (x : TRef sig ⟨S320000x128, .f32⟩) (d : TRef sig ⟨S_, .i32⟩) (φ : fn_var.Bufs) :
    fn_var.body (F := F) x d φ = seq (varOps x d φ) := by
  simp only [fn_var.body, fn_where_0.body, varOps, seq, bind_assoc, pure_bind]

/-! ## The program as one list -/

/-- The operations between the calls, in order. -/
def mid1 : List (HloOp τ sig (Elt F)) :=
  [ nary ![main_v0, main_v1, main_arg2] main_v2 (fun u => concatenate S320000x384 1 [⟨S320000x128, u 0⟩, ⟨S320000x128, u 1⟩, ⟨S320000x128, u 2⟩] concatenates_S320000x128_S320000x128_S320000x128_S320000x384_d1),
    binary main_v2 main_arg5 main_v3 ((fun l r => Host.dotGeneral dot_S320000x384_S384x128_S320000x128_1_0_0_1_n_n none l r) : (⟨S320000x384, .f32⟩ : BufTy).Contents (Elt F) → (⟨S384x128, .f32⟩ : BufTy).Contents (Elt F) → (⟨S320000x128, .f32⟩ : BufTy).Contents (Elt F)),
    unary main_arg6 main_v4 (broadcastInDim S1x128 ![1] bcast_S128_S1x128_1 : (⟨S128, .f32⟩ : BufTy).Contents (Elt F) → (⟨S1x128, .f32⟩ : BufTy).Contents (Elt F)),
    unary main_v4 main_v5 (broadcastInDim S320000x128 ![0, 1] bcast_S1x128_S320000x128_0_1 : (⟨S1x128, .f32⟩ : BufTy).Contents (Elt F) → (⟨S320000x128, .f32⟩ : BufTy).Contents (Elt F)),
    binary main_v3 main_v5 main_v6 (addf : (⟨S320000x128, .f32⟩ : BufTy).Contents (Elt F) → (⟨S320000x128, .f32⟩ : BufTy).Contents (Elt F) → (⟨S320000x128, .f32⟩ : BufTy).Contents (Elt F)) ]
def mid2 : List (HloOp τ sig (Elt F)) :=
  [ binary main_v7 main_arg7 main_v8 ((fun l r => Host.dotGeneral dot_S320000x128_S128x128_S320000x128_1_0_0_1_n_n none l r) : (⟨S320000x128, .f32⟩ : BufTy).Contents (Elt F) → (⟨S128x128, .f32⟩ : BufTy).Contents (Elt F) → (⟨S320000x128, .f32⟩ : BufTy).Contents (Elt F)),
    unary main_arg8 main_v9 (broadcastInDim S1x128 ![1] bcast_S128_S1x128_1 : (⟨S128, .f32⟩ : BufTy).Contents (Elt F) → (⟨S1x128, .f32⟩ : BufTy).Contents (Elt F)),
    unary main_v9 main_v10 (broadcastInDim S320000x128 ![0, 1] bcast_S1x128_S320000x128_0_1 : (⟨S1x128, .f32⟩ : BufTy).Contents (Elt F) → (⟨S320000x128, .f32⟩ : BufTy).Contents (Elt F)),
    binary main_v8 main_v10 main_v11 (addf : (⟨S320000x128, .f32⟩ : BufTy).Contents (Elt F) → (⟨S320000x128, .f32⟩ : BufTy).Contents (Elt F) → (⟨S320000x128, .f32⟩ : BufTy).Contents (Elt F)) ]
def mid3 : List (HloOp τ sig (Elt F)) :=
  [ binary main_v12 main_arg9 main_v13 ((fun l r => Host.dotGeneral dot_S320000x128_S128x128_S320000x128_1_0_0_1_n_n none l r) : (⟨S320000x128, .f32⟩ : BufTy).Contents (Elt F) → (⟨S128x128, .f32⟩ : BufTy).Contents (Elt F) → (⟨S320000x128, .f32⟩ : BufTy).Contents (Elt F)),
    unary main_arg10 main_v14 (broadcastInDim S1x128 ![1] bcast_S128_S1x128_1 : (⟨S128, .f32⟩ : BufTy).Contents (Elt F) → (⟨S1x128, .f32⟩ : BufTy).Contents (Elt F)),
    unary main_v14 main_v15 (broadcastInDim S320000x128 ![0, 1] bcast_S1x128_S320000x128_0_1 : (⟨S1x128, .f32⟩ : BufTy).Contents (Elt F) → (⟨S320000x128, .f32⟩ : BufTy).Contents (Elt F)),
    binary main_v13 main_v15 main_v16 (addf : (⟨S320000x128, .f32⟩ : BufTy).Contents (Elt F) → (⟨S320000x128, .f32⟩ : BufTy).Contents (Elt F) → (⟨S320000x128, .f32⟩ : BufTy).Contents (Elt F)),
    nullary main_cst (constant S_ .f32 0x00000000#32),
    binary main_v16 main_cst main_v17 ((fun x v => Host.reduceAdd x v reducesTo_S320000x128_S320000_d1 h_S_) : (⟨S320000x128, .f32⟩ : BufTy).Contents (Elt F) → (⟨S_, .f32⟩ : BufTy).Contents (Elt F) → (⟨S320000, .f32⟩ : BufTy).Contents (Elt F)),
    unary main_v17 main_v18 (broadcastInDim S320000x1 ![0] bcast_S320000_S320000x1_0 : (⟨S320000, .f32⟩ : BufTy).Contents (Elt F) → (⟨S320000x1, .f32⟩ : BufTy).Contents (Elt F)),
    nullary main_cst_0 (constant S_ .f32 0x43000000#32),
    unary main_cst_0 main_v19 (broadcastInDim S320000x1 ![] bcast_S_S320000x1 : (⟨S_, .f32⟩ : BufTy).Contents (Elt F) → (⟨S320000x1, .f32⟩ : BufTy).Contents (Elt F)),
    binary main_v18 main_v19 main_v20 (Host.divf : (⟨S320000x1, .f32⟩ : BufTy).Contents (Elt F) → (⟨S320000x1, .f32⟩ : BufTy).Contents (Elt F) → (⟨S320000x1, .f32⟩ : BufTy).Contents (Elt F)),
    nullary main_c (constantI S_ 32 0#32) ]
def mid4 : List (HloOp τ sig (Elt F)) :=
  [ unary main_v20 main_v22 (broadcastInDim S320000x128 ![0, 1] bcast_S320000x1_S320000x128_0_1 : (⟨S320000x1, .f32⟩ : BufTy).Contents (Elt F) → (⟨S320000x128, .f32⟩ : BufTy).Contents (Elt F)),
    binary main_v16 main_v22 main_v23 (subf : (⟨S320000x128, .f32⟩ : BufTy).Contents (Elt F) → (⟨S320000x128, .f32⟩ : BufTy).Contents (Elt F) → (⟨S320000x128, .f32⟩ : BufTy).Contents (Elt F)),
    nullary main_cst_1 (constant S_ .f32 0x3A83126F#32),
    unary main_cst_1 main_v24 (broadcastInDim S320000x1 ![] bcast_S_S320000x1 : (⟨S_, .f32⟩ : BufTy).Contents (Elt F) → (⟨S320000x1, .f32⟩ : BufTy).Contents (Elt F)),
    binary main_v21 main_v24 main_v25 (addf : (⟨S320000x1, .f32⟩ : BufTy).Contents (Elt F) → (⟨S320000x1, .f32⟩ : BufTy).Contents (Elt F) → (⟨S320000x1, .f32⟩ : BufTy).Contents (Elt F)),
    unary main_v25 main_v26 (Host.rsqrt : (⟨S320000x1, .f32⟩ : BufTy).Contents (Elt F) → (⟨S320000x1, .f32⟩ : BufTy).Contents (Elt F)),
    unary main_v26 main_v27 (broadcastInDim S320000x128 ![0, 1] bcast_S320000x1_S320000x128_0_1 : (⟨S320000x1, .f32⟩ : BufTy).Contents (Elt F) → (⟨S320000x128, .f32⟩ : BufTy).Contents (Elt F)),
    binary main_v23 main_v27 main_v28 (mulf : (⟨S320000x128, .f32⟩ : BufTy).Contents (Elt F) → (⟨S320000x128, .f32⟩ : BufTy).Contents (Elt F) → (⟨S320000x128, .f32⟩ : BufTy).Contents (Elt F)),
    unary main_arg11 main_v29 (broadcastInDim S1x128 ![1] bcast_S128_S1x128_1 : (⟨S128, .f32⟩ : BufTy).Contents (Elt F) → (⟨S1x128, .f32⟩ : BufTy).Contents (Elt F)),
    unary main_v29 main_v30 (broadcastInDim S320000x128 ![0, 1] bcast_S1x128_S320000x128_0_1 : (⟨S1x128, .f32⟩ : BufTy).Contents (Elt F) → (⟨S320000x128, .f32⟩ : BufTy).Contents (Elt F)),
    binary main_v28 main_v30 main_v31 (mulf : (⟨S320000x128, .f32⟩ : BufTy).Contents (Elt F) → (⟨S320000x128, .f32⟩ : BufTy).Contents (Elt F) → (⟨S320000x128, .f32⟩ : BufTy).Contents (Elt F)),
    unary main_arg12 main_v32 (broadcastInDim S1x128 ![1] bcast_S128_S1x128_1 : (⟨S128, .f32⟩ : BufTy).Contents (Elt F) → (⟨S1x128, .f32⟩ : BufTy).Contents (Elt F)),
    unary main_v32 main_v33 (broadcastInDim S320000x128 ![0, 1] bcast_S1x128_S320000x128_0_1 : (⟨S1x128, .f32⟩ : BufTy).Contents (Elt F) → (⟨S320000x128, .f32⟩ : BufTy).Contents (Elt F)),
    binary main_v31 main_v33 main_v34 (addf : (⟨S320000x128, .f32⟩ : BufTy).Contents (Elt F) → (⟨S320000x128, .f32⟩ : BufTy).Contents (Elt F) → (⟨S320000x128, .f32⟩ : BufTy).Contents (Elt F)) ]

/-- The program's 109 operations, in order. -/
abbrev ops : List (HloOp τ sig (Elt F)) :=
  [ TRef.nullary main_call0.c (constantI S_ 32 0#32),
    TRef.unary main_call0.c main_call0.v0 (broadcastInDim S320000 ![] bcast_S_S320000),
    TRef.binary (.of main_arg3) main_call0.v0 main_call0.v1 (cmpi .slt),
    TRef.nullary main_call0.c_0 (constantI S_ 32 10000#32),
    TRef.unary main_call0.c_0 main_call0.v2 (broadcastInDim S320000 ![] bcast_S_S320000),
    TRef.binary (.of main_arg3) main_call0.v2 main_call0.v3 addi,
    TRef.ternary main_call0.v1 main_call0.v3 (.of main_arg3) main_call0.call0.v0 select,
    TRef.unary main_call0.call0.v0 main_call0.v5 (broadcastInDim S320000x1 ![0] bcast_S320000_S320000x1_0),
    TRef.nullary main_call0.c_1 (constantI S1 32 9999#32),
    TRef.nullary main_call0.c_2 (constantI S_ 32 0#32),
    TRef.unary main_call0.c_2 main_call0.v6 (broadcastInDim S320000x1 ![] bcast_S_S320000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S320000x1 ![0, 1] bcast_S1x1_S320000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S320000x1_S320000_d1 h_S_),
    TRef.binary (.of main_arg0) main_call0.v5 main_call0.v13 (fun x i => Host.gather gather_S10000x128_S320000x1_S320000x128_1_0_n_n_0_1_1128 x i),
    TRef.unary main_call0.v12 main_call0.v14 (broadcastInDim S320000x128 ![0] bcast_S320000_S320000x128_0),
    TRef.nullary main_call0.cst (constant S_ .f32 0x7FC00000#32),
    TRef.unary main_call0.cst main_call0.v15 (broadcastInDim S320000x128 ![] bcast_S_S320000x128),
    TRef.ternary main_call0.v14 main_call0.v13 main_call0.v15 main_call0.v16 select,
    TRef.nullary main_call1.c (constantI S_ 32 0#32),
    TRef.unary main_call1.c main_call1.v0 (broadcastInDim S320000 ![] bcast_S_S320000),
    TRef.binary (.of main_arg4) main_call1.v0 main_call1.v1 (cmpi .slt),
    TRef.nullary main_call1.c_0 (constantI S_ 32 10000#32),
    TRef.unary main_call1.c_0 main_call1.v2 (broadcastInDim S320000 ![] bcast_S_S320000),
    TRef.binary (.of main_arg4) main_call1.v2 main_call1.v3 addi,
    TRef.ternary main_call1.v1 main_call1.v3 (.of main_arg4) main_call1.call0.v0 select,
    TRef.unary main_call1.call0.v0 main_call1.v5 (broadcastInDim S320000x1 ![0] bcast_S320000_S320000x1_0),
    TRef.nullary main_call1.c_1 (constantI S1 32 9999#32),
    TRef.nullary main_call1.c_2 (constantI S_ 32 0#32),
    TRef.unary main_call1.c_2 main_call1.v6 (broadcastInDim S320000x1 ![] bcast_S_S320000x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S320000x1 ![0, 1] bcast_S1x1_S320000x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S320000x1_S320000_d1 h_S_),
    TRef.binary (.of main_arg1) main_call1.v5 main_call1.v13 (fun x i => Host.gather gather_S10000x128_S320000x1_S320000x128_1_0_n_n_0_1_1128 x i),
    TRef.unary main_call1.v12 main_call1.v14 (broadcastInDim S320000x128 ![0] bcast_S320000_S320000x128_0),
    TRef.nullary main_call1.cst (constant S_ .f32 0x7FC00000#32),
    TRef.unary main_call1.cst main_call1.v15 (broadcastInDim S320000x128 ![] bcast_S_S320000x128),
    TRef.ternary main_call1.v14 main_call1.v13 main_call1.v15 main_call1.v16 select,
    nary ![main_v0, main_v1, main_arg2] main_v2 (fun u => concatenate S320000x384 1 [⟨S320000x128, u 0⟩, ⟨S320000x128, u 1⟩, ⟨S320000x128, u 2⟩] concatenates_S320000x128_S320000x128_S320000x128_S320000x384_d1),
    binary main_v2 main_arg5 main_v3 ((fun l r => Host.dotGeneral dot_S320000x384_S384x128_S320000x128_1_0_0_1_n_n none l r) : (⟨S320000x384, .f32⟩ : BufTy).Contents (Elt F) → (⟨S384x128, .f32⟩ : BufTy).Contents (Elt F) → (⟨S320000x128, .f32⟩ : BufTy).Contents (Elt F)),
    unary main_arg6 main_v4 (broadcastInDim S1x128 ![1] bcast_S128_S1x128_1 : (⟨S128, .f32⟩ : BufTy).Contents (Elt F) → (⟨S1x128, .f32⟩ : BufTy).Contents (Elt F)),
    unary main_v4 main_v5 (broadcastInDim S320000x128 ![0, 1] bcast_S1x128_S320000x128_0_1 : (⟨S1x128, .f32⟩ : BufTy).Contents (Elt F) → (⟨S320000x128, .f32⟩ : BufTy).Contents (Elt F)),
    binary main_v3 main_v5 main_v6 (addf : (⟨S320000x128, .f32⟩ : BufTy).Contents (Elt F) → (⟨S320000x128, .f32⟩ : BufTy).Contents (Elt F) → (⟨S320000x128, .f32⟩ : BufTy).Contents (Elt F)),
    TRef.nullary main_call2.cst (constant S_ .f32 0x00000000#32),
    TRef.unary main_call2.cst main_call2.v0 (broadcastInDim S320000x128 ![] bcast_S_S320000x128),
    TRef.binary (.of main_v6) main_call2.v0 main_call2.v1 maximumf,
    binary main_v7 main_arg7 main_v8 ((fun l r => Host.dotGeneral dot_S320000x128_S128x128_S320000x128_1_0_0_1_n_n none l r) : (⟨S320000x128, .f32⟩ : BufTy).Contents (Elt F) → (⟨S128x128, .f32⟩ : BufTy).Contents (Elt F) → (⟨S320000x128, .f32⟩ : BufTy).Contents (Elt F)),
    unary main_arg8 main_v9 (broadcastInDim S1x128 ![1] bcast_S128_S1x128_1 : (⟨S128, .f32⟩ : BufTy).Contents (Elt F) → (⟨S1x128, .f32⟩ : BufTy).Contents (Elt F)),
    unary main_v9 main_v10 (broadcastInDim S320000x128 ![0, 1] bcast_S1x128_S320000x128_0_1 : (⟨S1x128, .f32⟩ : BufTy).Contents (Elt F) → (⟨S320000x128, .f32⟩ : BufTy).Contents (Elt F)),
    binary main_v8 main_v10 main_v11 (addf : (⟨S320000x128, .f32⟩ : BufTy).Contents (Elt F) → (⟨S320000x128, .f32⟩ : BufTy).Contents (Elt F) → (⟨S320000x128, .f32⟩ : BufTy).Contents (Elt F)),
    TRef.nullary main_call3.cst (constant S_ .f32 0x00000000#32),
    TRef.unary main_call3.cst main_call3.v0 (broadcastInDim S320000x128 ![] bcast_S_S320000x128),
    TRef.binary (.of main_v11) main_call3.v0 main_call3.v1 maximumf,
    binary main_v12 main_arg9 main_v13 ((fun l r => Host.dotGeneral dot_S320000x128_S128x128_S320000x128_1_0_0_1_n_n none l r) : (⟨S320000x128, .f32⟩ : BufTy).Contents (Elt F) → (⟨S128x128, .f32⟩ : BufTy).Contents (Elt F) → (⟨S320000x128, .f32⟩ : BufTy).Contents (Elt F)),
    unary main_arg10 main_v14 (broadcastInDim S1x128 ![1] bcast_S128_S1x128_1 : (⟨S128, .f32⟩ : BufTy).Contents (Elt F) → (⟨S1x128, .f32⟩ : BufTy).Contents (Elt F)),
    unary main_v14 main_v15 (broadcastInDim S320000x128 ![0, 1] bcast_S1x128_S320000x128_0_1 : (⟨S1x128, .f32⟩ : BufTy).Contents (Elt F) → (⟨S320000x128, .f32⟩ : BufTy).Contents (Elt F)),
    binary main_v13 main_v15 main_v16 (addf : (⟨S320000x128, .f32⟩ : BufTy).Contents (Elt F) → (⟨S320000x128, .f32⟩ : BufTy).Contents (Elt F) → (⟨S320000x128, .f32⟩ : BufTy).Contents (Elt F)),
    nullary main_cst (constant S_ .f32 0x00000000#32),
    binary main_v16 main_cst main_v17 ((fun x v => Host.reduceAdd x v reducesTo_S320000x128_S320000_d1 h_S_) : (⟨S320000x128, .f32⟩ : BufTy).Contents (Elt F) → (⟨S_, .f32⟩ : BufTy).Contents (Elt F) → (⟨S320000, .f32⟩ : BufTy).Contents (Elt F)),
    unary main_v17 main_v18 (broadcastInDim S320000x1 ![0] bcast_S320000_S320000x1_0 : (⟨S320000, .f32⟩ : BufTy).Contents (Elt F) → (⟨S320000x1, .f32⟩ : BufTy).Contents (Elt F)),
    nullary main_cst_0 (constant S_ .f32 0x43000000#32),
    unary main_cst_0 main_v19 (broadcastInDim S320000x1 ![] bcast_S_S320000x1 : (⟨S_, .f32⟩ : BufTy).Contents (Elt F) → (⟨S320000x1, .f32⟩ : BufTy).Contents (Elt F)),
    binary main_v18 main_v19 main_v20 (Host.divf : (⟨S320000x1, .f32⟩ : BufTy).Contents (Elt F) → (⟨S320000x1, .f32⟩ : BufTy).Contents (Elt F) → (⟨S320000x1, .f32⟩ : BufTy).Contents (Elt F)),
    nullary main_c (constantI S_ 32 0#32),
    TRef.nullary main_call4.cst (constant S_ .f32 0x00000000#32),
    TRef.binary (.of main_v16) main_call4.cst main_call4.v0 (fun x v => Host.reduceAdd x v reducesTo_S320000x128_S320000_d1 h_S_),
    TRef.unary main_call4.v0 main_call4.v1 (broadcastInDim S320000x1 ![0] bcast_S320000_S320000x1_0),
    TRef.nullary main_call4.cst_0 (constant S_ .f32 0x43000000#32),
    TRef.unary main_call4.cst_0 main_call4.v2 (broadcastInDim S320000x1 ![] bcast_S_S320000x1),
    TRef.binary main_call4.v1 main_call4.v2 main_call4.v3 Host.divf,
    TRef.unary main_call4.v3 main_call4.v4 (broadcastInDim S320000x128 ![0, 1] bcast_S320000x1_S320000x128_0_1),
    TRef.binary (.of main_v16) main_call4.v4 main_call4.v5 subf,
    TRef.binary main_call4.v5 main_call4.v5 main_call4.v6 mulf,
    TRef.unary (.of main_c) main_call4.v7 (sitofp .f32),
    TRef.nullary main_call4.cst_1 (constant S_ .f32 0x43000000#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S320000x128_S320000_d1 h_S_),
    TRef.unary main_call4.v9 main_call4.v10 (broadcastInDim S320000x1 ![0] bcast_S320000_S320000x1_0),
    TRef.unary main_call4.v8 main_call4.v11 (broadcastInDim S320000x1 ![] bcast_S_S320000x1),
    TRef.binary main_call4.v10 main_call4.v11 main_call4.v12 Host.divf,
    TRef.nullary main_call4.cst_3 (constant S_ .f32 0x00000000#32),
    TRef.binary main_call4.v8 main_call4.cst_3 main_call4.v13 (cmpf .ogt),
    TRef.nullary main_call4.cst_4 (constant S_ .f32 0x7FC00000#32),
    TRef.unary main_call4.cst_4 main_call4.call0.v0 id,
    TRef.unary main_call4.call0.v0 main_call4.call0.v1 (broadcastInDim S320000x1 ![] bcast_S_S320000x1),
    TRef.ternary main_call4.v13 main_call4.v12 main_call4.call0.v1 main_call4.call0.v2 (fun p a b => select (broadcastInDim S320000x1 ![] bcast_S_S320000x1 p) a b),
    unary main_v20 main_v22 (broadcastInDim S320000x128 ![0, 1] bcast_S320000x1_S320000x128_0_1 : (⟨S320000x1, .f32⟩ : BufTy).Contents (Elt F) → (⟨S320000x128, .f32⟩ : BufTy).Contents (Elt F)),
    binary main_v16 main_v22 main_v23 (subf : (⟨S320000x128, .f32⟩ : BufTy).Contents (Elt F) → (⟨S320000x128, .f32⟩ : BufTy).Contents (Elt F) → (⟨S320000x128, .f32⟩ : BufTy).Contents (Elt F)),
    nullary main_cst_1 (constant S_ .f32 0x3A83126F#32),
    unary main_cst_1 main_v24 (broadcastInDim S320000x1 ![] bcast_S_S320000x1 : (⟨S_, .f32⟩ : BufTy).Contents (Elt F) → (⟨S320000x1, .f32⟩ : BufTy).Contents (Elt F)),
    binary main_v21 main_v24 main_v25 (addf : (⟨S320000x1, .f32⟩ : BufTy).Contents (Elt F) → (⟨S320000x1, .f32⟩ : BufTy).Contents (Elt F) → (⟨S320000x1, .f32⟩ : BufTy).Contents (Elt F)),
    unary main_v25 main_v26 (Host.rsqrt : (⟨S320000x1, .f32⟩ : BufTy).Contents (Elt F) → (⟨S320000x1, .f32⟩ : BufTy).Contents (Elt F)),
    unary main_v26 main_v27 (broadcastInDim S320000x128 ![0, 1] bcast_S320000x1_S320000x128_0_1 : (⟨S320000x1, .f32⟩ : BufTy).Contents (Elt F) → (⟨S320000x128, .f32⟩ : BufTy).Contents (Elt F)),
    binary main_v23 main_v27 main_v28 (mulf : (⟨S320000x128, .f32⟩ : BufTy).Contents (Elt F) → (⟨S320000x128, .f32⟩ : BufTy).Contents (Elt F) → (⟨S320000x128, .f32⟩ : BufTy).Contents (Elt F)),
    unary main_arg11 main_v29 (broadcastInDim S1x128 ![1] bcast_S128_S1x128_1 : (⟨S128, .f32⟩ : BufTy).Contents (Elt F) → (⟨S1x128, .f32⟩ : BufTy).Contents (Elt F)),
    unary main_v29 main_v30 (broadcastInDim S320000x128 ![0, 1] bcast_S1x128_S320000x128_0_1 : (⟨S1x128, .f32⟩ : BufTy).Contents (Elt F) → (⟨S320000x128, .f32⟩ : BufTy).Contents (Elt F)),
    binary main_v28 main_v30 main_v31 (mulf : (⟨S320000x128, .f32⟩ : BufTy).Contents (Elt F) → (⟨S320000x128, .f32⟩ : BufTy).Contents (Elt F) → (⟨S320000x128, .f32⟩ : BufTy).Contents (Elt F)),
    unary main_arg12 main_v32 (broadcastInDim S1x128 ![1] bcast_S128_S1x128_1 : (⟨S128, .f32⟩ : BufTy).Contents (Elt F) → (⟨S1x128, .f32⟩ : BufTy).Contents (Elt F)),
    unary main_v32 main_v33 (broadcastInDim S320000x128 ![0, 1] bcast_S1x128_S320000x128_0_1 : (⟨S1x128, .f32⟩ : BufTy).Contents (Elt F) → (⟨S320000x128, .f32⟩ : BufTy).Contents (Elt F)),
    binary main_v31 main_v33 main_v34 (addf : (⟨S320000x128, .f32⟩ : BufTy).Contents (Elt F) → (⟨S320000x128, .f32⟩ : BufTy).Contents (Elt F) → (⟨S320000x128, .f32⟩ : BufTy).Contents (Elt F)) ]

/-- The list, cut at the calls. -/
theorem ops_calls : (ops : List (HloOp τ sig (Elt F))) = takeOps (.of main_arg0) (.of main_arg3) main_call0 ++ (takeOps (.of main_arg1) (.of main_arg4) main_call1
    ++ (mid1 ++ (reluOps (.of main_v6) main_call2 ++ (mid2 ++ (reluOps (.of main_v11) main_call3
    ++ (mid3 ++ (varOps (.of main_v16) (.of main_c) main_call4 ++ mid4))))))) := rfl

/-- The program is that straight line: each call is its function's list, and lists run one after the other are their
    concatenation run as one. -/
theorem main_eq (c : Dev nD) : main (F := F) c = seq ops := by
  rw [ops_calls]
  simp only [seq_append, ← take_seq, ← relu_seq, ← var_seq]
  simp only [main, mid1, mid2, mid3, mid4, seq, bind_assoc, pure_bind]

/-! ## The list in four stretches -/

abbrev T0 : List (HloOp τ sig (Elt F)) :=
  [ TRef.nullary main_call0.c (constantI S_ 32 0#32),
    TRef.unary main_call0.c main_call0.v0 (broadcastInDim S320000 ![] bcast_S_S320000),
    TRef.binary (.of main_arg3) main_call0.v0 main_call0.v1 (cmpi .slt),
    TRef.nullary main_call0.c_0 (constantI S_ 32 10000#32),
    TRef.unary main_call0.c_0 main_call0.v2 (broadcastInDim S320000 ![] bcast_S_S320000),
    TRef.binary (.of main_arg3) main_call0.v2 main_call0.v3 addi,
    TRef.ternary main_call0.v1 main_call0.v3 (.of main_arg3) main_call0.call0.v0 select,
    TRef.unary main_call0.call0.v0 main_call0.v5 (broadcastInDim S320000x1 ![0] bcast_S320000_S320000x1_0),
    TRef.nullary main_call0.c_1 (constantI S1 32 9999#32),
    TRef.nullary main_call0.c_2 (constantI S_ 32 0#32),
    TRef.unary main_call0.c_2 main_call0.v6 (broadcastInDim S320000x1 ![] bcast_S_S320000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S320000x1 ![0, 1] bcast_S1x1_S320000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S320000x1_S320000_d1 h_S_),
    TRef.binary (.of main_arg0) main_call0.v5 main_call0.v13 (fun x i => Host.gather gather_S10000x128_S320000x1_S320000x128_1_0_n_n_0_1_1128 x i),
    TRef.unary main_call0.v12 main_call0.v14 (broadcastInDim S320000x128 ![0] bcast_S320000_S320000x128_0),
    TRef.nullary main_call0.cst (constant S_ .f32 0x7FC00000#32),
    TRef.unary main_call0.cst main_call0.v15 (broadcastInDim S320000x128 ![] bcast_S_S320000x128),
    TRef.ternary main_call0.v14 main_call0.v13 main_call0.v15 main_call0.v16 select ]
abbrev T1 : List (HloOp τ sig (Elt F)) :=
  [ TRef.nullary main_call1.c (constantI S_ 32 0#32),
    TRef.unary main_call1.c main_call1.v0 (broadcastInDim S320000 ![] bcast_S_S320000),
    TRef.binary (.of main_arg4) main_call1.v0 main_call1.v1 (cmpi .slt),
    TRef.nullary main_call1.c_0 (constantI S_ 32 10000#32),
    TRef.unary main_call1.c_0 main_call1.v2 (broadcastInDim S320000 ![] bcast_S_S320000),
    TRef.binary (.of main_arg4) main_call1.v2 main_call1.v3 addi,
    TRef.ternary main_call1.v1 main_call1.v3 (.of main_arg4) main_call1.call0.v0 select,
    TRef.unary main_call1.call0.v0 main_call1.v5 (broadcastInDim S320000x1 ![0] bcast_S320000_S320000x1_0),
    TRef.nullary main_call1.c_1 (constantI S1 32 9999#32),
    TRef.nullary main_call1.c_2 (constantI S_ 32 0#32),
    TRef.unary main_call1.c_2 main_call1.v6 (broadcastInDim S320000x1 ![] bcast_S_S320000x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S320000x1 ![0, 1] bcast_S1x1_S320000x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S320000x1_S320000_d1 h_S_),
    TRef.binary (.of main_arg1) main_call1.v5 main_call1.v13 (fun x i => Host.gather gather_S10000x128_S320000x1_S320000x128_1_0_n_n_0_1_1128 x i),
    TRef.unary main_call1.v12 main_call1.v14 (broadcastInDim S320000x128 ![0] bcast_S320000_S320000x128_0),
    TRef.nullary main_call1.cst (constant S_ .f32 0x7FC00000#32),
    TRef.unary main_call1.cst main_call1.v15 (broadcastInDim S320000x128 ![] bcast_S_S320000x128),
    TRef.ternary main_call1.v14 main_call1.v13 main_call1.v15 main_call1.v16 select ]
abbrev S1 : List (HloOp τ sig (Elt F)) :=
  [ nary ![main_v0, main_v1, main_arg2] main_v2 (fun u => concatenate S320000x384 1 [⟨S320000x128, u 0⟩, ⟨S320000x128, u 1⟩, ⟨S320000x128, u 2⟩] concatenates_S320000x128_S320000x128_S320000x128_S320000x384_d1),
    binary main_v2 main_arg5 main_v3 ((fun l r => Host.dotGeneral dot_S320000x384_S384x128_S320000x128_1_0_0_1_n_n none l r) : (⟨S320000x384, .f32⟩ : BufTy).Contents (Elt F) → (⟨S384x128, .f32⟩ : BufTy).Contents (Elt F) → (⟨S320000x128, .f32⟩ : BufTy).Contents (Elt F)),
    unary main_arg6 main_v4 (broadcastInDim S1x128 ![1] bcast_S128_S1x128_1 : (⟨S128, .f32⟩ : BufTy).Contents (Elt F) → (⟨S1x128, .f32⟩ : BufTy).Contents (Elt F)),
    unary main_v4 main_v5 (broadcastInDim S320000x128 ![0, 1] bcast_S1x128_S320000x128_0_1 : (⟨S1x128, .f32⟩ : BufTy).Contents (Elt F) → (⟨S320000x128, .f32⟩ : BufTy).Contents (Elt F)),
    binary main_v3 main_v5 main_v6 (addf : (⟨S320000x128, .f32⟩ : BufTy).Contents (Elt F) → (⟨S320000x128, .f32⟩ : BufTy).Contents (Elt F) → (⟨S320000x128, .f32⟩ : BufTy).Contents (Elt F)),
    TRef.nullary main_call2.cst (constant S_ .f32 0x00000000#32),
    TRef.unary main_call2.cst main_call2.v0 (broadcastInDim S320000x128 ![] bcast_S_S320000x128),
    TRef.binary (.of main_v6) main_call2.v0 main_call2.v1 maximumf,
    binary main_v7 main_arg7 main_v8 ((fun l r => Host.dotGeneral dot_S320000x128_S128x128_S320000x128_1_0_0_1_n_n none l r) : (⟨S320000x128, .f32⟩ : BufTy).Contents (Elt F) → (⟨S128x128, .f32⟩ : BufTy).Contents (Elt F) → (⟨S320000x128, .f32⟩ : BufTy).Contents (Elt F)),
    unary main_arg8 main_v9 (broadcastInDim S1x128 ![1] bcast_S128_S1x128_1 : (⟨S128, .f32⟩ : BufTy).Contents (Elt F) → (⟨S1x128, .f32⟩ : BufTy).Contents (Elt F)),
    unary main_v9 main_v10 (broadcastInDim S320000x128 ![0, 1] bcast_S1x128_S320000x128_0_1 : (⟨S1x128, .f32⟩ : BufTy).Contents (Elt F) → (⟨S320000x128, .f32⟩ : BufTy).Contents (Elt F)),
    binary main_v8 main_v10 main_v11 (addf : (⟨S320000x128, .f32⟩ : BufTy).Contents (Elt F) → (⟨S320000x128, .f32⟩ : BufTy).Contents (Elt F) → (⟨S320000x128, .f32⟩ : BufTy).Contents (Elt F)),
    TRef.nullary main_call3.cst (constant S_ .f32 0x00000000#32),
    TRef.unary main_call3.cst main_call3.v0 (broadcastInDim S320000x128 ![] bcast_S_S320000x128),
    TRef.binary (.of main_v11) main_call3.v0 main_call3.v1 maximumf,
    binary main_v12 main_arg9 main_v13 ((fun l r => Host.dotGeneral dot_S320000x128_S128x128_S320000x128_1_0_0_1_n_n none l r) : (⟨S320000x128, .f32⟩ : BufTy).Contents (Elt F) → (⟨S128x128, .f32⟩ : BufTy).Contents (Elt F) → (⟨S320000x128, .f32⟩ : BufTy).Contents (Elt F)),
    unary main_arg10 main_v14 (broadcastInDim S1x128 ![1] bcast_S128_S1x128_1 : (⟨S128, .f32⟩ : BufTy).Contents (Elt F) → (⟨S1x128, .f32⟩ : BufTy).Contents (Elt F)),
    unary main_v14 main_v15 (broadcastInDim S320000x128 ![0, 1] bcast_S1x128_S320000x128_0_1 : (⟨S1x128, .f32⟩ : BufTy).Contents (Elt F) → (⟨S320000x128, .f32⟩ : BufTy).Contents (Elt F)),
    binary main_v13 main_v15 main_v16 (addf : (⟨S320000x128, .f32⟩ : BufTy).Contents (Elt F) → (⟨S320000x128, .f32⟩ : BufTy).Contents (Elt F) → (⟨S320000x128, .f32⟩ : BufTy).Contents (Elt F)) ]
abbrev S2 : List (HloOp τ sig (Elt F)) :=
  [ nullary main_cst (constant S_ .f32 0x00000000#32),
    binary main_v16 main_cst main_v17 ((fun x v => Host.reduceAdd x v reducesTo_S320000x128_S320000_d1 h_S_) : (⟨S320000x128, .f32⟩ : BufTy).Contents (Elt F) → (⟨S_, .f32⟩ : BufTy).Contents (Elt F) → (⟨S320000, .f32⟩ : BufTy).Contents (Elt F)),
    unary main_v17 main_v18 (broadcastInDim S320000x1 ![0] bcast_S320000_S320000x1_0 : (⟨S320000, .f32⟩ : BufTy).Contents (Elt F) → (⟨S320000x1, .f32⟩ : BufTy).Contents (Elt F)),
    nullary main_cst_0 (constant S_ .f32 0x43000000#32),
    unary main_cst_0 main_v19 (broadcastInDim S320000x1 ![] bcast_S_S320000x1 : (⟨S_, .f32⟩ : BufTy).Contents (Elt F) → (⟨S320000x1, .f32⟩ : BufTy).Contents (Elt F)),
    binary main_v18 main_v19 main_v20 (Host.divf : (⟨S320000x1, .f32⟩ : BufTy).Contents (Elt F) → (⟨S320000x1, .f32⟩ : BufTy).Contents (Elt F) → (⟨S320000x1, .f32⟩ : BufTy).Contents (Elt F)),
    nullary main_c (constantI S_ 32 0#32),
    TRef.nullary main_call4.cst (constant S_ .f32 0x00000000#32),
    TRef.binary (.of main_v16) main_call4.cst main_call4.v0 (fun x v => Host.reduceAdd x v reducesTo_S320000x128_S320000_d1 h_S_),
    TRef.unary main_call4.v0 main_call4.v1 (broadcastInDim S320000x1 ![0] bcast_S320000_S320000x1_0),
    TRef.nullary main_call4.cst_0 (constant S_ .f32 0x43000000#32),
    TRef.unary main_call4.cst_0 main_call4.v2 (broadcastInDim S320000x1 ![] bcast_S_S320000x1),
    TRef.binary main_call4.v1 main_call4.v2 main_call4.v3 Host.divf,
    TRef.unary main_call4.v3 main_call4.v4 (broadcastInDim S320000x128 ![0, 1] bcast_S320000x1_S320000x128_0_1),
    TRef.binary (.of main_v16) main_call4.v4 main_call4.v5 subf,
    TRef.binary main_call4.v5 main_call4.v5 main_call4.v6 mulf,
    TRef.unary (.of main_c) main_call4.v7 (sitofp .f32),
    TRef.nullary main_call4.cst_1 (constant S_ .f32 0x43000000#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S320000x128_S320000_d1 h_S_),
    TRef.unary main_call4.v9 main_call4.v10 (broadcastInDim S320000x1 ![0] bcast_S320000_S320000x1_0),
    TRef.unary main_call4.v8 main_call4.v11 (broadcastInDim S320000x1 ![] bcast_S_S320000x1),
    TRef.binary main_call4.v10 main_call4.v11 main_call4.v12 Host.divf,
    TRef.nullary main_call4.cst_3 (constant S_ .f32 0x00000000#32),
    TRef.binary main_call4.v8 main_call4.cst_3 main_call4.v13 (cmpf .ogt),
    TRef.nullary main_call4.cst_4 (constant S_ .f32 0x7FC00000#32),
    TRef.unary main_call4.cst_4 main_call4.call0.v0 id,
    TRef.unary main_call4.call0.v0 main_call4.call0.v1 (broadcastInDim S320000x1 ![] bcast_S_S320000x1),
    TRef.ternary main_call4.v13 main_call4.v12 main_call4.call0.v1 main_call4.call0.v2 (fun p a b => select (broadcastInDim S320000x1 ![] bcast_S_S320000x1 p) a b),
    unary main_v20 main_v22 (broadcastInDim S320000x128 ![0, 1] bcast_S320000x1_S320000x128_0_1 : (⟨S320000x1, .f32⟩ : BufTy).Contents (Elt F) → (⟨S320000x128, .f32⟩ : BufTy).Contents (Elt F)),
    binary main_v16 main_v22 main_v23 (subf : (⟨S320000x128, .f32⟩ : BufTy).Contents (Elt F) → (⟨S320000x128, .f32⟩ : BufTy).Contents (Elt F) → (⟨S320000x128, .f32⟩ : BufTy).Contents (Elt F)),
    nullary main_cst_1 (constant S_ .f32 0x3A83126F#32),
    unary main_cst_1 main_v24 (broadcastInDim S320000x1 ![] bcast_S_S320000x1 : (⟨S_, .f32⟩ : BufTy).Contents (Elt F) → (⟨S320000x1, .f32⟩ : BufTy).Contents (Elt F)),
    binary main_v21 main_v24 main_v25 (addf : (⟨S320000x1, .f32⟩ : BufTy).Contents (Elt F) → (⟨S320000x1, .f32⟩ : BufTy).Contents (Elt F) → (⟨S320000x1, .f32⟩ : BufTy).Contents (Elt F)),
    unary main_v25 main_v26 (Host.rsqrt : (⟨S320000x1, .f32⟩ : BufTy).Contents (Elt F) → (⟨S320000x1, .f32⟩ : BufTy).Contents (Elt F)),
    unary main_v26 main_v27 (broadcastInDim S320000x128 ![0, 1] bcast_S320000x1_S320000x128_0_1 : (⟨S320000x1, .f32⟩ : BufTy).Contents (Elt F) → (⟨S320000x128, .f32⟩ : BufTy).Contents (Elt F)),
    binary main_v23 main_v27 main_v28 (mulf : (⟨S320000x128, .f32⟩ : BufTy).Contents (Elt F) → (⟨S320000x128, .f32⟩ : BufTy).Contents (Elt F) → (⟨S320000x128, .f32⟩ : BufTy).Contents (Elt F)),
    unary main_arg11 main_v29 (broadcastInDim S1x128 ![1] bcast_S128_S1x128_1 : (⟨S128, .f32⟩ : BufTy).Contents (Elt F) → (⟨S1x128, .f32⟩ : BufTy).Contents (Elt F)),
    unary main_v29 main_v30 (broadcastInDim S320000x128 ![0, 1] bcast_S1x128_S320000x128_0_1 : (⟨S1x128, .f32⟩ : BufTy).Contents (Elt F) → (⟨S320000x128, .f32⟩ : BufTy).Contents (Elt F)),
    binary main_v28 main_v30 main_v31 (mulf : (⟨S320000x128, .f32⟩ : BufTy).Contents (Elt F) → (⟨S320000x128, .f32⟩ : BufTy).Contents (Elt F) → (⟨S320000x128, .f32⟩ : BufTy).Contents (Elt F)),
    unary main_arg12 main_v32 (broadcastInDim S1x128 ![1] bcast_S128_S1x128_1 : (⟨S128, .f32⟩ : BufTy).Contents (Elt F) → (⟨S1x128, .f32⟩ : BufTy).Contents (Elt F)),
    unary main_v32 main_v33 (broadcastInDim S320000x128 ![0, 1] bcast_S1x128_S320000x128_0_1 : (⟨S1x128, .f32⟩ : BufTy).Contents (Elt F) → (⟨S320000x128, .f32⟩ : BufTy).Contents (Elt F)),
    binary main_v31 main_v33 main_v34 (addf : (⟨S320000x128, .f32⟩ : BufTy).Contents (Elt F) → (⟨S320000x128, .f32⟩ : BufTy).Contents (Elt F) → (⟨S320000x128, .f32⟩ : BufTy).Contents (Elt F)) ]

theorem ops_windows : (ops : List (HloOp τ sig (Elt F))) = T0 ++ (T1 ++ (S1 ++ S2)) := rfl

/-- Folding two stretches one after the other is folding their concatenation. -/
theorem after_append (l₁ l₂ : List (HloOp τ sig (Elt F))) (V : Valuation τ sig (Elt F)) : after (l₁ ++ l₂) V = after l₂ (after l₁ V) := by
  induction l₁ generalizing V with
  | nil => rfl
  | cons op l ih => exact ih _

/-- The arrays this stretch writes. -/
abbrev T0_W : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v0]
theorem T0_writes : (T0 : List (HloOp τ sig (Elt F))).Forall fun op => op.writes ⊆ (T0_W.map (Proc.devRef (τ := τ) .tc)).toFinset := by
  simp only [List.Forall]
  repeat' apply And.intro
  all_goals (simp only [nullary_writes, unary_writes, binary_writes, ternary_writes, nary_writes, Finset.singleton_subset_iff,
    List.mem_toFinset]; exact List.mem_map_of_mem (by decide))
/-- An array this stretch does not write keeps its contents through it. -/
theorem T0_keep (V : Valuation τ sig (Elt F)) (r : Ref sig .tc) (h : r ∉ T0_W) :
    after (T0 : List (HloOp τ sig (Elt F))) V (Proc.devRef .tc r) = V (Proc.devRef .tc r) :=
  after_of_writes_sub T0 V T0_writes h

/-- The arrays this stretch writes. -/
abbrev T1_W : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v1]
theorem T1_writes : (T1 : List (HloOp τ sig (Elt F))).Forall fun op => op.writes ⊆ (T1_W.map (Proc.devRef (τ := τ) .tc)).toFinset := by
  simp only [List.Forall]
  repeat' apply And.intro
  all_goals (simp only [nullary_writes, unary_writes, binary_writes, ternary_writes, nary_writes, Finset.singleton_subset_iff,
    List.mem_toFinset]; exact List.mem_map_of_mem (by decide))
/-- An array this stretch does not write keeps its contents through it. -/
theorem T1_keep (V : Valuation τ sig (Elt F)) (r : Ref sig .tc) (h : r ∉ T1_W) :
    after (T1 : List (HloOp τ sig (Elt F))) V (Proc.devRef .tc r) = V (Proc.devRef .tc r) :=
  after_of_writes_sub T1 V T1_writes h

/-- The arrays this stretch writes. -/
abbrev S1_W : List (Ref sig .tc) := [main_v2, main_v3, main_v4, main_v5, main_v6, main_call2_cst, main_call2_v0, main_v7, main_v8, main_v9, main_v10, main_v11, main_call3_cst, main_call3_v0, main_v12, main_v13, main_v14, main_v15, main_v16]
theorem S1_writes : (S1 : List (HloOp τ sig (Elt F))).Forall fun op => op.writes ⊆ (S1_W.map (Proc.devRef (τ := τ) .tc)).toFinset := by
  simp only [List.Forall]
  repeat' apply And.intro
  all_goals (simp only [nullary_writes, unary_writes, binary_writes, ternary_writes, nary_writes, Finset.singleton_subset_iff,
    List.mem_toFinset]; exact List.mem_map_of_mem (by decide))
/-- An array this stretch does not write keeps its contents through it. -/
theorem S1_keep (V : Valuation τ sig (Elt F)) (r : Ref sig .tc) (h : r ∉ S1_W) :
    after (S1 : List (HloOp τ sig (Elt F))) V (Proc.devRef .tc r) = V (Proc.devRef .tc r) :=
  after_of_writes_sub S1 V S1_writes h

/-- The arrays this stretch writes. -/
abbrev S2_W : List (Ref sig .tc) := [main_cst, main_v17, main_v18, main_cst_0, main_v19, main_v20, main_c, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_v12, main_call4_cst_3, main_call4_v13, main_call4_cst_4, main_call4_call0_v0, main_call4_call0_v1, main_v21, main_v22, main_v23, main_cst_1, main_v24, main_v25, main_v26, main_v27, main_v28, main_v29, main_v30, main_v31, main_v32, main_v33, main_v34]
theorem S2_writes : (S2 : List (HloOp τ sig (Elt F))).Forall fun op => op.writes ⊆ (S2_W.map (Proc.devRef (τ := τ) .tc)).toFinset := by
  simp only [List.Forall]
  repeat' apply And.intro
  all_goals (simp only [nullary_writes, unary_writes, binary_writes, ternary_writes, nary_writes, Finset.singleton_subset_iff,
    List.mem_toFinset]; exact List.mem_map_of_mem (by decide))
/-- An array this stretch does not write keeps its contents through it. -/
theorem S2_keep (V : Valuation τ sig (Elt F)) (r : Ref sig .tc) (h : r ∉ S2_W) :
    after (S2 : List (HloOp τ sig (Elt F))) V (Proc.devRef .tc r) = V (Proc.devRef .tc r) :=
  after_of_writes_sub S2 V S2_writes h

attribute [local irreducible] Host.reduce Host.reduceAdd Host.gather concatenate in
set_option maxRecDepth 16384 in
set_option maxHeartbeats 800000 in
/-- The stretch's result from the contents it starts with, the two arrays it reads named. -/
theorem T0_result_of (V : Valuation τ sig (Elt F)) (x : (⟨S10000x128, .f32⟩ : BufTy).Contents (Elt F)) (i : (⟨S320000, .i32⟩ : BufTy).Contents (Elt F))
    (hx : V (Proc.devRef .tc main_arg0) = x) (hi : V (Proc.devRef .tc main_arg3) = i) :
    after (T0 : List (HloOp τ sig (Elt F))) V (Proc.devRef .tc main_v0) = gathered x i := by
  after_results_simp
  rw [hi, hx]
  rfl

theorem T0_result (V : Valuation τ sig (Elt F)) :
    after (T0 : List (HloOp τ sig (Elt F))) V (Proc.devRef .tc main_v0) = gathered (V (Proc.devRef .tc main_arg0)) (V (Proc.devRef .tc main_arg3)) :=
  T0_result_of V _ _ rfl rfl

attribute [local irreducible] Host.reduce Host.reduceAdd Host.gather concatenate in
set_option maxRecDepth 16384 in
set_option maxHeartbeats 800000 in
/-- The stretch's result from the contents it starts with, the two arrays it reads named. -/
theorem T1_result_of (V : Valuation τ sig (Elt F)) (x : (⟨S10000x128, .f32⟩ : BufTy).Contents (Elt F)) (i : (⟨S320000, .i32⟩ : BufTy).Contents (Elt F))
    (hx : V (Proc.devRef .tc main_arg1) = x) (hi : V (Proc.devRef .tc main_arg4) = i) :
    after (T1 : List (HloOp τ sig (Elt F))) V (Proc.devRef .tc main_v1) = gathered x i := by
  after_results_simp
  rw [hi, hx]
  rfl

theorem T1_result (V : Valuation τ sig (Elt F)) :
    after (T1 : List (HloOp τ sig (Elt F))) V (Proc.devRef .tc main_v1) = gathered (V (Proc.devRef .tc main_arg1)) (V (Proc.devRef .tc main_arg4)) :=
  T1_result_of V _ _ rfl rfl

attribute [local irreducible] Host.reduce Host.reduceAdd Host.gather concatenate in
set_option maxRecDepth 16384 in
set_option maxHeartbeats 800000 in
theorem S1_result (V : Valuation τ sig (Elt F)) :
    after (S1 : List (HloOp τ sig (Elt F))) V (Proc.devRef .tc main_v16) = layers (V (Proc.devRef .tc main_v0)) (V (Proc.devRef .tc main_v1)) (V (Proc.devRef .tc main_arg2)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  simp only [after_cons, after_nil]
  rfl

attribute [local irreducible] Host.reduce Host.reduceAdd Host.gather concatenate in
set_option maxRecDepth 16384 in
set_option maxHeartbeats 1600000 in
theorem S2_result (V : Valuation τ sig (Elt F)) :
    after (S2 : List (HloOp τ sig (Elt F))) V (Proc.devRef .tc main_v34) = normArr (V (Proc.devRef .tc main_v16)) (V (Proc.devRef .tc main_arg11)) (V (Proc.devRef .tc main_arg12)) := by
  simp only [after_cons, after_nil]
  rfl

/-- Folding all the operations over any starting contents leaves, in the result's place, `out` of the contents of the
    thirteen arguments: stretch by stretch, each result read where the next stretch finds it. -/
theorem out_eq (V : Valuation τ sig (Elt F)) :
    after (ops : List (HloOp τ sig (Elt F))) V (Proc.devRef .tc main_v34)
      = out (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6))
          (V (Proc.devRef .tc main_arg7)) (V (Proc.devRef .tc main_arg8)) (V (Proc.devRef .tc main_arg9)) (V (Proc.devRef .tc main_arg10)) (V (Proc.devRef .tc main_arg11)) (V (Proc.devRef .tc main_arg12)) := by
  rw [ops_windows, after_append, after_append, after_append]
  unfold out
  rw [S2_result (after S1 (after T1 (after T0 V)))]
  rw [S1_keep (after T1 (after T0 V)) main_arg11 (by decide), S1_keep (after T1 (after T0 V)) main_arg12 (by decide)]
  rw [S1_result (after T1 (after T0 V))]
  rw [T1_keep (after T0 V) main_v0 (by decide), T1_keep (after T0 V) main_arg2 (by decide), T1_keep (after T0 V) main_arg5 (by decide), T1_keep (after T0 V) main_arg6 (by decide), T1_keep (after T0 V) main_arg7 (by decide), T1_keep (after T0 V) main_arg8 (by decide), T1_keep (after T0 V) main_arg9 (by decide), T1_keep (after T0 V) main_arg10 (by decide), T1_keep (after T0 V) main_arg11 (by decide), T1_keep (after T0 V) main_arg12 (by decide)]
  rw [T1_result (after T0 V)]
  rw [T0_keep V main_arg1 (by decide), T0_keep V main_arg2 (by decide), T0_keep V main_arg4 (by decide), T0_keep V main_arg5 (by decide), T0_keep V main_arg6 (by decide), T0_keep V main_arg7 (by decide), T0_keep V main_arg8 (by decide), T0_keep V main_arg9 (by decide), T0_keep V main_arg10 (by decide), T0_keep V main_arg11 (by decide), T0_keep V main_arg12 (by decide)]
  rw [T0_result V]

theorem arg0_kept (V : Valuation τ sig (Elt F)) : after (ops : List (HloOp τ sig (Elt F))) V (Proc.devRef .tc main_arg0) = V (Proc.devRef .tc main_arg0) := by
  rw [ops_windows, after_append, after_append, after_append, S2_keep _ main_arg0 (by decide), S1_keep _ main_arg0 (by decide),
    T1_keep _ main_arg0 (by decide), T0_keep _ main_arg0 (by decide)]
theorem arg1_kept (V : Valuation τ sig (Elt F)) : after (ops : List (HloOp τ sig (Elt F))) V (Proc.devRef .tc main_arg1) = V (Proc.devRef .tc main_arg1) := by
  rw [ops_windows, after_append, after_append, after_append, S2_keep _ main_arg1 (by decide), S1_keep _ main_arg1 (by decide),
    T1_keep _ main_arg1 (by decide), T0_keep _ main_arg1 (by decide)]
theorem arg2_kept (V : Valuation τ sig (Elt F)) : after (ops : List (HloOp τ sig (Elt F))) V (Proc.devRef .tc main_arg2) = V (Proc.devRef .tc main_arg2) := by
  rw [ops_windows, after_append, after_append, after_append, S2_keep _ main_arg2 (by decide), S1_keep _ main_arg2 (by decide),
    T1_keep _ main_arg2 (by decide), T0_keep _ main_arg2 (by decide)]
theorem arg3_kept (V : Valuation τ sig (Elt F)) : after (ops : List (HloOp τ sig (Elt F))) V (Proc.devRef .tc main_arg3) = V (Proc.devRef .tc main_arg3) := by
  rw [ops_windows, after_append, after_append, after_append, S2_keep _ main_arg3 (by decide), S1_keep _ main_arg3 (by decide),
    T1_keep _ main_arg3 (by decide), T0_keep _ main_arg3 (by decide)]
theorem arg4_kept (V : Valuation τ sig (Elt F)) : after (ops : List (HloOp τ sig (Elt F))) V (Proc.devRef .tc main_arg4) = V (Proc.devRef .tc main_arg4) := by
  rw [ops_windows, after_append, after_append, after_append, S2_keep _ main_arg4 (by decide), S1_keep _ main_arg4 (by decide),
    T1_keep _ main_arg4 (by decide), T0_keep _ main_arg4 (by decide)]
theorem arg5_kept (V : Valuation τ sig (Elt F)) : after (ops : List (HloOp τ sig (Elt F))) V (Proc.devRef .tc main_arg5) = V (Proc.devRef .tc main_arg5) := by
  rw [ops_windows, after_append, after_append, after_append, S2_keep _ main_arg5 (by decide), S1_keep _ main_arg5 (by decide),
    T1_keep _ main_arg5 (by decide), T0_keep _ main_arg5 (by decide)]
theorem arg6_kept (V : Valuation τ sig (Elt F)) : after (ops : List (HloOp τ sig (Elt F))) V (Proc.devRef .tc main_arg6) = V (Proc.devRef .tc main_arg6) := by
  rw [ops_windows, after_append, after_append, after_append, S2_keep _ main_arg6 (by decide), S1_keep _ main_arg6 (by decide),
    T1_keep _ main_arg6 (by decide), T0_keep _ main_arg6 (by decide)]
theorem arg7_kept (V : Valuation τ sig (Elt F)) : after (ops : List (HloOp τ sig (Elt F))) V (Proc.devRef .tc main_arg7) = V (Proc.devRef .tc main_arg7) := by
  rw [ops_windows, after_append, after_append, after_append, S2_keep _ main_arg7 (by decide), S1_keep _ main_arg7 (by decide),
    T1_keep _ main_arg7 (by decide), T0_keep _ main_arg7 (by decide)]
theorem arg8_kept (V : Valuation τ sig (Elt F)) : after (ops : List (HloOp τ sig (Elt F))) V (Proc.devRef .tc main_arg8) = V (Proc.devRef .tc main_arg8) := by
  rw [ops_windows, after_append, after_append, after_append, S2_keep _ main_arg8 (by decide), S1_keep _ main_arg8 (by decide),
    T1_keep _ main_arg8 (by decide), T0_keep _ main_arg8 (by decide)]
theorem arg9_kept (V : Valuation τ sig (Elt F)) : after (ops : List (HloOp τ sig (Elt F))) V (Proc.devRef .tc main_arg9) = V (Proc.devRef .tc main_arg9) := by
  rw [ops_windows, after_append, after_append, after_append, S2_keep _ main_arg9 (by decide), S1_keep _ main_arg9 (by decide),
    T1_keep _ main_arg9 (by decide), T0_keep _ main_arg9 (by decide)]
theorem arg10_kept (V : Valuation τ sig (Elt F)) : after (ops : List (HloOp τ sig (Elt F))) V (Proc.devRef .tc main_arg10) = V (Proc.devRef .tc main_arg10) := by
  rw [ops_windows, after_append, after_append, after_append, S2_keep _ main_arg10 (by decide), S1_keep _ main_arg10 (by decide),
    T1_keep _ main_arg10 (by decide), T0_keep _ main_arg10 (by decide)]
theorem arg11_kept (V : Valuation τ sig (Elt F)) : after (ops : List (HloOp τ sig (Elt F))) V (Proc.devRef .tc main_arg11) = V (Proc.devRef .tc main_arg11) := by
  rw [ops_windows, after_append, after_append, after_append, S2_keep _ main_arg11 (by decide), S1_keep _ main_arg11 (by decide),
    T1_keep _ main_arg11 (by decide), T0_keep _ main_arg11 (by decide)]
theorem arg12_kept (V : Valuation τ sig (Elt F)) : after (ops : List (HloOp τ sig (Elt F))) V (Proc.devRef .tc main_arg12) = V (Proc.devRef .tc main_arg12) := by
  rw [ops_windows, after_append, after_append, after_append, S2_keep _ main_arg12 (by decide), S1_keep _ main_arg12 (by decide),
    T1_keep _ main_arg12 (by decide), T0_keep _ main_arg12 (by decide)]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., nullary_bufs_sub ..,
    unary_bufs_sub .., binary_bufs_sub .., nullary_bufs_sub .., unary_bufs_sub .., binary_bufs_sub .., ternary_bufs_sub ..,
    unary_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub ..,
    unary_bufs_sub .., nullary_bufs_sub .., unary_bufs_sub .., ternary_bufs_sub .., nary_bufs_sub .., binary_bufs_sub ..,
    unary_bufs_sub .., unary_bufs_sub .., binary_bufs_sub .., nullary_bufs_sub .., unary_bufs_sub .., binary_bufs_sub ..,
    binary_bufs_sub .., unary_bufs_sub .., unary_bufs_sub .., binary_bufs_sub .., nullary_bufs_sub .., unary_bufs_sub ..,
    binary_bufs_sub .., binary_bufs_sub .., unary_bufs_sub .., unary_bufs_sub .., binary_bufs_sub .., nullary_bufs_sub ..,
    binary_bufs_sub .., unary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., unary_bufs_sub .., binary_bufs_sub .., nullary_bufs_sub ..,
    binary_bufs_sub .., nullary_bufs_sub .., unary_bufs_sub .., unary_bufs_sub .., ternary_bufs_sub .., unary_bufs_sub ..,
    binary_bufs_sub .., nullary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    binary_bufs_sub ..⟩

/-- From any memory with zero counters every weakly fair execution of the program ends, and every array then holds what
    folding the operations over the launch contents leaves in it. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

/-- From any memory with zero counters every weakly fair execution of the program ends with `out` of the thirteen
    arguments in its result and the arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v34)
        = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
            (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v34).trans (out_eq _),
      (h c main_arg0).trans (arg0_kept _),
      (h c main_arg1).trans (arg1_kept _),
      (h c main_arg2).trans (arg2_kept _),
      (h c main_arg3).trans (arg3_kept _),
      (h c main_arg4).trans (arg4_kept _),
      (h c main_arg5).trans (arg5_kept _),
      (h c main_arg6).trans (arg6_kept _),
      (h c main_arg7).trans (arg7_kept _),
      (h c main_arg8).trans (arg8_kept _),
      (h c main_arg9).trans (arg9_kept _),
      (h c main_arg10).trans (arg10_kept _),
      (h c main_arg11).trans (arg11_kept _),
      (h c main_arg12).trans (arg12_kept _)⟩)
    (run_main m ρ)

end Cert.ReferenceIdeal.EdgeRun

end
-- ==== Proof.RefValue.lean ====
/-
  The reference's stages read entry by entry.

  Entry (e, j) of each whole-array stage is a function of row e of its operands alone: a bias spread over the rows reads
  the bias at j; a column spread over a row reads the column at e; a row sum is the sum over the row's 128 entries; a
  matrix product is the sum over the shared coordinate of the products of the entries; and the 384-wide row built by
  setting three 128-wide rows side by side reads, at column c, the first, second or third row according to the run of 128
  that c lies in. With these, entry (e, j) of the reference's result is entry j of edge e's output row.
-/
import proofs.«145845_j47768626266213_1_alg».proof.Proof.RefTerm
import proofs.«145845_j47768626266213_1_alg».proof.Proof.Spec
import Idealize.ShloMosaic.Lib.Pipeline.Value
import Idealize.ShloMosaic.Lib.ValueIdx
import Idealize.ShloMosaic.Lib.IdealHost
import Idealize.ShloMosaic.Lib.StackMember
import Idealize.ShloMosaic.PureOps.Ideal.Laws

noncomputable section

open scoped BigOperators

namespace Cert.ReferenceIdeal.EdgeRead

open Cert.ReferenceIdeal Cert.ReferenceIdeal.Gen Cert.ReferenceIdeal.EdgeRun Idealize.ShloMosaic Idealize.ShloMosaic.ValueIdx
open Idealize.ShloMosaic.StackMember Cert.EdgeUpdate

/-! ## Layout operations at an entry -/

/-- A 128-long vector spread over all rows reads, at (e, j), the vector at j. -/
theorem bias_apply (b : S128.Idx → EReal) (e : Fin 320000) (j : Fin 128) :
    broadcastInDim S320000x128 ![0, 1] bcast_S1x128_S320000x128_0_1 (broadcastInDim S1x128 ![1] bcast_S128_S1x128_1 b) (ix2 e j)
      = b (ix1 j) := by
  refine (broadcastInDim_apply _ _ _ (ix2 e j) (ix2 (0 : Fin 1) j) fun a => ?_).trans ?_
  · match a with
    | ⟨0, _⟩ => rfl
    | ⟨1, _⟩ => rfl
  · refine broadcastInDim_apply _ _ _ (ix2 (0 : Fin 1) j) (ix1 j) fun a => ?_
    match a with
    | ⟨0, _⟩ => rfl

/-- A column spread along the rows reads, at (e, j), the column at e. -/
theorem col_apply (v : S320000x1.Idx → EReal) (e : Fin 320000) (j : Fin 128) :
    broadcastInDim S320000x128 ![0, 1] bcast_S320000x1_S320000x128_0_1 v (ix2 e j) = v (ix2 e (0 : Fin 1)) := by
  refine broadcastInDim_apply _ _ _ (ix2 e j) (ix2 e (0 : Fin 1)) fun a => ?_
  match a with
  | ⟨0, _⟩ => rfl
  | ⟨1, _⟩ => rfl

/-- A vector with one entry per row, set up as a column, reads at row e the vector at e. -/
theorem asCol_apply (u : S320000.Idx → EReal) (e : Fin 320000) :
    broadcastInDim S320000x1 ![0] bcast_S320000_S320000x1_0 u (ix2 e (0 : Fin 1)) = u (ix1 e) := by
  refine broadcastInDim_apply _ _ _ (ix2 e (0 : Fin 1)) (ix1 e) fun a => ?_
  match a with
  | ⟨0, _⟩ => rfl

/-- The host's row sum from zero is the sum of the row's 128 entries. -/
theorem rowSum_apply (h : FVec Ideal S320000x128 .f32) (e : Fin 320000) :
    Host.reduceAdd h (constant (F := Ideal) S_ .f32 0x00000000#32) reducesTo_S320000x128_S320000_d1 h_S_ (ix1 e)
      = ∑ k : Fin 128, h (ix2 e k) := by
  have R : S320000x128.Reduces [1] S320000 := by decide
  refine (hostReduceAdd_apply h _ reducesTo_S320000x128_S320000_d1 h_S_ (ix1 e)).trans ?_
  refine (Ideal.hostReduceAdd_single reducesTo_S320000x128_S320000_d1 R h _ (ix1 e)).trans ?_
  rw [constant_apply, Ideal.ofBits_zero_f32, zero_add]
  refine Finset.sum_congr rfl fun k _ => congrArg h ?_
  funext a
  match a with
  | ⟨0, _⟩ => rfl
  | ⟨1, _⟩ => rfl

/-- The 320000×384 by 384×128 product at (e, j). -/
theorem dot384_apply (A : FVec Ideal S320000x384 .f32) (B : FVec Ideal S384x128 .f32) (e : Fin 320000) (j : Fin 128) :
    Host.dotGeneral dot_S320000x384_S384x128_S320000x128_1_0_0_1_n_n none A B (ix2 e j)
      = ∑ c : Fin 384, A (ix2 e c) * B (ix2 c j) :=
  dotGeneral_plain_apply (m := 320000) (n := 128) (k := 384) none A B e j

/-- The 320000×128 by 128×128 product at (e, j). -/
theorem dot128_apply (A : FVec Ideal S320000x128 .f32) (B : FVec Ideal S128x128 .f32) (e : Fin 320000) (j : Fin 128) :
    Host.dotGeneral dot_S320000x128_S128x128_S320000x128_1_0_0_1_n_n none A B (ix2 e j)
      = ∑ c : Fin 128, A (ix2 e c) * B (ix2 c j) :=
  dotGeneral_plain_apply (m := 320000) (n := 128) (k := 128) none A B e j

/-! ## The 384-wide row -/

/-- Columns 0…127 of the 384-wide row are the first 128-wide row. -/
theorem concat_first (gs gr ef : FVec Ideal S320000x128 .f32) (e : Fin 320000) (k : Fin 128) :
    concatenate S320000x384 1 [⟨S320000x128, gs⟩, ⟨S320000x128, gr⟩, ⟨S320000x128, ef⟩] concatenates_S320000x128_S320000x128_S320000x128_S320000x384_d1
      (ix2 e (⟨k.val, by omega⟩ : Fin 384)) = gs (ix2 e k) := by
  refine concatenate_apply_piece (t := S320000x384) 1 [⟨S320000x128, gs⟩, ⟨S320000x128, gr⟩, ⟨S320000x128, ef⟩]
    concatenates_S320000x128_S320000x128_S320000x128_S320000x384_d1 (ix2 e (⟨k.val, by omega⟩ : Fin 384)) 0 (by simp) S320000x128 gs rfl rfl 0 rfl
    (ix2 e k) (fun b hb => ?_) ?_
  · match b with
    | ⟨0, _⟩ => rfl
    | ⟨1, _⟩ => exact absurd rfl hb
  · exact Nat.zero_add _

/-- Columns 128…255 of the 384-wide row are the second 128-wide row. -/
theorem concat_second (gs gr ef : FVec Ideal S320000x128 .f32) (e : Fin 320000) (k : Fin 128) :
    concatenate S320000x384 1 [⟨S320000x128, gs⟩, ⟨S320000x128, gr⟩, ⟨S320000x128, ef⟩] concatenates_S320000x128_S320000x128_S320000x128_S320000x384_d1
      (ix2 e (⟨128 + k.val, by omega⟩ : Fin 384)) = gr (ix2 e k) := by
  refine concatenate_apply_piece (t := S320000x384) 1 [⟨S320000x128, gs⟩, ⟨S320000x128, gr⟩, ⟨S320000x128, ef⟩]
    concatenates_S320000x128_S320000x128_S320000x128_S320000x384_d1 (ix2 e (⟨128 + k.val, by omega⟩ : Fin 384)) 1 (by simp) S320000x128 gr rfl rfl 128 rfl
    (ix2 e k) (fun b hb => ?_) ?_
  · match b with
    | ⟨0, _⟩ => rfl
    | ⟨1, _⟩ => exact absurd rfl hb
  · rfl

/-- Columns 256…383 of the 384-wide row are the third 128-wide row. -/
theorem concat_third (gs gr ef : FVec Ideal S320000x128 .f32) (e : Fin 320000) (k : Fin 128) :
    concatenate S320000x384 1 [⟨S320000x128, gs⟩, ⟨S320000x128, gr⟩, ⟨S320000x128, ef⟩] concatenates_S320000x128_S320000x128_S320000x128_S320000x384_d1
      (ix2 e (⟨256 + k.val, by omega⟩ : Fin 384)) = ef (ix2 e k) := by
  refine concatenate_apply_piece (t := S320000x384) 1 [⟨S320000x128, gs⟩, ⟨S320000x128, gr⟩, ⟨S320000x128, ef⟩]
    concatenates_S320000x128_S320000x128_S320000x128_S320000x384_d1 (ix2 e (⟨256 + k.val, by omega⟩ : Fin 384)) 2 (by simp) S320000x128 ef rfl rfl 256 rfl
    (ix2 e k) (fun b hb => ?_) ?_
  · match b with
    | ⟨0, _⟩ => rfl
    | ⟨1, _⟩ => exact absurd rfl hb
  · rfl

/-! ## The three layers at an entry -/

/-- The zero array reads zero everywhere. -/
theorem zeros_apply (i : S320000x128.Idx) :
    broadcastInDim S320000x128 ![] bcast_S_S320000x128 (constant (F := Ideal) S_ .f32 0x00000000#32) i = zeroC := by
  rw [broadcastInDim_scalar_apply, constant_apply]; rfl

/-- Entry (e, j) of the first layer: the product over the 384-wide row splits into the three products over its runs of
    128 columns. -/
theorem layer0_apply (gs gr ef : FVec Ideal S320000x128 .f32) (W0 : FVec Ideal S384x128 .f32) (b0 : FVec Ideal S128 .f32)
    (e : Fin 320000) (j : Fin 128) :
    layer0 (F := Ideal) gs gr ef W0 b0 (ix2 e j)
      = hidden0 (fun k => gs (ix2 e k)) (fun k => gr (ix2 e k)) (fun k => ef (ix2 e k))
          (fun k q => W0 (ix2 (⟨k.val, by omega⟩ : Fin 384) q)) (fun k q => W0 (ix2 (⟨128 + k.val, by omega⟩ : Fin 384) q))
          (fun k q => W0 (ix2 (⟨256 + k.val, by omega⟩ : Fin 384) q)) (fun q => b0 (ix1 q)) j := by
  unfold layer0
  rw [maximumf_apply, addf_apply, dot384_apply, bias_apply, zeros_apply, sum_three_runs]
  simp only [concat_first, concat_second, concat_third]
  rfl

/-- Entry (e, j) of a hidden layer from the rows of its operand. -/
theorem layer1_apply (x : FVec Ideal S320000x128 .f32) (W : FVec Ideal S128x128 .f32) (b : FVec Ideal S128 .f32)
    (e : Fin 320000) (j : Fin 128) :
    layer1 (F := Ideal) x W b (ix2 e j) = hidden (fun k => x (ix2 e k)) (fun k q => W (ix2 k q)) (fun q => b (ix1 q)) j := by
  unfold layer1
  rw [maximumf_apply, addf_apply, dot128_apply, bias_apply, zeros_apply]
  rfl

/-- Entry (e, j) of the last layer from the rows of its operand. -/
theorem layer2_apply (x : FVec Ideal S320000x128 .f32) (W : FVec Ideal S128x128 .f32) (b : FVec Ideal S128 .f32)
    (e : Fin 320000) (j : Fin 128) :
    layer2 (F := Ideal) x W b (ix2 e j) = affine (fun k => x (ix2 e k)) (fun k q => W (ix2 k q)) (fun q => b (ix1 q)) j := by
  unfold layer2
  rw [addf_apply, dot128_apply, bias_apply]
  rfl

/-- Row e of the three layers' result is the three row functions applied to row e of the inputs. -/
theorem layers_row (gs gr ef : FVec Ideal S320000x128 .f32) (W0 : FVec Ideal S384x128 .f32) (b0 : FVec Ideal S128 .f32)
    (W1 : FVec Ideal S128x128 .f32) (b1 : FVec Ideal S128 .f32) (W2 : FVec Ideal S128x128 .f32) (b2 : FVec Ideal S128 .f32)
    (e : Fin 320000) :
    (fun j : Fin 128 => layers (F := Ideal) gs gr ef W0 b0 W1 b1 W2 b2 (ix2 e j))
      = affine (hidden (hidden0 (fun k => gs (ix2 e k)) (fun k => gr (ix2 e k)) (fun k => ef (ix2 e k))
          (fun k q => W0 (ix2 (⟨k.val, by omega⟩ : Fin 384) q)) (fun k q => W0 (ix2 (⟨128 + k.val, by omega⟩ : Fin 384) q))
          (fun k q => W0 (ix2 (⟨256 + k.val, by omega⟩ : Fin 384) q)) (fun q => b0 (ix1 q)))
          (fun k q => W1 (ix2 k q)) (fun q => b1 (ix1 q))) (fun k q => W2 (ix2 k q)) (fun q => b2 (ix1 q)) := by
  funext j
  unfold layers
  rw [layer2_apply]
  congr 1
  funext k
  rw [layer1_apply]
  congr 1
  funext k'
  exact layer0_apply gs gr ef W0 b0 e k'

/-! ## The normalisation at an entry -/

/-- The pattern the programs spell 128 with is the real number 128. -/
theorem width_val : Ideal.ofBits .f32 0x43000000#32 = ((128 : ℝ) : EReal) := by
  simp [Ideal.ofBits, Ideal.ieee, -EReal.coe_mul]; norm_num

/-- The integer zero, made a float, is zero. -/
theorem conv_zero : FloatOps.sitofp (F := Ideal) .f32 (0#32 : BitVec 32) = 0 := by
  show (((0#32 : BitVec 32).toInt : ℝ) : EReal) = 0
  simp

/-- The variance's divisor, 128 minus the zero degrees of freedom given up, is the width. -/
theorem divisor_eq :
    Ideal.ofBits .f32 0x43000000#32 - FloatOps.sitofp (F := Ideal) .f32 (0#32 : BitVec 32) = widthC := by
  rw [conv_zero, sub_zero]; rfl

/-- The guard on the divisor holds: 128 is above zero. -/
theorem guard_eq : FloatOps.cmpf (F := Ideal) (φ := .f32) .ogt widthC (Ideal.ofBits .f32 0x00000000#32) = 1#1 := by
  unfold widthC
  rw [Ideal.cmpf_def, Ideal.ofBits_zero_f32, width_val]
  have : (0 : EReal) < ((128 : ℝ) : EReal) := by exact_mod_cast (by norm_num : (0 : ℝ) < 128)
  simp [Ideal.cmp, this]

/-- A choice whose condition holds is its first branch. -/
theorem select_one {α : Type} (a b : α) : Scalar.select (1#1) a b = a := by
  simp [Scalar.select]

/-- Row e's mean. -/
theorem rowMean_apply (h : FVec Ideal S320000x128 .f32) (e : Fin 320000) :
    rowMean (F := Ideal) h (ix2 e (0 : Fin 1)) = mean (fun k => h (ix2 e k)) := by
  unfold rowMean
  rw [hostDivf_apply, asCol_apply, rowSum_apply, broadcastInDim_scalar_apply, constant_apply]
  rfl

/-- Entry (e, j) of the rows minus their means. -/
theorem centred_apply (h : FVec Ideal S320000x128 .f32) (e : Fin 320000) (j : Fin 128) :
    centredArr (F := Ideal) h (ix2 e j) = centred (fun k => h (ix2 e k)) j := by
  unfold centredArr
  rw [subf_apply, col_apply, rowMean_apply]
  rfl

/-- Row e's mean squared deviation: the guard holds and the divisor is the width, so it is the mean of the squares. -/
theorem variance_apply (h : FVec Ideal S320000x128 .f32) (e : Fin 320000) :
    varianceArr (F := Ideal) h (ix2 e (0 : Fin 1))
      = mean (fun k => centred (fun k' => h (ix2 e k')) k * centred (fun k' => h (ix2 e k')) k) := by
  unfold varianceArr
  rw [select_apply, broadcastInDim_scalar_apply, cmpf_apply, subf_apply, sitofp_apply, constant_apply, constant_apply]
  rw [show (constantI S_ 32 0#32 : IVec S_ 32) ix0 = (0#32 : BitVec 32) from rfl, divisor_eq, guard_eq, select_one]
  rw [hostDivf_apply, asCol_apply, rowSum_apply, broadcastInDim_scalar_apply, subf_apply, sitofp_apply, constant_apply]
  rw [show (constantI S_ 32 0#32 : IVec S_ 32) ix0 = (0#32 : BitVec 32) from rfl, divisor_eq]
  unfold mean
  refine congrArg (fun s => Ideal.div s widthC) (Finset.sum_congr rfl fun k _ => ?_)
  rw [mulf_apply, centred_apply]

/-- Entry (e, j) of the normalised rows. -/
theorem norm_apply (h : FVec Ideal S320000x128 .f32) (g bt : FVec Ideal S128 .f32) (e : Fin 320000) (j : Fin 128) :
    normArr (F := Ideal) h g bt (ix2 e j)
      = normalize (fun k => h (ix2 e k)) (fun q => g (ix1 q)) (fun q => bt (ix1 q)) j := by
  unfold normArr
  rw [addf_apply, mulf_apply, mulf_apply, centred_apply, col_apply, bias_apply, bias_apply]
  show _ * Ideal.rsqrt (addf (F := Ideal) (varianceArr (F := Ideal) h) _ (ix2 e (0 : Fin 1))) * _ + _ = _
  rw [addf_apply, variance_apply, broadcastInDim_scalar_apply, constant_apply]
  rfl

/-! ## The result at an entry -/

/-- Entry (e, j) of the reference's result is entry j of edge e's output row. -/
theorem out_apply (a0 a1 : FVec Ideal S10000x128 .f32) (a2 : FVec Ideal S320000x128 .f32) (a3 a4 : IVec S320000 32)
    (a5 : FVec Ideal S384x128 .f32) (a6 : FVec Ideal S128 .f32) (a7 : FVec Ideal S128x128 .f32) (a8 : FVec Ideal S128 .f32)
    (a9 : FVec Ideal S128x128 .f32) (a10 a11 a12 : FVec Ideal S128 .f32) (e : Fin 320000) (j : Fin 128) :
    out (F := Ideal) a0 a1 a2 a3 a4 a5 a6 a7 a8 a9 a10 a11 a12 (ix2 e j)
      = result (gathered (F := Ideal) a0 a3) (gathered (F := Ideal) a1 a4) a2 a5 a6 a7 a8 a9 a10 a11 a12 e j := by
  unfold out result edgeRow
  rw [norm_apply, layers_row]

end Cert.ReferenceIdeal.EdgeRead

end
-- ==== Proof.GatheredRows.lean ====
/-
  What the kernel's region finds in its first two windows' arrays.

  Before the region starts, the kernel's program gathers the sender rows and the receiver rows with the very operations the
  reference uses — 23 each, then three cuts of the first weight matrix. Folding the first 23 over the launch contents
  leaves the gathered sender rows; the next 23 leave them alone and produce the gathered receiver rows; the three cuts
  touch neither. So the two arrays are the same function `gathered` of the arguments that the reference's stages start
  from, spelt over this program's own names.
-/
import proofs.«145845_j47768626266213_1_alg».proof.Proof.Gen.KernelIdeal.Frame
import proofs.«145845_j47768626266213_1_alg».proof.Proof.RefTerm
import Idealize.ShloMosaic.Lib.StableHlo.Run

noncomputable section

namespace Cert.KernelIdeal.EdgeBridge

open Cert.KernelIdeal Cert.KernelIdeal.Gen Idealize.ShloMosaic Idealize.ShloMosaic.TcCoe Idealize.SL.Sem Idealize.ShloMosaic.StableHlo

variable {F : FTy → Type} [FloatOps F]

/-- Folding two stretches one after the other is folding their concatenation. -/
theorem after_append (l₁ l₂ : List (HloOp τ sig (Elt F))) (W : Valuation τ sig (Elt F)) : after (l₁ ++ l₂) W = after l₂ (after l₁ W) := by
  induction l₁ generalizing W with
  | nil => rfl
  | cons op l ih => exact ih _

abbrev hostOps0_W : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v0]
theorem hostOps0_writes : (hostOps0 : List (HloOp τ sig (Elt F))).Forall fun op => op.writes ⊆ (hostOps0_W.map (Proc.devRef (τ := τ) .tc)).toFinset := by
  simp only [List.Forall]
  repeat' apply And.intro
  all_goals (simp only [nullary_writes, unary_writes, binary_writes, ternary_writes, Finset.singleton_subset_iff,
    List.mem_toFinset]; exact List.mem_map_of_mem (by decide))
/-- An array this stretch does not write keeps its contents through it. -/
theorem hostOps0_keep (W : Valuation τ sig (Elt F)) (r : Ref sig .tc) (h : r ∉ hostOps0_W) :
    after (hostOps0 : List (HloOp τ sig (Elt F))) W (Proc.devRef .tc r) = W (Proc.devRef .tc r) :=
  after_of_writes_sub hostOps0 W hostOps0_writes h

abbrev hostOps0_1_W : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v1]
theorem hostOps0_1_writes : (hostOps0_1 : List (HloOp τ sig (Elt F))).Forall fun op => op.writes ⊆ (hostOps0_1_W.map (Proc.devRef (τ := τ) .tc)).toFinset := by
  simp only [List.Forall]
  repeat' apply And.intro
  all_goals (simp only [nullary_writes, unary_writes, binary_writes, ternary_writes, Finset.singleton_subset_iff,
    List.mem_toFinset]; exact List.mem_map_of_mem (by decide))
/-- An array this stretch does not write keeps its contents through it. -/
theorem hostOps0_1_keep (W : Valuation τ sig (Elt F)) (r : Ref sig .tc) (h : r ∉ hostOps0_1_W) :
    after (hostOps0_1 : List (HloOp τ sig (Elt F))) W (Proc.devRef .tc r) = W (Proc.devRef .tc r) :=
  after_of_writes_sub hostOps0_1 W hostOps0_1_writes h

abbrev hostOps0_2_W : List (Ref sig .tc) := [main_v2, main_v3, main_v4]
theorem hostOps0_2_writes : (hostOps0_2 : List (HloOp τ sig (Elt F))).Forall fun op => op.writes ⊆ (hostOps0_2_W.map (Proc.devRef (τ := τ) .tc)).toFinset := by
  simp only [List.Forall]
  repeat' apply And.intro
  all_goals (simp only [nullary_writes, unary_writes, binary_writes, ternary_writes, Finset.singleton_subset_iff,
    List.mem_toFinset]; exact List.mem_map_of_mem (by decide))
/-- An array this stretch does not write keeps its contents through it. -/
theorem hostOps0_2_keep (W : Valuation τ sig (Elt F)) (r : Ref sig .tc) (h : r ∉ hostOps0_2_W) :
    after (hostOps0_2 : List (HloOp τ sig (Elt F))) W (Proc.devRef .tc r) = W (Proc.devRef .tc r) :=
  after_of_writes_sub hostOps0_2 W hostOps0_2_writes h

attribute [local irreducible] Host.reduce Host.gather in
set_option maxRecDepth 16384 in
set_option maxHeartbeats 800000 in
/-- The stretch's result from the contents it starts with, the two arrays it reads named. -/
theorem sender_of (W : Valuation τ sig (Elt F)) (x : (⟨S10000x128, .f32⟩ : BufTy).Contents (Elt F)) (i : (⟨S320000, .i32⟩ : BufTy).Contents (Elt F))
    (hx : W (Proc.devRef .tc main_arg0) = x) (hi : W (Proc.devRef .tc main_arg3) = i) :
    after (hostOps0 : List (HloOp τ sig (Elt F))) W (Proc.devRef .tc main_v0) = Cert.ReferenceIdeal.EdgeRun.gathered x i := by
  after_results_simp
  rw [hi, hx]
  rfl

attribute [local irreducible] Host.reduce Host.gather in
set_option maxRecDepth 16384 in
set_option maxHeartbeats 800000 in
/-- The stretch's result from the contents it starts with, the two arrays it reads named. -/
theorem receiver_of (W : Valuation τ sig (Elt F)) (x : (⟨S10000x128, .f32⟩ : BufTy).Contents (Elt F)) (i : (⟨S320000, .i32⟩ : BufTy).Contents (Elt F))
    (hx : W (Proc.devRef .tc main_arg1) = x) (hi : W (Proc.devRef .tc main_arg4) = i) :
    after (hostOps0_1 : List (HloOp τ sig (Elt F))) W (Proc.devRef .tc main_v1) = Cert.ReferenceIdeal.EdgeRun.gathered x i := by
  after_results_simp
  rw [hi, hx]
  rfl

/-- The three stretches before the region, as one concatenation. -/
theorem prefix_eq : List.flatten [(hostOps0 : List (HloOp τ sig (Elt F))), hostOps0_1, hostOps0_2] = hostOps0 ++ (hostOps0_1 ++ hostOps0_2) := by
  simp only [List.flatten_cons, List.flatten_nil, List.append_nil]

variable (m : (ℓ : Loc nD τ sig) → Buf (Elt F) ℓ)

/-- The region finds the gathered sender rows in its first window's array. -/
theorem V_sender (c : Dev nD) :
    V m c main_v0 = Cert.ReferenceIdeal.EdgeRun.gathered (m ((c : Thread nD τ).loc main_arg0)) (m ((c : Thread nD τ).loc main_arg3)) := by
  show after (List.flatten [hostOps0, hostOps0_1, hostOps0_2]) (fun b => m (c, b)) (Proc.devRef .tc main_v0) = _
  rw [prefix_eq, after_append, after_append, hostOps0_2_keep _ main_v0 (by decide), hostOps0_1_keep _ main_v0 (by decide)]
  exact sender_of _ _ _ rfl rfl

/-- The region finds the gathered receiver rows in its second window's array. -/
theorem V_receiver (c : Dev nD) :
    V m c main_v1 = Cert.ReferenceIdeal.EdgeRun.gathered (m ((c : Thread nD τ).loc main_arg1)) (m ((c : Thread nD τ).loc main_arg4)) := by
  show after (List.flatten [hostOps0, hostOps0_1, hostOps0_2]) (fun b => m (c, b)) (Proc.devRef .tc main_v1) = _
  rw [prefix_eq, after_append, after_append, hostOps0_2_keep _ main_v1 (by decide)]
  refine receiver_of _ _ _ ?_ ?_
  · exact hostOps0_keep _ main_arg1 (by decide)
  · exact hostOps0_keep _ main_arg4 (by decide)

end Cert.KernelIdeal.EdgeBridge

end
-- ==== Proof.KernelReads.lean ====
/-
  Reading the kernel's non-pointwise vector operations at an index, on the extended reals.

  A block of the kernel is a 5000×128 array of extended reals: row `p` is one edge, column `q` one lane. Five facts, each
  about one operation at the entry `(p, q)`:
  * the matrix product into a zero accumulator is the sum over the 128 contracted positions of the products of the entries;
  * the sum along the lanes of row `p` is the sum of that row's 128 entries;
  * a 128-long row copied into every row of the block is read at its column;
  * a 5000×1 column copied into every column of the block is read at its row;
  * a 5000-long vector seen as a 5000×1 column is read at its row.
-/
import proofs.«145845_j47768626266213_1_alg».proof.Proof.Gen.KernelIdeal
import Idealize.ShloMosaic.PureOps.Ideal.Laws
import Idealize.ShloMosaic.Lib.ValueIdx
import Idealize.ShloMosaic.Lib.Pipeline.Value

noncomputable section

open scoped BigOperators

namespace Cert.KernelIdeal.EdgeValue

open Cert.KernelIdeal Idealize.ShloMosaic Idealize.ShloMosaic.ValueIdx

/-- The product of a 5000×128 block by a 128×128 matrix, added onto zeros, at entry `(p, q)`: the sum over `k` of
    `A (p, k) * B (k, q)`. -/
theorem matmul_zero_apply (A : FVec Ideal S5000x128 .f32) (B : FVec Ideal S128x128 .f32) (p : Fin 5000) (q : Fin 128) :
    matmul dot_S5000x128_S128x128_S5000x128_1_0_0_1_n_n none A B (constant S5000x128 .f32 0x00000000#32) (ix2 p q)
      = ∑ k : Fin 128, A (ix2 p k) * B (ix2 k q) := by
  show FloatOps.matmul dot_S5000x128_S128x128_S5000x128_1_0_0_1_n_n none A B (constant S5000x128 .f32 0x00000000#32) (ix2 p q) = _
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have hl : dot_S5000x128_S128x128_S5000x128_1_0_0_1_n_n.lhsIdx (ix2 p q)
      ((contrEquiv1 dot_S5000x128_S128x128_S5000x128_1_0_0_1_n_n 128 rfl rfl).symm k) = ix2 p k := by
    funext ax; apply Fin.ext
    match ax with
    | ⟨0, _⟩ => simp [DotDims.lhsIdx, dot_S5000x128_S128x128_S5000x128_1_0_0_1_n_n]; rfl
    | ⟨1, _⟩ => simp [DotDims.lhsIdx, dot_S5000x128_S128x128_S5000x128_1_0_0_1_n_n]; exact hk
  have hr : dot_S5000x128_S128x128_S5000x128_1_0_0_1_n_n.rhsIdx (ix2 p q)
      ((contrEquiv1 dot_S5000x128_S128x128_S5000x128_1_0_0_1_n_n 128 rfl rfl).symm k) = ix2 k q := by
    funext ax; apply Fin.ext
    match ax with
    | ⟨0, _⟩ => simp [DotDims.rhsIdx, dot_S5000x128_S128x128_S5000x128_1_0_0_1_n_n]; exact hk
    | ⟨1, _⟩ => simp [DotDims.rhsIdx, dot_S5000x128_S128x128_S5000x128_1_0_0_1_n_n]; rfl
  rw [hl, hr]

/-- The reduced index `p` with lane `k` put back is `(p, k)`. -/
theorem lift_row (hr : S5000x128.Reduces [1] S5000) (p : Fin 5000) (k : Fin (S5000x128.size 1)) :
    hr.lift (ix1 p) k = ix2 p (⟨k.val, k.isLt⟩ : Fin 128) := by
  funext c; apply Fin.ext
  match c with
  | ⟨0, _⟩ => rfl
  | ⟨1, _⟩ => rfl

/-- The sum along the lanes, from zero, at row `p`: the sum of the row's 128 entries. -/
theorem laneSum_apply (X : FVec Ideal S5000x128 .f32) (hr : S5000x128.Reduces [1] S5000) (hφ : FKind.Formats .f32)
    (hacc : (0x00000000#32 : BitVec 32) = FKind.add.neutral .f32 hφ) (p : Fin 5000) :
    multiReduction .add [1] S5000 X 0x00000000#32 hr hφ hacc (ix1 p) = ∑ k : Fin 128, X (ix2 p k) := by
  refine (Ideal.multiReduction_add_single X 0x00000000#32 hr hφ hacc (ix1 p)).trans ?_
  exact Finset.sum_congr rfl fun k _ => congrArg X (lift_row hr p k)

/-- A 128-long row copied into every row of the block, at `(p, q)`: the row's entry `q`. -/
theorem rowCopy_apply {α : Type} (b : S128.Idx → α) (hs : S128.ShapeCasts S1x128) (hb : S1x128.Broadcasts S5000x128)
    (p : Fin 5000) (q : Fin 128) :
    broadcastTo S5000x128 (shapeCast S1x128 b hs) hb (ix2 p q) = b (ix1 q) := by
  refine (broadcastTo_apply _ _ (ix2 p q) (ix2 (0 : Fin 1) q) (fun a => match a with
    | ⟨0, _⟩ => by show 0 = (if (1 : Nat) = 1 then 0 else p.val); rw [if_pos rfl]
    | ⟨1, _⟩ => by show q.val = (if (128 : Nat) = 1 then 0 else q.val); rw [if_neg (by decide)])).trans ?_
  exact shapeCast_apply _ _ (ix2 (0 : Fin 1) q) (ix1 q)
    (by rw [Shape.rowMajor_val_one, Shape.rowMajor_val_two]; show q.val = 0 * 128 + q.val; omega)

/-- A 5000×1 column copied into every column of the block, at `(p, q)`: the column's entry `p`. -/
theorem colCopy_apply {α : Type} (v : S5000x1.Idx → α) (hb : S5000x1.Broadcasts S5000x128) (p : Fin 5000) (q : Fin 128) :
    broadcastTo S5000x128 v hb (ix2 p q) = v (ix2 p (0 : Fin 1)) :=
  broadcastTo_apply _ _ (ix2 p q) (ix2 p (0 : Fin 1)) (fun a => match a with
    | ⟨0, _⟩ => by show p.val = (if (5000 : Nat) = 1 then 0 else p.val); rw [if_neg (by decide)]
    | ⟨1, _⟩ => by show 0 = (if (1 : Nat) = 1 then 0 else q.val); rw [if_pos rfl])

/-- A 5000-long vector seen as a 5000×1 column, at row `p`: the vector's entry `p`. -/
theorem asColumn_apply {α : Type} (u : S5000.Idx → α) (hs : S5000.ShapeCasts S5000x1) (p : Fin 5000) :
    shapeCast S5000x1 u hs (ix2 p (0 : Fin 1)) = u (ix1 p) :=
  shapeCast_apply _ _ (ix2 p (0 : Fin 1)) (ix1 p)
    (by rw [Shape.rowMajor_val_one, Shape.rowMajor_val_two]; show p.val = p.val * 1 + 0; omega)

end Cert.KernelIdeal.EdgeValue

end
-- ==== Proof.KernelPayload.lean ====
/-
  One entry of the block the kernel computes, as mathematics.

  A block holds 5000 edges, one per row. Row `p` of the result depends only on row `p` of the three incoming blocks: the
  three matrix products, the bias and the maximum against zero give the first hidden row; a product, a bias and a maximum
  give the second; a product and a bias give the third row `h`; the sums along the lanes give the mean of `h` and the mean
  of its squared deviations, and the last operations scale and shift the centred row. Entry `(p, q)` of the block is
  therefore entry `q` of `Cert.EdgeUpdate.edgeRow` of the three rows at `p` and the weights.
-/
import proofs.«145845_j47768626266213_1_alg».proof.Proof.Spec
import proofs.«145845_j47768626266213_1_alg».proof.Proof.Gen.KernelIdeal.Skeleton
import proofs.«145845_j47768626266213_1_alg».proof.Proof.KernelReads

noncomputable section

open scoped BigOperators

namespace Cert.KernelIdeal.EdgeValue

open Cert.KernelIdeal Cert.KernelIdeal.Gen Idealize.ShloMosaic Idealize.ShloMosaic.ValueIdx
open Cert.EdgeUpdate

/-! ## The three layers on a block -/

/-- The first hidden layer on a block: the three products added left to right, the bias row, the maximum against zero. -/
def hid0 (x0 x1 x2 : FVec Ideal S5000x128 .f32) (w3 w4 w5 : FVec Ideal S128x128 .f32) (b6 : FVec Ideal S128 .f32) :
    FVec Ideal S5000x128 .f32 :=
  maximumf (addf (addf (addf
      (matmul dot_S5000x128_S128x128_S5000x128_1_0_0_1_n_n none (shapeCast S5000x128 x0 shapeCasts_S5000x128_S5000x128) (shapeCast S128x128 w3 shapeCasts_S128x128_S128x128) (constant S5000x128 .f32 0x00000000#32))
      (matmul dot_S5000x128_S128x128_S5000x128_1_0_0_1_n_n none (shapeCast S5000x128 x1 shapeCasts_S5000x128_S5000x128) (shapeCast S128x128 w4 shapeCasts_S128x128_S128x128) (constant S5000x128 .f32 0x00000000#32)))
      (matmul dot_S5000x128_S128x128_S5000x128_1_0_0_1_n_n none x2 (shapeCast S128x128 w5 shapeCasts_S128x128_S128x128) (constant S5000x128 .f32 0x00000000#32)))
      (broadcastTo S5000x128 (shapeCast S1x128 b6 shapeCasts_S128_S1x128) broadcasts_S1x128_S5000x128))
    (broadcast S5000x128 (Scalar.ofBits .f32 0x00000000#32))

/-- A hidden layer on a block: the product, the bias row, the maximum against zero. -/
def hid1 (h : FVec Ideal S5000x128 .f32) (w : FVec Ideal S128x128 .f32) (b : FVec Ideal S128 .f32) : FVec Ideal S5000x128 .f32 :=
  maximumf (addf (matmul dot_S5000x128_S128x128_S5000x128_1_0_0_1_n_n none h w (constant S5000x128 .f32 0x00000000#32)) (broadcastTo S5000x128 (shapeCast S1x128 b shapeCasts_S128_S1x128) broadcasts_S1x128_S5000x128)) (broadcast S5000x128 (Scalar.ofBits .f32 0x00000000#32))

/-- The kernel's first payload is the third product over the two hidden layers. -/
theorem pay2_eq (x0 x1 x2 : FVec Ideal S5000x128 .f32) (w3 w4 w5 : FVec Ideal S128x128 .f32) (b6 : FVec Ideal S128 .f32)
    (w7 : FVec Ideal S128x128 .f32) (b8 : FVec Ideal S128 .f32) (w9 : FVec Ideal S128x128 .f32) :
    k0_pay2 (F := Ideal) x0 x1 x2 w3 w4 w5 b6 w7 b8 w9
      = matmul dot_S5000x128_S128x128_S5000x128_1_0_0_1_n_n none (hid1 (hid0 x0 x1 x2 w3 w4 w5 b6) w7 b8) w9 (constant S5000x128 .f32 0x00000000#32) := rfl

/-- The first hidden layer at entry `(p, q)`: `hidden0` of the three rows at `p`. -/
theorem hid0_apply (x0 x1 x2 : FVec Ideal S5000x128 .f32) (w3 w4 w5 : FVec Ideal S128x128 .f32) (b6 : FVec Ideal S128 .f32)
    (p : Fin 5000) (q : Fin 128) :
    hid0 x0 x1 x2 w3 w4 w5 b6 (ix2 p q)
      = hidden0 (fun k => x0 (ix2 p k)) (fun k => x1 (ix2 p k)) (fun k => x2 (ix2 p k)) (fun k j => w3 (ix2 k j))
          (fun k j => w4 (ix2 k j)) (fun k j => w5 (ix2 k j)) (fun j => b6 (ix1 j)) q := by
  unfold hid0
  simp only [shapeCast_self, maximumf_apply, addf_apply, broadcast_apply]
  rw [matmul_zero_apply, matmul_zero_apply, matmul_zero_apply, rowCopy_apply]
  rfl

/-- A hidden layer at entry `(p, q)`, its operand's row `p` being `r`: `hidden` of `r`. -/
theorem hid1_apply (h : FVec Ideal S5000x128 .f32) (w : FVec Ideal S128x128 .f32) (b : FVec Ideal S128 .f32) (p : Fin 5000)
    (q : Fin 128) (r : Row) (hr : ∀ k, h (ix2 p k) = r k) :
    hid1 h w b (ix2 p q) = hidden r (fun k j => w (ix2 k j)) (fun j => b (ix1 j)) q := by
  unfold hid1
  simp only [maximumf_apply, addf_apply, broadcast_apply]
  rw [matmul_zero_apply, rowCopy_apply]
  simp only [hr]
  rfl

/-- The kernel's first payload at entry `(p, q)`: the third product of the second hidden row. -/
theorem pay2_apply (x0 x1 x2 : FVec Ideal S5000x128 .f32) (w3 w4 w5 : FVec Ideal S128x128 .f32) (b6 : FVec Ideal S128 .f32)
    (w7 : FVec Ideal S128x128 .f32) (b8 : FVec Ideal S128 .f32) (w9 : FVec Ideal S128x128 .f32) (p : Fin 5000) (q : Fin 128) :
    k0_pay2 (F := Ideal) x0 x1 x2 w3 w4 w5 b6 w7 b8 w9 (ix2 p q)
      = dot (hidden (hidden0 (fun k => x0 (ix2 p k)) (fun k => x1 (ix2 p k)) (fun k => x2 (ix2 p k)) (fun k j => w3 (ix2 k j))
          (fun k j => w4 (ix2 k j)) (fun k j => w5 (ix2 k j)) (fun j => b6 (ix1 j))) (fun k j => w7 (ix2 k j)) (fun j => b8 (ix1 j)))
          (fun k j => w9 (ix2 k j)) q := by
  rw [pay2_eq, matmul_zero_apply]
  unfold dot
  refine Finset.sum_congr rfl fun k _ => ?_
  rw [hid1_apply _ w7 b8 p k _ (fun k' => hid0_apply x0 x1 x2 w3 w4 w5 b6 p k')]

/-! ## The normalisation on a block -/

/-- A block plus a bias row. -/
def plusRow (Y : FVec Ideal S5000x128 .f32) (b : FVec Ideal S128 .f32) : FVec Ideal S5000x128 .f32 := addf Y (broadcastTo S5000x128 (shapeCast S1x128 b shapeCasts_S128_S1x128) broadcasts_S1x128_S5000x128)

/-- The sums along the lanes, one per row. -/
def rowSum (X : FVec Ideal S5000x128 .f32) : FVec Ideal S5000 .f32 :=
  multiReduction .add [1] S5000 X 0x00000000#32 reduces_S5000x128_S5000 (.inl rfl) rfl

/-- The means along the lanes, as a column. -/
def colMean (X : FVec Ideal S5000x128 .f32) : FVec Ideal S5000x1 .f32 :=
  divf (shapeCast S5000x1 (rowSum X) shapeCasts_S5000_S5000x1) (broadcast S5000x1 (Scalar.ofBits .f32 0x43000000#32))

/-- A block minus its rows' means. -/
def centredBlock (X : FVec Ideal S5000x128 .f32) : FVec Ideal S5000x128 .f32 :=
  subf X (broadcastTo S5000x128 (colMean X) broadcasts_S5000x1_S5000x128)

/-- The kernel's second payload is the normalisation of the first payload plus the bias row. -/
theorem pay1_eq (Y : FVec Ideal S5000x128 .f32) (b10 g11 b12 : FVec Ideal S128 .f32) :
    k0_pay1 (F := Ideal) Y b10 g11 b12
      = addf (mulf (mulf (centredBlock (plusRow Y b10))
          (broadcastTo S5000x128 (rsqrt (addf (colMean (mulf (centredBlock (plusRow Y b10)) (centredBlock (plusRow Y b10))))
            (broadcast S5000x1 (Scalar.ofBits .f32 0x3A83126F#32)))) broadcasts_S5000x1_S5000x128))
          (broadcastTo S5000x128 (shapeCast S1x128 g11 shapeCasts_S128_S1x128) broadcasts_S1x128_S5000x128)) (broadcastTo S5000x128 (shapeCast S1x128 b12 shapeCasts_S128_S1x128) broadcasts_S1x128_S5000x128) := rfl

/-- The sum along the lanes at row `p`. -/
theorem rowSum_apply (X : FVec Ideal S5000x128 .f32) (p : Fin 5000) : rowSum X (ix1 p) = ∑ k : Fin 128, X (ix2 p k) :=
  laneSum_apply X _ _ _ p

/-- The mean along the lanes at row `p`. -/
theorem colMean_apply (X : FVec Ideal S5000x128 .f32) (p : Fin 5000) :
    colMean X (ix2 p (0 : Fin 1)) = Ideal.div (∑ k : Fin 128, X (ix2 p k)) widthC := by
  unfold colMean
  simp only [divf_apply, broadcast_apply]
  rw [asColumn_apply, rowSum_apply]
  rfl

/-- A block minus its rows' means at entry `(p, q)`. -/
theorem centredBlock_apply (X : FVec Ideal S5000x128 .f32) (p : Fin 5000) (q : Fin 128) :
    centredBlock X (ix2 p q) = X (ix2 p q) - Ideal.div (∑ k : Fin 128, X (ix2 p k)) widthC := by
  unfold centredBlock
  simp only [subf_apply]
  rw [colCopy_apply, colMean_apply]

/-- The kernel's second payload at entry `(p, q)`, row `p` of its operand plus the bias row being `h`: the normalisation
    of `h`. -/
theorem pay1_apply (Y : FVec Ideal S5000x128 .f32) (b10 g11 b12 : FVec Ideal S128 .f32) (p : Fin 5000) (q : Fin 128) (h : Row)
    (hY : ∀ k, plusRow Y b10 (ix2 p k) = h k) :
    k0_pay1 (F := Ideal) Y b10 g11 b12 (ix2 p q) = normalize h (fun j => g11 (ix1 j)) (fun j => b12 (ix1 j)) q := by
  have hd : ∀ k, centredBlock (plusRow Y b10) (ix2 p k) = centred h k := fun k => by
    rw [centredBlock_apply]
    simp only [hY]
    rfl
  rw [pay1_eq]
  simp only [addf_apply, mulf_apply]
  rw [rowCopy_apply, rowCopy_apply, colCopy_apply]
  show centredBlock (plusRow Y b10) (ix2 p q)
      * Ideal.rsqrt (colMean (mulf (centredBlock (plusRow Y b10)) (centredBlock (plusRow Y b10))) (ix2 p (0 : Fin 1)) + epsC)
      * g11 (ix1 q) + b12 (ix1 q) = _
  rw [colMean_apply]
  simp only [mulf_apply, hd]
  rfl

/-! ## One entry of the block -/

/-- Entry `(p, q)` of the block the kernel stores is entry `q` of the edge update of the three rows at `p`. -/
theorem block_apply (x0 x1 x2 : FVec Ideal S5000x128 .f32) (w3 w4 w5 : FVec Ideal S128x128 .f32) (b6 : FVec Ideal S128 .f32)
    (w7 : FVec Ideal S128x128 .f32) (b8 : FVec Ideal S128 .f32) (w9 : FVec Ideal S128x128 .f32) (b10 g11 b12 : FVec Ideal S128 .f32)
    (p : Fin 5000) (q : Fin 128) :
    k0_pay1 (F := Ideal) (k0_pay2 x0 x1 x2 w3 w4 w5 b6 w7 b8 w9) b10 g11 b12 (ix2 p q)
      = edgeRow (fun k => x0 (ix2 p k)) (fun k => x1 (ix2 p k)) (fun k => x2 (ix2 p k)) (fun k j => w3 (ix2 k j))
          (fun k j => w4 (ix2 k j)) (fun k j => w5 (ix2 k j)) (fun j => b6 (ix1 j)) (fun k j => w7 (ix2 k j)) (fun j => b8 (ix1 j))
          (fun k j => w9 (ix2 k j)) (fun j => b10 (ix1 j)) (fun j => g11 (ix1 j)) (fun j => b12 (ix1 j)) q := by
  refine pay1_apply _ b10 g11 b12 p q _ fun k => ?_
  unfold plusRow
  simp only [addf_apply]
  rw [pay2_apply, rowCopy_apply]
  rfl

end Cert.KernelIdeal.EdgeValue

end
-- ==== Proof.KernelGrid.lean ====
/-
  Where each grid point's blocks sit.

  The grid has 64 points. Point `t` takes block `(t, 0)` of the three incoming arrays and of the result — the rows
  `5000 t … 5000 t + 4999` —, and the whole of every weight array. The index maps are decided over the 64 points.
-/
import proofs.«145845_j47768626266213_1_alg».proof.Proof.Gen.KernelIdeal.Frame
import Idealize.ShloMosaic.Lib.ValueIdx

noncomputable section

namespace Cert.KernelIdeal.EdgeValue

open Cert.KernelIdeal Cert.KernelIdeal.Gen Idealize.ShloMosaic Idealize.ShloMosaic.TcCoe Idealize.SL.Sem
open Idealize.ShloMosaic.ValueIdx
open Idealize.ShloMosaic.Pipeline (Dat)

theorem origin2 : (![0, 0] : Fin 2 → Nat) = fun _ => 0 := funext fun a => by fin_cases a <;> rfl
theorem origin1 : (![0] : Fin 1 → Nat) = fun _ => 0 := funext fun a => by fin_cases a <;> rfl

/-! ## Where each point's blocks sit -/

/-- The row blocks: point `t` takes block `(t, 0)` of the three incoming arrays and of the result. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_13.index t (0 : Fin 2) = t.val ∧ win0_13.index t (1 : Fin 2) = 0 :=
  (by decide +kernel : ∀ t : Fin grid0.N, _)

/-- The weight matrices: every point takes the whole array, block `(0, 0)`. -/
theorem idx_mats : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_7.index t (0 : Fin 2) = 0 ∧ win0_7.index t (1 : Fin 2) = 0
    ∧ win0_9.index t (0 : Fin 2) = 0 ∧ win0_9.index t (1 : Fin 2) = 0 :=
  (by decide +kernel : ∀ t : Fin grid0.N, _)

/-- The bias and scale rows: every point takes the whole array, block `0`. -/
theorem idx_vecs : ∀ t : Fin cfg0.N,
    win0_6.index t (0 : Fin 1) = 0 ∧ win0_8.index t (0 : Fin 1) = 0 ∧ win0_10.index t (0 : Fin 1) = 0
    ∧ win0_11.index t (0 : Fin 1) = 0 ∧ win0_12.index t (0 : Fin 1) = 0 :=
  (by decide +kernel : ∀ t : Fin grid0.N, _)

end Cert.KernelIdeal.EdgeValue

end
-- ==== Proof.KernelSlices.lean ====
/-
  The three 128×128 matrices the kernel multiplies the three incoming rows by are the three consecutive blocks of 128
  rows of the 384×128 first-layer matrix: entry `(k, q)` of the first is entry `(k, q)` of the matrix, of the second
  entry `(128 + k, q)`, of the third entry `(256 + k, q)`.
-/
import proofs.«145845_j47768626266213_1_alg».proof.Proof.Gen.KernelIdeal.Frame
import Idealize.ShloMosaic.Lib.ValueIdx
import Idealize.ShloMosaic.Lib.Pipeline.Value

noncomputable section

namespace Cert.KernelIdeal.EdgeValue

open Cert.KernelIdeal Cert.KernelIdeal.Gen Idealize.ShloMosaic Idealize.ShloMosaic.TcCoe Idealize.ShloMosaic.ValueIdx
open Idealize.ShloMosaic.StableHlo

variable (m : (ℓ : Loc nD τ sig) → Buf (Elt Ideal) ℓ)

/-- The first block as the region finds it: the rows 0–127 of the first-layer matrix. -/
theorem V_block0 (c : Dev nD) : (V m c main_v2 : S128x128.Idx → EReal)
    = extractStridedSlice S128x128 ![0, 0] (m ((c : Thread nD τ).loc main_arg5) : S384x128.Idx → EReal) slices_S384x128_S128x128_0_0 := by
  dsimp only [Gen.V]
  simp only [Gen.hostOps0, Gen.hostOps0_1, Gen.hostOps0_2, List.flatten_cons, List.flatten_nil, List.append_nil, List.cons_append,
    List.nil_append]
  after_results

/-- The second block: the rows 128–255. -/
theorem V_block1 (c : Dev nD) : (V m c main_v3 : S128x128.Idx → EReal)
    = extractStridedSlice S128x128 ![128, 0] (m ((c : Thread nD τ).loc main_arg5) : S384x128.Idx → EReal) slices_S384x128_S128x128_128_0 := by
  dsimp only [Gen.V]
  simp only [Gen.hostOps0, Gen.hostOps0_1, Gen.hostOps0_2, List.flatten_cons, List.flatten_nil, List.append_nil, List.cons_append,
    List.nil_append]
  after_results

/-- The third block: the rows 256–383. -/
theorem V_block2 (c : Dev nD) : (V m c main_v4 : S128x128.Idx → EReal)
    = extractStridedSlice S128x128 ![256, 0] (m ((c : Thread nD τ).loc main_arg5) : S384x128.Idx → EReal) slices_S384x128_S128x128_256_0 := by
  dsimp only [Gen.V]
  simp only [Gen.hostOps0, Gen.hostOps0_1, Gen.hostOps0_2, List.flatten_cons, List.flatten_nil, List.append_nil, List.cons_append,
    List.nil_append]
  after_results

/-- Entry `(k, q)` of the first block is entry `(k, q)` of the matrix. -/
theorem V_block0_apply (c : Dev nD) (k q : Fin 128) :
    (V m c main_v2 : S128x128.Idx → EReal) (ix2 k q)
      = (m ((c : Thread nD τ).loc main_arg5) : S384x128.Idx → EReal) (ix2 (⟨k.val, by omega⟩ : Fin 384) q) := by
  rw [V_block0]
  refine extractStridedSlice_apply _ _ _ (ix2 k q) _ fun a => ?_
  match a with
  | ⟨0, _⟩ => show k.val = 0 + k.val; omega
  | ⟨1, _⟩ => show q.val = 0 + q.val; omega

/-- Entry `(k, q)` of the second block is entry `(128 + k, q)` of the matrix. -/
theorem V_block1_apply (c : Dev nD) (k q : Fin 128) :
    (V m c main_v3 : S128x128.Idx → EReal) (ix2 k q)
      = (m ((c : Thread nD τ).loc main_arg5) : S384x128.Idx → EReal) (ix2 (⟨128 + k.val, by omega⟩ : Fin 384) q) := by
  rw [V_block1]
  refine extractStridedSlice_apply _ _ _ (ix2 k q) _ fun a => ?_
  match a with
  | ⟨0, _⟩ => show 128 + k.val = 128 + k.val; rfl
  | ⟨1, _⟩ => show q.val = 0 + q.val; omega

/-- Entry `(k, q)` of the third block is entry `(256 + k, q)` of the matrix. -/
theorem V_block2_apply (c : Dev nD) (k q : Fin 128) :
    (V m c main_v4 : S128x128.Idx → EReal) (ix2 k q)
      = (m ((c : Thread nD τ).loc main_arg5) : S384x128.Idx → EReal) (ix2 (⟨256 + k.val, by omega⟩ : Fin 384) q) := by
  rw [V_block2]
  refine extractStridedSlice_apply _ _ _ (ix2 k q) _ fun a => ?_
  match a with
  | ⟨0, _⟩ => show 256 + k.val = 256 + k.val; rfl
  | ⟨1, _⟩ => show q.val = 0 + q.val; omega

end Cert.KernelIdeal.EdgeValue

end
-- ==== Proof.KernelBlockReads.lean ====
/-
  Each grid point's blocks as entries of the arrays.

  A window's block at point `t`, read at an entry, is the window's array read at that entry moved by the block's
  position: the three incoming blocks are the rows `5000 t … 5000 t + 4999` of their arrays, and the weight blocks are
  their whole arrays. The three 128×128 blocks of the first-layer matrix are read through to the matrix itself.
-/
import proofs.«145845_j47768626266213_1_alg».proof.Proof.KernelGrid
import proofs.«145845_j47768626266213_1_alg».proof.Proof.KernelSlices

noncomputable section

namespace Cert.KernelIdeal.EdgeValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-! ## A block of any array, read at an entry -/

/-- Entry `(p, k)` of window 0's block at point `t` of an array `A` is `A`'s entry `(5000 t + p, k)`. -/
theorem blk0_read (A : S320000x128.Idx → EReal) (t : Fin cfg0.N) (p : Fin 5000) (k : Fin 128) (e : Fin 320000)
    (he : e.val = t.val * 5000 + p.val) :
    (((cfg0.win 0).blk t).view.read (Elt Ideal) A : FVec Ideal S5000x128 .f32) (ix2 p k) = A (ix2 e k) := by
  obtain ⟨a0, a1, -⟩ := idx_rows t
  rw [View.read_apply]
  show A _ = A _
  congr 1
  funext a; apply Fin.ext
  match a with
  | ⟨0, _⟩ => show win0_0.index t (0 : Fin 2) * 5000 + 1 * p.val = e.val; omega
  | ⟨1, _⟩ => show win0_0.index t (1 : Fin 2) * 128 + 1 * k.val = k.val; omega

/-- Entry `(p, k)` of window 1's block at point `t` of an array `A` is `A`'s entry `(5000 t + p, k)`. -/
theorem blk1_read (A : S320000x128.Idx → EReal) (t : Fin cfg0.N) (p : Fin 5000) (k : Fin 128) (e : Fin 320000)
    (he : e.val = t.val * 5000 + p.val) :
    (((cfg0.win 1).blk t).view.read (Elt Ideal) A : FVec Ideal S5000x128 .f32) (ix2 p k) = A (ix2 e k) := by
  obtain ⟨-, -, a0, a1, -⟩ := idx_rows t
  rw [View.read_apply]
  show A _ = A _
  congr 1
  funext a; apply Fin.ext
  match a with
  | ⟨0, _⟩ => show win0_1.index t (0 : Fin 2) * 5000 + 1 * p.val = e.val; omega
  | ⟨1, _⟩ => show win0_1.index t (1 : Fin 2) * 128 + 1 * k.val = k.val; omega

/-- Entry `(p, k)` of window 2's block at point `t` of an array `A` is `A`'s entry `(5000 t + p, k)`. -/
theorem blk2_read (A : S320000x128.Idx → EReal) (t : Fin cfg0.N) (p : Fin 5000) (k : Fin 128) (e : Fin 320000)
    (he : e.val = t.val * 5000 + p.val) :
    (((cfg0.win 2).blk t).view.read (Elt Ideal) A : FVec Ideal S5000x128 .f32) (ix2 p k) = A (ix2 e k) := by
  obtain ⟨-, -, -, -, a0, a1, -⟩ := idx_rows t
  rw [View.read_apply]
  show A _ = A _
  congr 1
  funext a; apply Fin.ext
  match a with
  | ⟨0, _⟩ => show win0_2.index t (0 : Fin 2) * 5000 + 1 * p.val = e.val; omega
  | ⟨1, _⟩ => show win0_2.index t (1 : Fin 2) * 128 + 1 * k.val = k.val; omega

/-- Entry `(k, j)` of window 3's block, at every point, of an array `A` is `A`'s entry `(k, j)`. -/
theorem blk3_read (A : S128x128.Idx → EReal) (t : Fin cfg0.N) (k j : Fin 128) :
    (((cfg0.win 3).blk t).view.read (Elt Ideal) A : FVec Ideal S128x128 .f32) (ix2 k j) = A (ix2 k j) := by
  obtain ⟨a0, a1, -⟩ := idx_mats t
  rw [View.read_apply]
  show A _ = A _
  congr 1
  funext a; apply Fin.ext
  match a with
  | ⟨0, _⟩ => show win0_3.index t (0 : Fin 2) * 128 + 1 * k.val = k.val; omega
  | ⟨1, _⟩ => show win0_3.index t (1 : Fin 2) * 128 + 1 * j.val = j.val; omega

/-- Entry `(k, j)` of window 4's block, at every point, of an array `A` is `A`'s entry `(k, j)`. -/
theorem blk4_read (A : S128x128.Idx → EReal) (t : Fin cfg0.N) (k j : Fin 128) :
    (((cfg0.win 4).blk t).view.read (Elt Ideal) A : FVec Ideal S128x128 .f32) (ix2 k j) = A (ix2 k j) := by
  obtain ⟨-, -, a0, a1, -⟩ := idx_mats t
  rw [View.read_apply]
  show A _ = A _
  congr 1
  funext a; apply Fin.ext
  match a with
  | ⟨0, _⟩ => show win0_4.index t (0 : Fin 2) * 128 + 1 * k.val = k.val; omega
  | ⟨1, _⟩ => show win0_4.index t (1 : Fin 2) * 128 + 1 * j.val = j.val; omega

/-- Entry `(k, j)` of window 5's block, at every point, of an array `A` is `A`'s entry `(k, j)`. -/
theorem blk5_read (A : S128x128.Idx → EReal) (t : Fin cfg0.N) (k j : Fin 128) :
    (((cfg0.win 5).blk t).view.read (Elt Ideal) A : FVec Ideal S128x128 .f32) (ix2 k j) = A (ix2 k j) := by
  obtain ⟨-, -, -, -, a0, a1, -⟩ := idx_mats t
  rw [View.read_apply]
  show A _ = A _
  congr 1
  funext a; apply Fin.ext
  match a with
  | ⟨0, _⟩ => show win0_5.index t (0 : Fin 2) * 128 + 1 * k.val = k.val; omega
  | ⟨1, _⟩ => show win0_5.index t (1 : Fin 2) * 128 + 1 * j.val = j.val; omega

/-- Entry `(k, j)` of window 7's block, at every point, of an array `A` is `A`'s entry `(k, j)`. -/
theorem blk7_read (A : S128x128.Idx → EReal) (t : Fin cfg0.N) (k j : Fin 128) :
    (((cfg0.win 7).blk t).view.read (Elt Ideal) A : FVec Ideal S128x128 .f32) (ix2 k j) = A (ix2 k j) := by
  obtain ⟨-, -, -, -, -, -, a0, a1, -⟩ := idx_mats t
  rw [View.read_apply]
  show A _ = A _
  congr 1
  funext a; apply Fin.ext
  match a with
  | ⟨0, _⟩ => show win0_7.index t (0 : Fin 2) * 128 + 1 * k.val = k.val; omega
  | ⟨1, _⟩ => show win0_7.index t (1 : Fin 2) * 128 + 1 * j.val = j.val; omega

/-- Entry `(k, j)` of window 9's block, at every point, of an array `A` is `A`'s entry `(k, j)`. -/
theorem blk9_read (A : S128x128.Idx → EReal) (t : Fin cfg0.N) (k j : Fin 128) :
    (((cfg0.win 9).blk t).view.read (Elt Ideal) A : FVec Ideal S128x128 .f32) (ix2 k j) = A (ix2 k j) := by
  obtain ⟨-, -, -, -, -, -, -, -, a0, a1⟩ := idx_mats t
  rw [View.read_apply]
  show A _ = A _
  congr 1
  funext a; apply Fin.ext
  match a with
  | ⟨0, _⟩ => show win0_9.index t (0 : Fin 2) * 128 + 1 * k.val = k.val; omega
  | ⟨1, _⟩ => show win0_9.index t (1 : Fin 2) * 128 + 1 * j.val = j.val; omega

/-- Entry `j` of window 6's block, at every point, of an array `A` is `A`'s entry `j`. -/
theorem blk6_read (A : S128.Idx → EReal) (t : Fin cfg0.N) (j : Fin 128) :
    (((cfg0.win 6).blk t).view.read (Elt Ideal) A : FVec Ideal S128 .f32) (ix1 j) = A (ix1 j) := by
  obtain ⟨a0, -⟩ := idx_vecs t
  rw [View.read_apply]
  show A _ = A _
  congr 1
  funext a; apply Fin.ext
  match a with
  | ⟨0, _⟩ => show win0_6.index t (0 : Fin 1) * 128 + 1 * j.val = j.val; omega

/-- Entry `j` of window 8's block, at every point, of an array `A` is `A`'s entry `j`. -/
theorem blk8_read (A : S128.Idx → EReal) (t : Fin cfg0.N) (j : Fin 128) :
    (((cfg0.win 8).blk t).view.read (Elt Ideal) A : FVec Ideal S128 .f32) (ix1 j) = A (ix1 j) := by
  obtain ⟨-, a0, -⟩ := idx_vecs t
  rw [View.read_apply]
  show A _ = A _
  congr 1
  funext a; apply Fin.ext
  match a with
  | ⟨0, _⟩ => show win0_8.index t (0 : Fin 1) * 128 + 1 * j.val = j.val; omega

/-- Entry `j` of window 10's block, at every point, of an array `A` is `A`'s entry `j`. -/
theorem blk10_read (A : S128.Idx → EReal) (t : Fin cfg0.N) (j : Fin 128) :
    (((cfg0.win 10).blk t).view.read (Elt Ideal) A : FVec Ideal S128 .f32) (ix1 j) = A (ix1 j) := by
  obtain ⟨-, -, a0, -⟩ := idx_vecs t
  rw [View.read_apply]
  show A _ = A _
  congr 1
  funext a; apply Fin.ext
  match a with
  | ⟨0, _⟩ => show win0_10.index t (0 : Fin 1) * 128 + 1 * j.val = j.val; omega

/-- Entry `j` of window 11's block, at every point, of an array `A` is `A`'s entry `j`. -/
theorem blk11_read (A : S128.Idx → EReal) (t : Fin cfg0.N) (j : Fin 128) :
    (((cfg0.win 11).blk t).view.read (Elt Ideal) A : FVec Ideal S128 .f32) (ix1 j) = A (ix1 j) := by
  obtain ⟨-, -, -, a0, -⟩ := idx_vecs t
  rw [View.read_apply]
  show A _ = A _
  congr 1
  funext a; apply Fin.ext
  match a with
  | ⟨0, _⟩ => show win0_11.index t (0 : Fin 1) * 128 + 1 * j.val = j.val; omega

/-- Entry `j` of window 12's block, at every point, of an array `A` is `A`'s entry `j`. -/
theorem blk12_read (A : S128.Idx → EReal) (t : Fin cfg0.N) (j : Fin 128) :
    (((cfg0.win 12).blk t).view.read (Elt Ideal) A : FVec Ideal S128 .f32) (ix1 j) = A (ix1 j) := by
  obtain ⟨-, -, -, -, a0⟩ := idx_vecs t
  rw [View.read_apply]
  show A _ = A _
  congr 1
  funext a; apply Fin.ext
  match a with
  | ⟨0, _⟩ => show win0_12.index t (0 : Fin 1) * 128 + 1 * j.val = j.val; omega

/-! ## The blocks of the arrays the region finds -/

/-- Entry `(p, k)` of window 0's block at point `t` is entry `(5000 t + p, k)` of the gathered sender rows. -/
theorem iblk0_apply (c : Dev nD) (t : Fin cfg0.N) (p : Fin 5000) (k : Fin 128) (e : Fin 320000) (he : e.val = t.val * 5000 + p.val) :
    (iblk m c 0 t : FVec Ideal S5000x128 .f32) (ix2 p k) = (V m c main_v0 : S320000x128.Idx → EReal) (ix2 e k) := by
  unfold iblk
  exact blk0_read (V m c main_v0) t p k e he

/-- Entry `(p, k)` of window 1's block at point `t` is entry `(5000 t + p, k)` of the gathered receiver rows. -/
theorem iblk1_apply (c : Dev nD) (t : Fin cfg0.N) (p : Fin 5000) (k : Fin 128) (e : Fin 320000) (he : e.val = t.val * 5000 + p.val) :
    (iblk m c 1 t : FVec Ideal S5000x128 .f32) (ix2 p k) = (V m c main_v1 : S320000x128.Idx → EReal) (ix2 e k) := by
  unfold iblk
  exact blk1_read (V m c main_v1) t p k e he

/-- Entry `(p, k)` of window 2's block at point `t` is entry `(5000 t + p, k)` of the edge rows. -/
theorem iblk2_apply (c : Dev nD) (t : Fin cfg0.N) (p : Fin 5000) (k : Fin 128) (e : Fin 320000) (he : e.val = t.val * 5000 + p.val) :
    (iblk m c 2 t : FVec Ideal S5000x128 .f32) (ix2 p k) = (m ((c : Thread nD τ).loc main_arg2) : S320000x128.Idx → EReal) (ix2 e k) := by
  unfold iblk
  exact (blk2_read (V m c main_arg2) t p k e he).trans (congrArg (fun f : S320000x128.Idx → EReal => f (ix2 e k)) (V_main_arg2 m c))

/-- Entry `(k, j)` of window 3's block, at every point, is that entry of the first-layer matrix's rows 0–127. -/
theorem iblk3_apply (c : Dev nD) (t : Fin cfg0.N) (k j : Fin 128) :
    (iblk m c 3 t : FVec Ideal S128x128 .f32) (ix2 k j) = (m ((c : Thread nD τ).loc main_arg5) : S384x128.Idx → EReal) (ix2 (⟨k.val, by omega⟩ : Fin 384) j) := by
  unfold iblk
  exact (blk3_read (V m c main_v2) t k j).trans (V_block0_apply m c k j)

/-- Entry `(k, j)` of window 4's block, at every point, is that entry of the first-layer matrix's rows 128–255. -/
theorem iblk4_apply (c : Dev nD) (t : Fin cfg0.N) (k j : Fin 128) :
    (iblk m c 4 t : FVec Ideal S128x128 .f32) (ix2 k j) = (m ((c : Thread nD τ).loc main_arg5) : S384x128.Idx → EReal) (ix2 (⟨128 + k.val, by omega⟩ : Fin 384) j) := by
  unfold iblk
  exact (blk4_read (V m c main_v3) t k j).trans (V_block1_apply m c k j)

/-- Entry `(k, j)` of window 5's block, at every point, is that entry of the first-layer matrix's rows 256–383. -/
theorem iblk5_apply (c : Dev nD) (t : Fin cfg0.N) (k j : Fin 128) :
    (iblk m c 5 t : FVec Ideal S128x128 .f32) (ix2 k j) = (m ((c : Thread nD τ).loc main_arg5) : S384x128.Idx → EReal) (ix2 (⟨256 + k.val, by omega⟩ : Fin 384) j) := by
  unfold iblk
  exact (blk5_read (V m c main_v4) t k j).trans (V_block2_apply m c k j)

/-- Entry `(k, j)` of window 7's block, at every point, is that entry of the second-layer matrix. -/
theorem iblk7_apply (c : Dev nD) (t : Fin cfg0.N) (k j : Fin 128) :
    (iblk m c 7 t : FVec Ideal S128x128 .f32) (ix2 k j) = (m ((c : Thread nD τ).loc main_arg7) : S128x128.Idx → EReal) (ix2 k j) := by
  unfold iblk
  exact (blk7_read (V m c main_arg7) t k j).trans (congrArg (fun f : S128x128.Idx → EReal => f (ix2 k j)) (V_main_arg7 m c))

/-- Entry `(k, j)` of window 9's block, at every point, is that entry of the third-layer matrix. -/
theorem iblk9_apply (c : Dev nD) (t : Fin cfg0.N) (k j : Fin 128) :
    (iblk m c 9 t : FVec Ideal S128x128 .f32) (ix2 k j) = (m ((c : Thread nD τ).loc main_arg9) : S128x128.Idx → EReal) (ix2 k j) := by
  unfold iblk
  exact (blk9_read (V m c main_arg9) t k j).trans (congrArg (fun f : S128x128.Idx → EReal => f (ix2 k j)) (V_main_arg9 m c))

/-- Entry `j` of window 6's block, at every point, is entry `j` of the first-layer bias. -/
theorem iblk6_apply (c : Dev nD) (t : Fin cfg0.N) (j : Fin 128) :
    (iblk m c 6 t : FVec Ideal S128 .f32) (ix1 j) = (m ((c : Thread nD τ).loc main_arg6) : S128.Idx → EReal) (ix1 j) := by
  unfold iblk
  exact (blk6_read (V m c main_arg6) t j).trans (congrArg (fun f : S128.Idx → EReal => f (ix1 j)) (V_main_arg6 m c))

/-- Entry `j` of window 8's block, at every point, is entry `j` of the second-layer bias. -/
theorem iblk8_apply (c : Dev nD) (t : Fin cfg0.N) (j : Fin 128) :
    (iblk m c 8 t : FVec Ideal S128 .f32) (ix1 j) = (m ((c : Thread nD τ).loc main_arg8) : S128.Idx → EReal) (ix1 j) := by
  unfold iblk
  exact (blk8_read (V m c main_arg8) t j).trans (congrArg (fun f : S128.Idx → EReal => f (ix1 j)) (V_main_arg8 m c))

/-- Entry `j` of window 10's block, at every point, is entry `j` of the third-layer bias. -/
theorem iblk10_apply (c : Dev nD) (t : Fin cfg0.N) (j : Fin 128) :
    (iblk m c 10 t : FVec Ideal S128 .f32) (ix1 j) = (m ((c : Thread nD τ).loc main_arg10) : S128.Idx → EReal) (ix1 j) := by
  unfold iblk
  exact (blk10_read (V m c main_arg10) t j).trans (congrArg (fun f : S128.Idx → EReal => f (ix1 j)) (V_main_arg10 m c))

/-- Entry `j` of window 11's block, at every point, is entry `j` of the scale row. -/
theorem iblk11_apply (c : Dev nD) (t : Fin cfg0.N) (j : Fin 128) :
    (iblk m c 11 t : FVec Ideal S128 .f32) (ix1 j) = (m ((c : Thread nD τ).loc main_arg11) : S128.Idx → EReal) (ix1 j) := by
  unfold iblk
  exact (blk11_read (V m c main_arg11) t j).trans (congrArg (fun f : S128.Idx → EReal => f (ix1 j)) (V_main_arg11 m c))

/-- Entry `j` of window 12's block, at every point, is entry `j` of the shift row. -/
theorem iblk12_apply (c : Dev nD) (t : Fin cfg0.N) (j : Fin 128) :
    (iblk m c 12 t : FVec Ideal S128 .f32) (ix1 j) = (m ((c : Thread nD τ).loc main_arg12) : S128.Idx → EReal) (ix1 j) := by
  unfold iblk
  exact (blk12_read (V m c main_arg12) t j).trans (congrArg (fun f : S128.Idx → EReal => f (ix1 j)) (V_main_arg12 m c))

end Cert.KernelIdeal.EdgeValue

end
-- ==== Proof.KernelBlocks.lean ====
/-
  From the blocks to the whole array, and the kernel's run.

  The grid has 64 points; point `t` works on the rows `5000 t … 5000 t + 4999` of the three incoming arrays and writes the
  same rows of the result, and every point sees the whole of each weight array. What point `t` writes back is therefore
  block `t` of the one array whose row `e` is the edge update of the incoming rows at `e`; the 64 blocks cover the
  320000 rows (row `e` lies in the block of point `e / 5000`), so that array is what the run leaves.
-/
import proofs.«145845_j47768626266213_1_alg».proof.Proof.Spec
import proofs.«145845_j47768626266213_1_alg».proof.Proof.Gen.KernelIdeal.Value
import proofs.«145845_j47768626266213_1_alg».proof.Proof.KernelPayload
import proofs.«145845_j47768626266213_1_alg».proof.Proof.KernelBlockReads

noncomputable section

namespace Cert.KernelIdeal.EdgeValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## One entry of a point's result, from the rows it read -/

/-- If row `p` of the three incoming blocks is row `e` of three arrays, and the weight blocks are the weight arrays — the
    three 128×128 blocks the three runs of 128 rows of the first-layer matrix —, then entry `(p, q)` of the block the
    kernel stores is entry `(e, q)` of the edge update of those arrays. -/
theorem entry_of_rows (x0 x1 x2 : FVec Ideal S5000x128 .f32) (x3 x4 x5 : FVec Ideal S128x128 .f32) (x6 : FVec Ideal S128 .f32)
    (x7 : FVec Ideal S128x128 .f32) (x8 : FVec Ideal S128 .f32) (x9 : FVec Ideal S128x128 .f32) (x10 x11 x12 : FVec Ideal S128 .f32)
    (gs gr ef : S320000x128.Idx → EReal) (W0 : S384x128.Idx → EReal) (b0 : S128.Idx → EReal) (W1 : S128x128.Idx → EReal)
    (b1 : S128.Idx → EReal) (W2 : S128x128.Idx → EReal) (b2 g bt : S128.Idx → EReal) (p : Fin 5000) (q : Fin 128) (e : Fin 320000)
    (r0 : ∀ k, x0 (ix2 p k) = gs (ix2 e k)) (r1 : ∀ k, x1 (ix2 p k) = gr (ix2 e k)) (r2 : ∀ k, x2 (ix2 p k) = ef (ix2 e k))
    (r3 : ∀ k j : Fin 128, x3 (ix2 k j) = W0 (ix2 (⟨k.val, by omega⟩ : Fin 384) j))
    (r4 : ∀ k j : Fin 128, x4 (ix2 k j) = W0 (ix2 (⟨128 + k.val, by omega⟩ : Fin 384) j))
    (r5 : ∀ k j : Fin 128, x5 (ix2 k j) = W0 (ix2 (⟨256 + k.val, by omega⟩ : Fin 384) j))
    (r6 : ∀ j, x6 (ix1 j) = b0 (ix1 j)) (r7 : ∀ k j, x7 (ix2 k j) = W1 (ix2 k j)) (r8 : ∀ j, x8 (ix1 j) = b1 (ix1 j))
    (r9 : ∀ k j, x9 (ix2 k j) = W2 (ix2 k j)) (r10 : ∀ j, x10 (ix1 j) = b2 (ix1 j)) (r11 : ∀ j, x11 (ix1 j) = g (ix1 j))
    (r12 : ∀ j, x12 (ix1 j) = bt (ix1 j)) :
    k0_pay1 (F := Ideal) (k0_pay2 x0 x1 x2 x3 x4 x5 x6 x7 x8 x9) x10 x11 x12 (ix2 p q)
      = Cert.EdgeUpdate.result gs gr ef W0 b0 W1 b1 W2 b2 g bt e q := by
  rw [block_apply]
  unfold Cert.EdgeUpdate.result
  simp only [r0, r1, r2, r3, r4, r5, r6, r7, r8, r9, r10, r11, r12]

/-! ## What a point writes back -/

/-- If every entry `(p, q)` the body computes from the blocks `x` is entry `(5000 t + p, q)` of an array `G`, then what point
    `t` writes back from those blocks is block `t` of `G`. -/
theorem write_back (x0 x1 x2 : Vec Ideal S5000x128 .f32) (x3 x4 x5 : Vec Ideal S128x128 .f32) (x6 : Vec Ideal S128 .f32)
    (x7 : Vec Ideal S128x128 .f32) (x8 : Vec Ideal S128 .f32) (x9 : Vec Ideal S128x128 .f32) (x10 x11 x12 : Vec Ideal S128 .f32)
    (G : S320000x128.Idx → EReal) (t : Fin cfg0.N)
    (hG : ∀ (p : Fin 5000) (q : Fin 128) (i : S320000x128.Idx), (i 0).val = t.val * 5000 + p.val → (i 1).val = q.val →
      k0_pay1 (F := Ideal) (k0_pay2 x0 x1 x2 x3 x4 x5 x6 x7 x8 x9) x10 x11 x12 (ix2 p q) = G i) :
    (cfg0.win 13).cut (grid0.coords t) (out0_13 x0 x1 x2 x3 x4 x5 x6 x7 x8 x9 x10 x11 x12)
      = ((cfg0.win 13).blk t).view.read (Elt Ideal) G := by
  obtain ⟨-, -, -, -, -, -, o0, o1⟩ := idx_rows t
  unfold out0_13
  rw [View.canon_unit_zero origin2]
  simp only [View.ld_unit_zero (S := S5000x128) origin2, View.ld_unit_zero (S := S128x128) origin2,
    View.ld_unit_zero (S := S128) origin1]
  funext j
  obtain ⟨p, q, rfl⟩ : ∃ (p : Fin 5000) (q : Fin 128), j = ix2 p q := ⟨j 0, j 1, eq_ix2 j⟩
  show k0_pay1 (F := Ideal) (k0_pay2 x0 x1 x2 x3 x4 x5 x6 x7 x8 x9) x10 x11 x12 (ix2 p q) = G (((cfg0.win 13).blk t).view.emb (ix2 p q))
  refine hG p q _ ?_ ?_
  · show win0_13.index t (0 : Fin 2) * 5000 + 1 * p.val = t.val * 5000 + p.val; omega
  · show win0_13.index t (1 : Fin 2) * 128 + 1 * q.val = q.val; omega

/-- The array the run leaves in the result: row `e` is the edge update of the incoming rows at `e`. -/
abbrev resultArr (c : Dev nD) : Buf (Elt Ideal) ((c : Thread nD τ).loc main_v5) :=
  fun i : S320000x128.Idx => Cert.EdgeUpdate.result (V m c main_v0) (V m c main_v1)
      (m ((c : Thread nD τ).loc main_arg2)) (m ((c : Thread nD τ).loc main_arg5)) (m ((c : Thread nD τ).loc main_arg6))
      (m ((c : Thread nD τ).loc main_arg7)) (m ((c : Thread nD τ).loc main_arg8)) (m ((c : Thread nD τ).loc main_arg9))
      (m ((c : Thread nD τ).loc main_arg10)) (m ((c : Thread nD τ).loc main_arg11)) (m ((c : Thread nD τ).loc main_arg12))
      (i 0) (i 1)

/-- Entry `(p, q)` of what point `t` computes is entry `(5000 t + p, q)` of that array. -/
theorem flushed_entry (c : Dev nD) (t : Fin cfg0.N) (p : Fin 5000) (q : Fin 128) (i : S320000x128.Idx)
    (h0 : (i 0).val = t.val * 5000 + p.val) (h1 : (i 1).val = q.val) :
    k0_pay1 (F := Ideal) (k0_pay2 (iblk m c 0 t) (iblk m c 1 t) (iblk m c 2 t) (iblk m c 3 t) (iblk m c 4 t) (iblk m c 5 t) (iblk m c 6 t) (iblk m c 7 t) (iblk m c 8 t) (iblk m c 9 t)) (iblk m c 10 t) (iblk m c 11 t) (iblk m c 12 t) (ix2 p q)
      = resultArr m c i := by
  have hq : (i 1 : Fin 128) = q := Fin.ext h1
  show _ = Cert.EdgeUpdate.result (V m c main_v0) (V m c main_v1)
      (m ((c : Thread nD τ).loc main_arg2)) (m ((c : Thread nD τ).loc main_arg5)) (m ((c : Thread nD τ).loc main_arg6))
      (m ((c : Thread nD τ).loc main_arg7)) (m ((c : Thread nD τ).loc main_arg8)) (m ((c : Thread nD τ).loc main_arg9))
      (m ((c : Thread nD τ).loc main_arg10)) (m ((c : Thread nD τ).loc main_arg11)) (m ((c : Thread nD τ).loc main_arg12))
      (i 0) (i 1)
  rw [hq]
  exact entry_of_rows (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    (V m c main_v0) (V m c main_v1)
      (m ((c : Thread nD τ).loc main_arg2)) (m ((c : Thread nD τ).loc main_arg5)) (m ((c : Thread nD τ).loc main_arg6))
      (m ((c : Thread nD τ).loc main_arg7)) (m ((c : Thread nD τ).loc main_arg8)) (m ((c : Thread nD τ).loc main_arg9))
      (m ((c : Thread nD τ).loc main_arg10)) (m ((c : Thread nD τ).loc main_arg11)) (m ((c : Thread nD τ).loc main_arg12)) p q (i 0)
    (fun k => iblk0_apply m c t p k (i 0) h0) (fun k => iblk1_apply m c t p k (i 0) h0) (fun k => iblk2_apply m c t p k (i 0) h0)
    (fun k j => iblk3_apply m c t k j) (fun k j => iblk4_apply m c t k j) (fun k j => iblk5_apply m c t k j)
    (fun j => iblk6_apply m c t j) (fun k j => iblk7_apply m c t k j) (fun j => iblk8_apply m c t j)
    (fun k j => iblk9_apply m c t k j) (fun j => iblk10_apply m c t j) (fun j => iblk11_apply m c t j)
    (fun j => iblk12_apply m c t j)

/-- What point `t` writes back is block `t` of that array. -/
theorem flushed_eq (c : Dev nD) (t : Fin cfg0.N) :
    (dats m 0 c).flushed 13 t = ((cfg0.win 13).blk t).view.read (Elt Ideal) (resultArr m c) := by
  rw [Value.flushed13]
  exact write_back (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    (resultArr m c) t (fun p q i h0 h1 => flushed_entry m c t p q i h0 h1)

/-! ## The blocks cover the array -/

/-- An entry of the result is in point `t`'s block iff each coordinate is in the block's range on its axis. -/
theorem mem_blk (t : Fin cfg0.N) (i : S320000x128.Idx) :
    i ∈ ((cfg0.win 13).blk t).view.set ↔ ∀ a : Fin 2, win0_13.index t a * S5000x128.size a ≤ (i a).val ∧ (i a).val < win0_13.index t a * S5000x128.size a + S5000x128.size a := by
  show i ∈ ((View.whole main_v5).slice (win0_13.rect t)).set ↔ _
  rw [View.set_slice_whole, Rect.mem_set_unit]
  exact Iff.rfl

/-- Row `e` lies in the block of point `e / 5000`. -/
theorem cover (i : S320000x128.Idx) :
    ∃ t : Fin cfg0.N, (cfg0.win 13).flush t = true ∧ i ∈ ((cfg0.win 13).blk t).view.set := by
  have hi0 : (i 0).val < 320000 := (i 0).isLt
  have hi1 : (i 1).val < 128 := (i 1).isLt
  have hN : cfg0.N = 64 := N_0
  obtain ⟨t, ht⟩ : ∃ t : Fin cfg0.N, t.val = (i 0).val / 5000 := ⟨⟨(i 0).val / 5000, by rw [hN]; omega⟩, rfl⟩
  obtain ⟨-, -, -, -, -, -, o0, o1⟩ := idx_rows t
  refine ⟨t, flush0_13 t, ?_⟩
  rw [mem_blk]
  intro a
  match a with
  | ⟨0, _⟩ => show win0_13.index t (0 : Fin 2) * 5000 ≤ (i 0).val ∧ (i 0).val < win0_13.index t (0 : Fin 2) * 5000 + 5000; omega
  | ⟨1, _⟩ => show win0_13.index t (1 : Fin 2) * 128 ≤ (i 1).val ∧ (i 1).val < win0_13.index t (1 : Fin 2) * 128 + 128; omega

/-- So the result array ends holding the edge update of every row. -/
theorem final (c : Dev nD) : (dats m 0 c).arrAt 13 cfg0.N = resultArr m c :=
  (dats m 0 c).arrAt_eq_of_cover 13 (resultArr m c) (fun t _ => flushed_eq m c t) cover

/-! ## The run -/

/-- Every weakly fair execution of the kernel's program terminates with the result array at the edge update of the
    incoming rows, row by row, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v5)
        = (fun i : S320000x128.Idx => Cert.EdgeUpdate.result (V m c main_v0) (V m c main_v1)
            (m ((c : Thread nD τ).loc main_arg2)) (m ((c : Thread nD τ).loc main_arg5)) (m ((c : Thread nD τ).loc main_arg6))
            (m ((c : Thread nD τ).loc main_arg7)) (m ((c : Thread nD τ).loc main_arg8)) (m ((c : Thread nD τ).loc main_arg9))
            (m ((c : Thread nD τ).loc main_arg10)) (m ((c : Thread nD τ).loc main_arg11)) (m ((c : Thread nD τ).loc main_arg12))
            (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨(h c).1.trans (final m c), (h c).2⟩) (Value.run_blocks m ρ)

end Cert.KernelIdeal.EdgeValue

end
-- ==== Proof.lean ====
/-
  The edge update of a message-passing layer: a tiled kernel against its whole-array reference, on the extended reals.

  Both programs gather a sender row and a receiver row for each of the 320000 edges, with the same operations, and send
  the three 128-wide rows of every edge through two hidden layers with a maximum against zero, a third affine layer, and a
  normalisation of the resulting row. The kernel works on blocks of 5000 edges and multiplies the three rows by the three
  128-row blocks of the first weight matrix, adding the products; the reference sets the three rows side by side and
  multiplies the 384-wide row by the whole matrix. Entry by entry the two are the same function of the arguments, because a
  sum over 384 terms is the sum of its three runs of 128 terms — a law of any commutative monoid, so nothing is asked of
  the inputs beyond what the programs' frames ask. The reference's variance is guarded by a test that its divisor, 128
  less the zero degrees of freedom given up, is positive; it is, and the divisor is 128, so it is the kernel's mean of the
  squared deviations. The rewriting pass changed nothing in the kernel, so that conjunct is the true proposition.

  The modules: Spec (one edge's row function, the law about sums), RefTerm / RefRun / RefValue (the reference's stages,
  its run, its result entry by entry), GatheredRows (the arrays the kernel's region starts from), and the kernel's own
  value modules (its block's payload entry by entry, and the blocks set together into the whole array).
-/
import proofs.«145845_j47768626266213_1_alg».proof.Defs
import proofs.«145845_j47768626266213_1_alg».proof.Proof.Gen.Kernel
import proofs.«145845_j47768626266213_1_alg».proof.Proof.Gen.Kernel.Skeleton
import proofs.«145845_j47768626266213_1_alg».proof.Proof.Gen.Kernel.Launch
import proofs.«145845_j47768626266213_1_alg».proof.Proof.Gen.Kernel.Points
import proofs.«145845_j47768626266213_1_alg».proof.Proof.Gen.Kernel.Frame
import proofs.«145845_j47768626266213_1_alg».proof.Proof.Gen.KernelIdeal
import proofs.«145845_j47768626266213_1_alg».proof.Proof.Gen.KernelIdeal.Skeleton
import proofs.«145845_j47768626266213_1_alg».proof.Proof.Gen.KernelIdeal.Launch
import proofs.«145845_j47768626266213_1_alg».proof.Proof.Gen.KernelIdeal.Points
import proofs.«145845_j47768626266213_1_alg».proof.Proof.Gen.KernelIdeal.Frame
import proofs.«145845_j47768626266213_1_alg».proof.Proof.Gen.KernelIdeal.Value
import proofs.«145845_j47768626266213_1_alg».proof.Proof.Gen.ReferenceIdeal
import proofs.«145845_j47768626266213_1_alg».proof.Proof.Gen.Pre_finite_inputs
import proofs.«145845_j47768626266213_1_alg».proof.Proof.Spec
import proofs.«145845_j47768626266213_1_alg».proof.Proof.RefRun
import proofs.«145845_j47768626266213_1_alg».proof.Proof.RefValue
import proofs.«145845_j47768626266213_1_alg».proof.Proof.GatheredRows
import proofs.«145845_j47768626266213_1_alg».proof.Proof.KernelBlocks
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel as printed terminates, faults nowhere and leaves its arguments alone. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.EdgeRun.run (F := Ideal) m ρ)

/-- The rewriting pass changed nothing. -/
theorem preserves : Cert.preserves_Kernel_KernelIdeal := trivial

/-- From memories agreeing on the arguments both programs end with the same array: entry (e, j) of either is entry j of
    edge e's output row, the gathered rows being one function of the arguments on both sides. -/
theorem algebraic : Cert.algebraic_KernelIdeal_ReferenceIdeal := by
  intro m ρ m' ρ' _ hagree
  refine ⟨_, Cert.KernelIdeal.EdgeValue.run m ρ, ?_⟩
  refine (θ_run Cert.ReferenceIdeal.defs _ _).mono (fun _ h c => ⟨(h c).1.trans ?_, (h c).2⟩)
    (Cert.ReferenceIdeal.EdgeRun.run (F := Ideal) m' ρ')
  obtain ⟨h0, h1, h2, h3, h4, h5, h6, h7, h8, h9, h10, h11, h12⟩ := hagree c
  funext i
  obtain ⟨e, j, rfl⟩ : ∃ (e : Fin 320000) (j : Fin 128), i = ix2 e j := ⟨i 0, i 1, eq_ix2 i⟩
  rw [Cert.ReferenceIdeal.EdgeRead.out_apply, h0, h1, h2, h3, h4, h5, h6, h7, h8, h9, h10, h11, h12,
    Cert.KernelIdeal.EdgeBridge.V_sender, Cert.KernelIdeal.EdgeBridge.V_receiver]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
